-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S256 .f32) (main_arg6 : FVec F S256x2 .f32) (main_arg7 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x2 .f32) (main_arg7 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x256 : Shape := ⟨2, ![2000, 256]⟩
abbrev S2000x1 : Shape := ⟨2, ![2000, 1]⟩
abbrev S850000x256 : Shape := ⟨2, ![850000, 256]⟩
abbrev S1x256 : Shape := ⟨2, ![1, 256]⟩
abbrev S1x2 : Shape := ⟨2, ![1, 2]⟩
abbrev S50000x2 : Shape := ⟨2, ![50000, 2]⟩
abbrev S2000x2 : Shape := ⟨2, ![2000, 2]⟩
abbrev S2000 : Shape := ⟨1, ![2000]⟩

abbrev nBuf : Space → Nat
  | .hbm => 69
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x256, .bf16⟩
  | .hbm, ⟨31, _⟩ => ⟨S256x256, .bf16⟩
  | .hbm, ⟨32, _⟩ => ⟨S50000x256, .bf16⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x256, .bf16⟩
  | .hbm, ⟨42, _⟩ => ⟨S850000x256, .f32⟩
  | .hbm, ⟨43, _⟩ => ⟨S_, .f32⟩
  | .hbm, ⟨44, _⟩ => ⟨S50000x256, .f32⟩
  | .hbm, ⟨45, _⟩ => ⟨S850000x1, .i32⟩
  | .hbm, ⟨46, _⟩ => ⟨S50000x256, .f32⟩
  | .hbm, ⟨47, _⟩ => ⟨S1x256, .f32⟩
  | .hbm, ⟨48, _⟩ => ⟨S50000x256, .bf16⟩
  | .hbm, ⟨49, _⟩ => ⟨S256x256, .bf16⟩
  | .hbm, ⟨50, _⟩ => ⟨S50000x256, .bf16⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .bf16⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S256x2, .bf16⟩
  | .hbm, ⟨67, _⟩ => ⟨S1x2, .f32⟩
  | .hbm, ⟨68, _⟩ => ⟨S50000x2, .f32⟩
  | .local _ .vmem, ⟨0, _⟩ => ⟨S2000x256, .bf16⟩
  | .local _ .vmem, ⟨1, _⟩ => ⟨S2000x256, .bf16⟩
  | .local _ .vmem, ⟨2, _⟩ => ⟨S256x256, .bf16⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .bf16⟩
  | .local _ .vmem, ⟨13, _⟩ => ⟨S2000x256, .bf16⟩
  | .local _ .vmem, ⟨14, _⟩ => ⟨S2000x256, .bf16⟩
  | .local _ .vmem, ⟨15, _⟩ => ⟨S2000x256, .bf16⟩
  | .local _ .vmem, ⟨16, _⟩ => ⟨S256x256, .bf16⟩
  | .local _ .vmem, ⟨17, _⟩ => ⟨S2000x1, .f32⟩
  | .local _ .vmem, ⟨18, _⟩ => ⟨S2000x1, .f32⟩
  | .local _ .vmem, ⟨19, _⟩ => ⟨S2000x256, .bf16⟩
  | .local _ .vmem, ⟨20, _⟩ => ⟨S2000x256, .bf16⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S256x2, .bf16⟩
  | .local _ .vmem, ⟨27, _⟩ => ⟨S1x2, .f32⟩
  | .local _ .vmem, ⟨28, _⟩ => ⟨S2000x2, .f32⟩
  | .local _ .vmem, ⟨29, _⟩ => ⟨S2000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x2 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S2_S1x2 : S2.ShapeCasts S1x2
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S50000_S850000x1_S850000_n_0_0_1_wf : ScatterDims.WF S50000 S850000x1 S850000 [] [0] [0] 1
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .bf16 = 32 ∨ (Rect.block (s := S50000x256) S2000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .bf16 = 32 ∨ (Rect.block (s := S50000x256) S2000x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x2.size a ≤ S256x2.size a
  hwx3_3 : ∀ i : grid3.Coords, EltTy.bits .bf16 = 32 ∨ (Rect.block (s := S256x2) S256x2.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x2.size a ≤ S50000x2.size a
  hwx3_5 : ∀ i : grid3.Coords, EltTy.bits .f32 = 32 ∨ (Rect.block (s := S50000x2) S2000x2.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_v16) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v44) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S256x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S2000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x2 : Shape := ⟨2, ![50000, 2]⟩
abbrev S1x2 : Shape := ⟨2, ![1, 2]⟩
abbrev S50000x1 : Shape := ⟨2, ![50000, 1]⟩

abbrev nBuf : Space → Nat
  | .hbm => 113
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x1, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x2, .f32⟩
  | .hbm, ⟨95, _⟩ => ⟨S1x2, .f32⟩
  | .hbm, ⟨96, _⟩ => ⟨S50000x2, .f32⟩
  | .hbm, ⟨97, _⟩ => ⟨S50000x2, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x2, .f32⟩
  | .hbm, ⟨105, _⟩ => ⟨S50000x2, .f32⟩
  | .hbm, ⟨106, _⟩ => ⟨S50000x2, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S50000x1, .f32⟩
  | .hbm, ⟨111, _⟩ => ⟨S50000x2, .f32⟩
  | .hbm, ⟨112, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x2_S50000x2_1_0_0_1_n_n_wf : DotDims.WF S50000x256 S256x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.Spec.lean ====
/-
  The two-layer graph convolution as plain mathematics, free of either program.

  Nodes are `Fin 50000`, features `Fin 256`, edges (self loops included) `Fin 850000`, classes `Fin 2`.
  An edge `e` carries a destination word `dI (e, 0)` and a source word `sI (e, 0)`. The accumulating scatter reads
  the destination SIGNED and drops an edge whose destination is not a node; the gather reads the source signed
  and CLAMPS it into the node range. So the edges that reach node `v` are `hits dI v`, and the row an edge
  carries is `clampRow sI e`.

  One layer, in the arrangement that scales rows before and after the aggregation: with `d` the column of
  inverse square roots of the degrees,
    `rowScaled A W d (v, c)      = (∑ k, A (v, k) * W (k, c)) * d v`
    `aggregate dI sI H (v, c)    = 0 + ∑ e ∈ hits dI v, H (clampRow sI e, c)`
    `scaleBiasRelu G d b (v, c)  = max (G (v, c) * d v + b c) 0`.
  In the arrangement that weights each edge by `d (source) * d (destination)` the same layer is `edgeWeighted`.
  The head is a 256 → 2 product, a bias, and a log-softmax of each row of two logits.
-/
import Idealize.ShloMosaic.PureOps.Ideal
import Idealize.ShloMosaic.Lib.ValueIdx

noncomputable section

open scoped BigOperators
open Idealize.ShloMosaic Idealize.ShloMosaic.ValueIdx

namespace Cert.Gcn

/-- A node-by-feature matrix of extended reals. -/
abbrev NodeMat := (⟨2, ![50000, 256]⟩ : Shape).Idx → EReal
/-- A feature-by-feature weight matrix. -/
abbrev WMat := (⟨2, ![256, 256]⟩ : Shape).Idx → EReal
/-- One number per node, laid as a column. -/
abbrev NodeCol := (⟨2, ![50000, 1]⟩ : Shape).Idx → EReal
/-- One number per feature, laid as a row. -/
abbrev FeatRow := (⟨2, ![1, 256]⟩ : Shape).Idx → EReal
/-- One 32-bit word per edge, laid as a column. -/
abbrev EdgeCol := IVec ⟨2, ![850000, 1]⟩ 32
/-- The head's weights, biases (as a row) and the node-by-class result. -/
abbrev HeadMat := (⟨2, ![256, 2]⟩ : Shape).Idx → EReal
abbrev ClassRow := (⟨2, ![1, 2]⟩ : Shape).Idx → EReal
abbrev NodeClass := (⟨2, ![50000, 2]⟩ : Shape).Idx → EReal

/-- The node row an edge's source word names: read signed, clamped into the node range. -/
def clampRow (sI : EdgeCol) (e : Fin 850000) : Fin 50000 :=
  ⟨min (sI (ix2 e 0)).toInt.toNat (50000 - 1), by omega⟩

/-- The edges whose destination word, read signed, is the node `v`. -/
def hits (dI : EdgeCol) (v : Fin 50000) : Finset (Fin 850000) :=
  Finset.univ.filter (fun e : Fin 850000 => (dI (ix2 e 0)).toInt = (v.val : Int))

/-- Row `v` of `A` against column `c` of `W`. -/
def prod (A : NodeMat) (W : WMat) (v : Fin 50000) (c : Fin 256) : EReal :=
  ∑ k : Fin 256, A (ix2 v k) * W (ix2 k c)

/-- The product `A · W` with row `v` scaled by the column's entry `v`. -/
def rowScaled (A : NodeMat) (W : WMat) (col : NodeCol) : NodeMat :=
  fun i => prod A W (i 0) (i 1) * col (ix2 (i 0) (0 : Fin 1))

/-- Each node's sum, from zero, of the rows its incoming edges carry. -/
def aggregate (dI sI : EdgeCol) (H : NodeMat) : NodeMat :=
  fun i => 0 + ∑ e ∈ hits dI (i 0), H (ix2 (clampRow sI e) (i 1))

/-- Scale row `v` by the column's entry `v`, add the bias row, clip below at zero. -/
def scaleBiasRelu (G : NodeMat) (col : NodeCol) (b : FeatRow) : NodeMat :=
  fun i => max (G i * col (ix2 (i 0) (0 : Fin 1)) + b (ix2 (0 : Fin 1) (i 1))) 0

/-- One layer with the per-edge weight `dinv (source) * dinv (destination)`, the destination read through its own
    index column `wdI`. -/
def edgeWeighted (dI sI wdI : EdgeCol) (dinv : Fin 50000 → EReal) (A : NodeMat) (W : WMat) (b : Fin 256 → EReal) : NodeMat :=
  fun i => max ((0 + ∑ e ∈ hits dI (i 0),
      prod A W (clampRow sI e) (i 1) * (dinv (clampRow sI e) * dinv (clampRow wdI e))) + b (i 1)) 0

/-- The two logits of node `v`: the hidden row against the head's weights, plus the head's bias. -/
def logit (Hd : NodeMat) (Wfc : HeadMat) (bfc : Fin 2 → EReal) (v : Fin 50000) (j : Fin 2) : EReal :=
  (∑ k : Fin 256, Hd (ix2 v k) * Wfc (ix2 k j)) + bfc j

/-- The log-softmax of a row of two numbers: shift by the row's maximum, subtract the log of the sum of
    exponentials of the shifted row (the sum started at zero). -/
def logSoftmax2 (z : Fin 2 → EReal) (j : Fin 2) : EReal :=
  (z j - Finset.univ.fold max ⊥ z) - Ideal.log (0 + ∑ k : Fin 2, Ideal.exp (z k - Finset.univ.fold max ⊥ z))

/-- The head on a hidden matrix: the log-softmax of each node's two logits. -/
def head (Hd : NodeMat) (Wfc : HeadMat) (bfc : Fin 2 → EReal) : NodeClass :=
  fun i => logSoftmax2 (logit Hd Wfc bfc (i 0)) (i 1)

end Cert.Gcn

end
-- ==== Proof.KTerms.lean ====
/-
  The host-side terms of the idealized kernel, as functions of the edge list, and the kernel's result as ONE function
  of its eight arguments.

  From the edge list: every edge's source and destination word (the self loops appended), the destination words as
  the column the scatter reads, the source words wrapped (a negative word moved up by the number of nodes) as the
  column the gather reads, the degree of every node (from zero, one per edge that reaches it), and the inverse square
  root of the degree where it is positive, zero elsewhere, as a vector and as a column.
  The result: with `d` that column, one layer is  rows of (features · weights) scaled by `d`  →  the rows the edges
  carry added up per destination  →  scaled by `d`, biased, clipped at zero;  two layers, then the head.
-/
import proofs.«122100_j8770323219094_2_alg».proof.Proof.Gen.KernelIdeal
import proofs.«122100_j8770323219094_2_alg».proof.Proof.Spec

noncomputable section

namespace Cert.KernelIdeal.Terms

open Cert.KernelIdeal Cert.KernelIdeal.Gen
open Idealize.ShloMosaic Idealize.ShloMosaic.ValueIdx

/-! ## The host terms: the edge words, the degrees, the inverse square roots -/

/-- Every edge's source word: row 0 of the edge list, then the node numbers (the self loops). -/
def srcWords (ei : IVec S2x800000 32) : IVec S850000 32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

/-- Every edge's destination word: row 1 of the edge list, then the node numbers. -/
def dstWords (ei : IVec S2x800000 32) : IVec S850000 32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

/-- A column of words with the negative ones moved up by the number of nodes. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The destination words as a column, as the scatter reads them. -/
def dstCol (ei : IVec S2x800000 32) : IVec S850000x1 32 :=
  broadcastInDim S850000x1 ![0] bcast_S850000_S850000x1_0 (dstWords ei)

/-- The source words, wrapped, as a column, as the gather reads them. -/
def srcCol (ei : IVec S2x800000 32) : IVec S850000x1 32 := wrapCol (srcWords ei)

/-- The degree of every node: from zero, one for every edge that reaches it. -/
def degrees (ei : IVec S2x800000 32) : FVec Ideal S50000 .f32 :=
  Host.scatterAdd scatter_S50000_S850000x1_S850000_n_0_0_1
    (broadcastInDim S50000 ![] bcast_S_S50000 (constant (F := Ideal) S_ .f32 0x00000000#32)) (dstCol ei)
    (broadcastInDim S850000 ![] bcast_S_S850000 (constant (F := Ideal) S_ .f32 0x3F800000#32))

/-- The inverse square root of the degree where the degree is positive, zero elsewhere. -/
def dinvVec (ei : IVec S2x800000 32) : FVec Ideal S50000 .f32 :=
  select (cmpf .ogt (degrees ei) (broadcastInDim S50000 ![] bcast_S_S50000 (constant (F := Ideal) S_ .f32 0x00000000#32)))
    (Host.rsqrt (degrees ei))
    (broadcastInDim S50000 ![] bcast_S_S50000 (id (constant (F := Ideal) S_ .f32 0x00000000#32)))

/-- The same as a column. -/
def dinvCol (ei : IVec S2x800000 32) : FVec Ideal S50000x1 .f32 := shapeCast S50000x1 (dinvVec ei) shapeCasts_S50000_S50000x1

/-- The cast to the narrower float format (the identity on extended reals). -/
def toBf16 {s : Shape} (x : FVec Ideal s .f32) : FVec Ideal s .bf16 := truncf .bf16 x bitsLt_bf16_f32

/-- The rows the edges carry (source words `sW`, wrapped), added up per destination word `dW` from zero. -/
def gatherAddW (dW sW : IVec S850000 32) (H : FVec Ideal S50000x256 .bf16) : FVec Ideal S50000x256 .f32 :=
  Host.scatterAdd scatter_S50000x256_S850000x1_S850000x256_1_0_0_1
    (broadcastInDim S50000x256 ![] bcast_S_S50000x256 (constant (F := Ideal) S_ .f32 0x00000000#32))
    (broadcastInDim S850000x1 ![0] bcast_S850000_S850000x1_0 dW)
    (extf .f32 (Host.gather gather_S50000x256_S850000x1_S850000x256_1_0_n_n_0_1_1256 H (wrapCol sW)) bitsLt_bf16_f32)

/-- The rows the edges carry, added up per destination from zero: the stretch between two regions. -/
def gatherAdd (ei : IVec S2x800000 32) (H : FVec Ideal S50000x256 .bf16) : FVec Ideal S50000x256 .f32 :=
  gatherAddW (dstWords ei) (srcWords ei) H

/-- The idealized kernel's result as one function of its arguments. -/
def kernelOut (x : FVec Ideal S50000x256 .f32) (ei : IVec S2x800000 32) (w1 : FVec Ideal S256x256 .f32) (b1 : FVec Ideal S256 .f32)
    (w2 : FVec Ideal S256x256 .f32) (b2 : FVec Ideal S256 .f32) (wfc : FVec Ideal S256x2 .f32) (bfc : FVec Ideal S2 .f32) :
    FVec Ideal S50000x2 .f32 :=
  Cert.Gcn.head
    (Cert.Gcn.scaleBiasRelu
      (gatherAdd ei (Cert.Gcn.rowScaled
        (Cert.Gcn.scaleBiasRelu (gatherAdd ei (Cert.Gcn.rowScaled (toBf16 x) (toBf16 w1) (dinvCol ei))) (dinvCol ei)
          (shapeCast S1x256 b1 shapeCasts_S256_S1x256))
        (toBf16 w2) (dinvCol ei)))
      (dinvCol ei) (shapeCast S1x256 b2 shapeCasts_S256_S1x256))
    (toBf16 wfc) (fun j => shapeCast S1x2 bfc shapeCasts_S2_S1x2 (ix2 (0 : Fin 1) j))

end Cert.KernelIdeal.Terms

end
-- ==== Proof.KChain.lean ====
/-
  What the idealized kernel's buffers hold at each boundary of @main, down to the result.

  @main is: stretches of host operations that build, from the edge list, the source and destination words of every
  edge (self loops appended), the degree of every node and the column of inverse square roots of the degrees, and
  cast the features and the first weights; region 0 (the product with its rows scaled by the column); a stretch that
  gathers the rows the edges carry and adds them up per destination; region 1 (scale, bias, clip); a cast; region 2
  (the second scaled product); the second gather-and-add stretch; region 3 (scale, bias, clip, head).
  A stretch changes only the buffers it writes; a region changes only its output array, to what its grid points wrote
  back, and an array a region only reads is left as entered. Walking the boundaries in order, the result array is the
  head applied to two layers, each layer  rows scaled → gathered and added per destination → scaled, biased, clipped.
-/
import proofs.«122100_j8770323219094_2_alg».proof.Proof.Gen.KernelIdeal.Frame
import proofs.«122100_j8770323219094_2_alg».proof.Proof.LibLine
import proofs.«122100_j8770323219094_2_alg».proof.Proof.KTerms
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Terms
open Idealize.ShloMosaic Idealize.ShloMosaic.TcCoe Idealize.ShloMosaic.StableHlo Idealize.ShloMosaic.ValueIdx Idealize.SL.Sem
open Idealize.ShloMosaic.Pipeline (Dat)

/-! ## What each stretch writes -/

abbrev outs0 : List (Ref sig .tc) := [main_v0, main_v1, main_v2, main_v3, main_v4, main_v5, main_v6, main_cst, main_v7,
  main_cst_0, main_v8, main_v9, main_v10, main_cst_1, main_v11, main_v12, main_v13, main_cst_2]
abbrev outs0_1 : List (Ref sig .tc) := [main_call0_v0, main_call0_v1, main_v14]
abbrev outs0_2 : List (Ref sig .tc) := [main_v15, main_v16, main_v17]
abbrev outs1 : List (Ref sig .tc) := [main_c, main_v19, main_v20, main_c_3, main_v21, main_v22, main_v23, main_v24, main_v25,
  main_v26, main_cst_4, main_v27, main_v28, main_v29, main_v30]
abbrev outs2 : List (Ref sig .tc) := [main_v32]
abbrev outs3 : List (Ref sig .tc) := [main_c_5, main_v34, main_v35, main_c_6, main_v36, main_v37, main_v38, main_v39, main_v40,
  main_v41, main_cst_7, main_v42, main_v43, main_v44, main_v45, main_v46, main_v47]

theorem writes0 : Cert.LibLine.WritesAre (hostOps0 (F := Ideal)) outs0 := by repeat' constructor
theorem writes0_1 : Cert.LibLine.WritesAre (hostOps0_1 (F := Ideal)) outs0_1 := by repeat' constructor
theorem writes0_2 : Cert.LibLine.WritesAre (hostOps0_2 (F := Ideal)) outs0_2 := by repeat' constructor
theorem writes1 : Cert.LibLine.WritesAre (hostOps1 (F := Ideal)) outs1 := by repeat' constructor
theorem writes2 : Cert.LibLine.WritesAre (hostOps2 (F := Ideal)) outs2 := by repeat' constructor
theorem writes3 : Cert.LibLine.WritesAre (hostOps3 (F := Ideal)) outs3 := by repeat' constructor

/-! ## Each stretch, read at the buffers later boundaries need, over any contents before it -/

section Stretches
variable (V : Valuation τ sig (Elt Ideal))

theorem s0_v3 : (after (hostOps0 (F := Ideal)) V (Proc.devRef .tc main_v3) : IVec S850000 32) = srcWords (V (Proc.devRef .tc main_arg1) : IVec S2x800000 32) := by
  unfold srcWords; after_results <;> rfl
theorem s0_v6 : (after (hostOps0 (F := Ideal)) V (Proc.devRef .tc main_v6) : IVec S850000 32) = dstWords (V (Proc.devRef .tc main_arg1) : IVec S2x800000 32) := by
  unfold dstWords; after_results <;> rfl
theorem s0_v12 : (after (hostOps0 (F := Ideal)) V (Proc.devRef .tc main_v12) : IVec S50000 1)
    = cmpf .ogt (degrees (V (Proc.devRef .tc main_arg1) : IVec S2x800000 32)) (broadcastInDim S50000 ![] bcast_S_S50000 (constant (F := Ideal) S_ .f32 0x00000000#32)) := by
  unfold degrees dstCol dstWords; after_results <;> rfl
theorem s0_v13 : (after (hostOps0 (F := Ideal)) V (Proc.devRef .tc main_v13) : FVec Ideal S50000 .f32) = Host.rsqrt (degrees (V (Proc.devRef .tc main_arg1) : IVec S2x800000 32)) := by
  unfold degrees dstCol dstWords; after_results <;> rfl
theorem s0_cst2 : (after (hostOps0 (F := Ideal)) V (Proc.devRef .tc main_cst_2) : FVec Ideal S_ .f32) = constant (F := Ideal) S_ .f32 0x00000000#32 := by
  after_results <;> rfl
theorem s01_v14 : (after (hostOps0_1 (F := Ideal)) V (Proc.devRef .tc main_v14) : FVec Ideal S50000 .f32)
    = select (V (Proc.devRef .tc main_v12) : IVec S50000 1) (V (Proc.devRef .tc main_v13) : FVec Ideal S50000 .f32)
        (broadcastInDim S50000 ![] bcast_S_S50000 (id (V (Proc.devRef .tc main_cst_2) : FVec Ideal S_ .f32))) := by
  after_results <;> rfl
theorem s02_v15 : (after (hostOps0_2 (F := Ideal)) V (Proc.devRef .tc main_v15) : FVec Ideal S50000x1 .f32)
    = shapeCast S50000x1 (V (Proc.devRef .tc main_v14) : FVec Ideal S50000 .f32) shapeCasts_S50000_S50000x1 := by
  after_results <;> rfl
theorem s02_v16 : (after (hostOps0_2 (F := Ideal)) V (Proc.devRef .tc main_v16) : FVec Ideal S50000x256 .bf16)
    = toBf16 (V (Proc.devRef .tc main_arg0) : FVec Ideal S50000x256 .f32) := by
  unfold toBf16; after_results <;> rfl
theorem s02_v17 : (after (hostOps0_2 (F := Ideal)) V (Proc.devRef .tc main_v17) : FVec Ideal S256x256 .bf16)
    = toBf16 (V (Proc.devRef .tc main_arg2) : FVec Ideal S256x256 .f32) := by
  unfold toBf16; after_results <;> rfl

theorem s1_v29 : (after (hostOps1 (F := Ideal)) V (Proc.devRef .tc main_v29) : FVec Ideal S50000x256 .f32)
    = gatherAddW (V (Proc.devRef .tc main_v6) : IVec S850000 32) (V (Proc.devRef .tc main_v3) : IVec S850000 32)
        (V (Proc.devRef .tc main_v18) : FVec Ideal S50000x256 .bf16) := by
  unfold gatherAddW wrapCol; after_results <;> rfl
theorem s1_v30 : (after (hostOps1 (F := Ideal)) V (Proc.devRef .tc main_v30) : FVec Ideal S1x256 .f32)
    = shapeCast S1x256 (V (Proc.devRef .tc main_arg3) : FVec Ideal S256 .f32) shapeCasts_S256_S1x256 := by
  after_results <;> rfl
theorem s2_v32 : (after (hostOps2 (F := Ideal)) V (Proc.devRef .tc main_v32) : FVec Ideal S256x256 .bf16)
    = toBf16 (V (Proc.devRef .tc main_arg4) : FVec Ideal S256x256 .f32) := by
  unfold toBf16; after_results <;> rfl
theorem s3_v44 : (after (hostOps3 (F := Ideal)) V (Proc.devRef .tc main_v44) : FVec Ideal S50000x256 .f32)
    = gatherAddW (V (Proc.devRef .tc main_v6) : IVec S850000 32) (V (Proc.devRef .tc main_v3) : IVec S850000 32)
        (V (Proc.devRef .tc main_v33) : FVec Ideal S50000x256 .bf16) := by
  unfold gatherAddW wrapCol; after_results <;> rfl
theorem s3_v45 : (after (hostOps3 (F := Ideal)) V (Proc.devRef .tc main_v45) : FVec Ideal S1x256 .f32)
    = shapeCast S1x256 (V (Proc.devRef .tc main_arg5) : FVec Ideal S256 .f32) shapeCasts_S256_S1x256 := by
  after_results <;> rfl
theorem s3_v46 : (after (hostOps3 (F := Ideal)) V (Proc.devRef .tc main_v46) : FVec Ideal S256x2 .bf16)
    = toBf16 (V (Proc.devRef .tc main_arg6) : FVec Ideal S256x2 .f32) := by
  unfold toBf16; after_results <;> rfl
theorem s3_v47 : (after (hostOps3 (F := Ideal)) V (Proc.devRef .tc main_v47) : FVec Ideal S1x2 .f32)
    = shapeCast S1x2 (V (Proc.devRef .tc main_arg7) : FVec Ideal S2 .f32) shapeCasts_S2_S1x2 := by
  after_results <;> rfl

/-- A stretch leaves every buffer it does not write. -/
theorem keep0 (b : Ref sig .tc) (h : b ∉ outs0) : after (hostOps0 (F := Ideal)) V (Proc.devRef .tc b) = V (Proc.devRef .tc b) :=
  Cert.LibLine.after_of_writesAre writes0 V h
theorem keep0_1 (b : Ref sig .tc) (h : b ∉ outs0_1) : after (hostOps0_1 (F := Ideal)) V (Proc.devRef .tc b) = V (Proc.devRef .tc b) :=
  Cert.LibLine.after_of_writesAre writes0_1 V h
theorem keep0_2 (b : Ref sig .tc) (h : b ∉ outs0_2) : after (hostOps0_2 (F := Ideal)) V (Proc.devRef .tc b) = V (Proc.devRef .tc b) :=
  Cert.LibLine.after_of_writesAre writes0_2 V h
theorem keep1 (b : Ref sig .tc) (h : b ∉ outs1) : after (hostOps1 (F := Ideal)) V (Proc.devRef .tc b) = V (Proc.devRef .tc b) :=
  Cert.LibLine.after_of_writesAre writes1 V h
theorem keep2 (b : Ref sig .tc) (h : b ∉ outs2) : after (hostOps2 (F := Ideal)) V (Proc.devRef .tc b) = V (Proc.devRef .tc b) :=
  Cert.LibLine.after_of_writesAre writes2 V h
theorem keep3 (b : Ref sig .tc) (h : b ∉ outs3) : after (hostOps3 (F := Ideal)) V (Proc.devRef .tc b) = V (Proc.devRef .tc b) :=
  Cert.LibLine.after_of_writesAre writes3 V h

end Stretches

/-! ## The boundaries in order -/

section Walk
variable (m : (ℓ : Loc nD τ sig) → Buf (Elt Ideal) ℓ) (ρ : Dev nD → PrngReg) (c : Dev nD)

theorem h0 (b : Ref sig .tc) (h : b ∉ outs0) : W1 m ρ c (Proc.devRef .tc b) = m ((c : Thread nD τ).loc b) := keep0 (W0 m ρ c) b h
theorem h01 (b : Ref sig .tc) (h : b ∉ outs0_1) : W2 m ρ c (Proc.devRef .tc b) = W1 m ρ c (Proc.devRef .tc b) := keep0_1 (W1 m ρ c) b h
theorem h02 (b : Ref sig .tc) (h : b ∉ outs0_2) : W3 m ρ c (Proc.devRef .tc b) = W2 m ρ c (Proc.devRef .tc b) := keep0_2 (W2 m ρ c) b h
theorem h1 (b : Ref sig .tc) (h : b ∉ outs1) : W5 m ρ c (Proc.devRef .tc b) = W4 m ρ c (Proc.devRef .tc b) := keep1 (W4 m ρ c) b h
theorem h2 (b : Ref sig .tc) (h : b ∉ outs2) : W7 m ρ c (Proc.devRef .tc b) = W6 m ρ c (Proc.devRef .tc b) := keep2 (W6 m ρ c) b h
theorem h3 (b : Ref sig .tc) (h : b ∉ outs3) : W9 m ρ c (Proc.devRef .tc b) = W8 m ρ c (Proc.devRef .tc b) := keep3 (W8 m ρ c) b h

/-- A buffer that no stretch after the first writes and no region owns holds at region 0's exit what it held after the first stretch. -/
theorem up4 (b : Ref sig .tc) (ha : b ∉ outs0_1) (hb : b ∉ outs0_2) (hr : ∀ w, Pipeline.arrRef spec0 w ≠ b) :
    W4 m ρ c (Proc.devRef .tc b) = W1 m ρ c (Proc.devRef .tc b) :=
  (W4_of_ne m ρ c b hr).trans ((h02 m ρ c b hb).trans (h01 m ρ c b ha))
theorem up6 (b : Ref sig .tc) (ha : b ∉ outs0_1) (hb : b ∉ outs0_2) (hr : ∀ w, Pipeline.arrRef spec0 w ≠ b)
    (hc : b ∉ outs1) (hr1 : ∀ w, Pipeline.arrRef spec1 w ≠ b) : W6 m ρ c (Proc.devRef .tc b) = W1 m ρ c (Proc.devRef .tc b) :=
  (W6_of_ne m ρ c b hr1).trans ((h1 m ρ c b hc).trans (up4 m ρ c b ha hb hr))
theorem up8 (b : Ref sig .tc) (ha : b ∉ outs0_1) (hb : b ∉ outs0_2) (hr : ∀ w, Pipeline.arrRef spec0 w ≠ b)
    (hc : b ∉ outs1) (hr1 : ∀ w, Pipeline.arrRef spec1 w ≠ b) (hd : b ∉ outs2) (hr2 : ∀ w, Pipeline.arrRef spec2 w ≠ b) :
    W8 m ρ c (Proc.devRef .tc b) = W1 m ρ c (Proc.devRef .tc b) :=
  (W8_of_ne m ρ c b hr2).trans ((h2 m ρ c b hd).trans (up6 m ρ c b ha hb hr hc hr1))

/-- The edge list, as launched. -/
abbrev E : IVec S2x800000 32 := m ((c : Thread nD τ).loc main_arg1)

theorem v3_1 : (W1 m ρ c (Proc.devRef .tc main_v3) : IVec S850000 32) = srcWords (E m c) := s0_v3 (W0 m ρ c)
theorem v6_1 : (W1 m ρ c (Proc.devRef .tc main_v6) : IVec S850000 32) = dstWords (E m c) := s0_v6 (W0 m ρ c)
theorem v14_2 : (W2 m ρ c (Proc.devRef .tc main_v14) : FVec Ideal S50000 .f32) = dinvVec (E m c) := by
  have h := s01_v14 (W1 m ρ c)
  rw [show (W1 m ρ c (Proc.devRef .tc main_v12) : IVec S50000 1) = _ from s0_v12 (W0 m ρ c),
    show (W1 m ρ c (Proc.devRef .tc main_v13) : FVec Ideal S50000 .f32) = _ from s0_v13 (W0 m ρ c),
    show (W1 m ρ c (Proc.devRef .tc main_cst_2) : FVec Ideal S_ .f32) = _ from s0_cst2 (W0 m ρ c)] at h
  exact h
theorem v15_3 : (W3 m ρ c (Proc.devRef .tc main_v15) : FVec Ideal S50000x1 .f32) = dinvCol (E m c) := by
  have h := s02_v15 (W2 m ρ c)
  rw [show (W2 m ρ c (Proc.devRef .tc main_v14) : FVec Ideal S50000 .f32) = _ from v14_2 m ρ c] at h
  exact h
theorem v16_3 : (W3 m ρ c (Proc.devRef .tc main_v16) : FVec Ideal S50000x256 .bf16) = toBf16 (m ((c : Thread nD τ).loc main_arg0)) := by
  have h := s02_v16 (W2 m ρ c)
  rw [show W2 m ρ c (Proc.devRef .tc main_arg0) = _ from (h01 m ρ c main_arg0 (by decide)).trans (h0 m ρ c main_arg0 (by decide))] at h
  exact h
theorem v17_3 : (W3 m ρ c (Proc.devRef .tc main_v17) : FVec Ideal S256x256 .bf16) = toBf16 (m ((c : Thread nD τ).loc main_arg2)) := by
  have h := s02_v17 (W2 m ρ c)
  rw [show W2 m ρ c (Proc.devRef .tc main_arg2) = _ from (h01 m ρ c main_arg2 (by decide)).trans (h0 m ρ c main_arg2 (by decide))] at h
  exact h

end Walk

/-! ## Through the regions to the result -/

section Regions
variable (m : (ℓ : Loc nD τ sig) → Buf (Elt Ideal) ℓ) (ρ : Dev nD → PrngReg) (c : Dev nD)
-- what each region leaves in its output array, as ONE function of the arrays it found at entry
variable (hR0 : ∀ (V : (c : Dev nD) → (b : Ref sig .tc) → Buf (Elt Ideal) ((c : Thread nD τ).loc b)) (c : Dev nD),
    (dat0 (F := Ideal) V c).arrAt 3 cfg0.N = Cert.Gcn.rowScaled (V c main_v16) (V c main_v17) (V c main_v15))
variable (hR1 : ∀ (V : (c : Dev nD) → (b : Ref sig .tc) → Buf (Elt Ideal) ((c : Thread nD τ).loc b)) (c : Dev nD),
    (dat1 (F := Ideal) V c).arrAt 3 cfg1.N = Cert.Gcn.scaleBiasRelu (V c main_v29) (V c main_v15) (V c main_v30))
variable (hR2 : ∀ (V : (c : Dev nD) → (b : Ref sig .tc) → Buf (Elt Ideal) ((c : Thread nD τ).loc b)) (c : Dev nD),
    (dat2 (F := Ideal) V c).arrAt 3 cfg2.N = Cert.Gcn.rowScaled (V c main_v31) (V c main_v32) (V c main_v15))
variable (hR3 : ∀ (V : (c : Dev nD) → (b : Ref sig .tc) → Buf (Elt Ideal) ((c : Thread nD τ).loc b)) (c : Dev nD),
    (dat3 (F := Ideal) V c).arrAt 5 cfg3.N
      = Cert.Gcn.head (Cert.Gcn.scaleBiasRelu (V c main_v44) (V c main_v15) (V c main_v45)) (V c main_v46)
          (fun j => V c main_v47 (ix2 (0 : Fin 1) j)))

/-- The argument arrays, as launched. -/
abbrev X : FVec Ideal S50000x256 .f32 := m ((c : Thread nD τ).loc main_arg0)
abbrev Wt1 : FVec Ideal S256x256 .f32 := m ((c : Thread nD τ).loc main_arg2)
abbrev Bs1 : FVec Ideal S256 .f32 := m ((c : Thread nD τ).loc main_arg3)
abbrev Wt2 : FVec Ideal S256x256 .f32 := m ((c : Thread nD τ).loc main_arg4)
abbrev Bs2 : FVec Ideal S256 .f32 := m ((c : Thread nD τ).loc main_arg5)
abbrev Wfc : FVec Ideal S256x2 .f32 := m ((c : Thread nD τ).loc main_arg6)
abbrev Bfc : FVec Ideal S2 .f32 := m ((c : Thread nD τ).loc main_arg7)

/-- The column of inverse square roots is an array every region only reads: it stays as entered. -/
theorem v15_4 : (W4 m ρ c (Proc.devRef .tc main_v15) : FVec Ideal S50000x1 .f32) = dinvCol (E m c) :=
  (W4_arr m ρ c 2).trans (((dat0 (V3 m ρ) c).arrAt_in 2 rfl cfg0.N).trans ((A_eq0 (V3 m ρ) c 2).trans (v15_3 m ρ c)))
theorem v15_5 : (W5 m ρ c (Proc.devRef .tc main_v15) : FVec Ideal S50000x1 .f32) = dinvCol (E m c) :=
  (h1 m ρ c main_v15 (by decide)).trans (v15_4 m ρ c)
theorem v15_6 : (W6 m ρ c (Proc.devRef .tc main_v15) : FVec Ideal S50000x1 .f32) = dinvCol (E m c) :=
  (W6_arr m ρ c 1).trans (((dat1 (V5 m ρ) c).arrAt_in 1 rfl cfg1.N).trans ((A_eq1 (V5 m ρ) c 1).trans (v15_5 m ρ c)))
theorem v15_7 : (W7 m ρ c (Proc.devRef .tc main_v15) : FVec Ideal S50000x1 .f32) = dinvCol (E m c) :=
  (h2 m ρ c main_v15 (by decide)).trans (v15_6 m ρ c)
theorem v15_8 : (W8 m ρ c (Proc.devRef .tc main_v15) : FVec Ideal S50000x1 .f32) = dinvCol (E m c) :=
  (W8_arr m ρ c 2).trans (((dat2 (V7 m ρ) c).arrAt_in 2 rfl cfg2.N).trans ((A_eq2 (V7 m ρ) c 2).trans (v15_7 m ρ c)))
theorem v15_9 : (W9 m ρ c (Proc.devRef .tc main_v15) : FVec Ideal S50000x1 .f32) = dinvCol (E m c) :=
  (h3 m ρ c main_v15 (by decide)).trans (v15_8 m ρ c)

/-- The edge words at the two gather-and-add stretches. -/
theorem v3_4 : (W4 m ρ c (Proc.devRef .tc main_v3) : IVec S850000 32) = srcWords (E m c) :=
  (up4 m ρ c main_v3 (by decide) (by decide) (by decide)).trans (v3_1 m ρ c)
theorem v6_4 : (W4 m ρ c (Proc.devRef .tc main_v6) : IVec S850000 32) = dstWords (E m c) :=
  (up4 m ρ c main_v6 (by decide) (by decide) (by decide)).trans (v6_1 m ρ c)
theorem v3_8 : (W8 m ρ c (Proc.devRef .tc main_v3) : IVec S850000 32) = srcWords (E m c) :=
  (up8 m ρ c main_v3 (by decide) (by decide) (by decide) (by decide) (by decide) (by decide) (by decide)).trans (v3_1 m ρ c)
theorem v6_8 : (W8 m ρ c (Proc.devRef .tc main_v6) : IVec S850000 32) = dstWords (E m c) :=
  (up8 m ρ c main_v6 (by decide) (by decide) (by decide) (by decide) (by decide) (by decide) (by decide)).trans (v6_1 m ρ c)

/-- The arguments where later stretches read them. -/
theorem arg3_4 : W4 m ρ c (Proc.devRef .tc main_arg3) = Bs1 m c :=
  (up4 m ρ c main_arg3 (by decide) (by decide) (by decide)).trans (h0 m ρ c main_arg3 (by decide))
theorem arg4_6 : W6 m ρ c (Proc.devRef .tc main_arg4) = Wt2 m c :=
  (up6 m ρ c main_arg4 (by decide) (by decide) (by decide) (by decide) (by decide)).trans (h0 m ρ c main_arg4 (by decide))
theorem arg5_8 : W8 m ρ c (Proc.devRef .tc main_arg5) = Bs2 m c :=
  (up8 m ρ c main_arg5 (by decide) (by decide) (by decide) (by decide) (by decide) (by decide) (by decide)).trans (h0 m ρ c main_arg5 (by decide))
theorem arg6_8 : W8 m ρ c (Proc.devRef .tc main_arg6) = Wfc m c :=
  (up8 m ρ c main_arg6 (by decide) (by decide) (by decide) (by decide) (by decide) (by decide) (by decide)).trans (h0 m ρ c main_arg6 (by decide))
theorem arg7_8 : W8 m ρ c (Proc.devRef .tc main_arg7) = Bfc m c :=
  (up8 m ρ c main_arg7 (by decide) (by decide) (by decide) (by decide) (by decide) (by decide) (by decide)).trans (h0 m ρ c main_arg7 (by decide))

include hR0 in
/-- Region 0 leaves the first product with its rows scaled. -/
theorem v18_4 : (W4 m ρ c (Proc.devRef .tc main_v18) : FVec Ideal S50000x256 .bf16)
    = Cert.Gcn.rowScaled (toBf16 (X m c)) (toBf16 (Wt1 m c)) (dinvCol (E m c)) := by
  refine (W4_arr m ρ c 3).trans ((hR0 (V3 m ρ) c).trans ?_)
  rw [show V3 m ρ c main_v16 = _ from v16_3 m ρ c, show V3 m ρ c main_v17 = _ from v17_3 m ρ c,
    show V3 m ρ c main_v15 = _ from v15_3 m ρ c]

include hR0 in
theorem v29_5 : (W5 m ρ c (Proc.devRef .tc main_v29) : FVec Ideal S50000x256 .f32)
    = gatherAdd (E m c) (Cert.Gcn.rowScaled (toBf16 (X m c)) (toBf16 (Wt1 m c)) (dinvCol (E m c))) := by
  have h := s1_v29 (W4 m ρ c)
  rw [show (W4 m ρ c (Proc.devRef .tc main_v6) : IVec S850000 32) = _ from v6_4 m ρ c,
    show (W4 m ρ c (Proc.devRef .tc main_v3) : IVec S850000 32) = _ from v3_4 m ρ c,
    show (W4 m ρ c (Proc.devRef .tc main_v18) : FVec Ideal S50000x256 .bf16) = _ from v18_4 m ρ c hR0] at h
  exact h

theorem v30_5 : (W5 m ρ c (Proc.devRef .tc main_v30) : FVec Ideal S1x256 .f32) = shapeCast S1x256 (Bs1 m c) shapeCasts_S256_S1x256 := by
  have h := s1_v30 (W4 m ρ c)
  rw [show W4 m ρ c (Proc.devRef .tc main_arg3) = _ from arg3_4 m ρ c] at h
  exact h

/-- The first layer's output, as a function of the arguments. -/
abbrev H1 : Cert.Gcn.NodeMat :=
  Cert.Gcn.scaleBiasRelu (gatherAdd (E m c) (Cert.Gcn.rowScaled (toBf16 (X m c)) (toBf16 (Wt1 m c)) (dinvCol (E m c))))
    (dinvCol (E m c)) (shapeCast S1x256 (Bs1 m c) shapeCasts_S256_S1x256)

include hR0 hR1 in
/-- Region 1 leaves the first layer's output. -/
theorem v31_6 : (W6 m ρ c (Proc.devRef .tc main_v31) : FVec Ideal S50000x256 .bf16) = H1 m c := by
  refine (W6_arr m ρ c 3).trans ((hR1 (V5 m ρ) c).trans ?_)
  rw [show V5 m ρ c main_v29 = _ from v29_5 m ρ c hR0, show V5 m ρ c main_v15 = _ from v15_5 m ρ c,
    show V5 m ρ c main_v30 = _ from v30_5 m ρ c]

include hR0 hR1 in
theorem v31_7 : (W7 m ρ c (Proc.devRef .tc main_v31) : FVec Ideal S50000x256 .bf16) = H1 m c :=
  (h2 m ρ c main_v31 (by decide)).trans (v31_6 m ρ c hR0 hR1)

theorem v32_7 : (W7 m ρ c (Proc.devRef .tc main_v32) : FVec Ideal S256x256 .bf16) = toBf16 (Wt2 m c) := by
  have h := s2_v32 (W6 m ρ c)
  rw [show W6 m ρ c (Proc.devRef .tc main_arg4) = _ from arg4_6 m ρ c] at h
  exact h

include hR0 hR1 hR2 in
/-- Region 2 leaves the second product with its rows scaled. -/
theorem v33_8 : (W8 m ρ c (Proc.devRef .tc main_v33) : FVec Ideal S50000x256 .bf16)
    = Cert.Gcn.rowScaled (H1 m c) (toBf16 (Wt2 m c)) (dinvCol (E m c)) := by
  refine (W8_arr m ρ c 3).trans ((hR2 (V7 m ρ) c).trans ?_)
  rw [show V7 m ρ c main_v31 = _ from v31_7 m ρ c hR0 hR1, show V7 m ρ c main_v32 = _ from v32_7 m ρ c,
    show V7 m ρ c main_v15 = _ from v15_7 m ρ c]

include hR0 hR1 hR2 in
theorem v44_9 : (W9 m ρ c (Proc.devRef .tc main_v44) : FVec Ideal S50000x256 .f32)
    = gatherAdd (E m c) (Cert.Gcn.rowScaled (H1 m c) (toBf16 (Wt2 m c)) (dinvCol (E m c))) := by
  have h := s3_v44 (W8 m ρ c)
  rw [show (W8 m ρ c (Proc.devRef .tc main_v6) : IVec S850000 32) = _ from v6_8 m ρ c,
    show (W8 m ρ c (Proc.devRef .tc main_v3) : IVec S850000 32) = _ from v3_8 m ρ c,
    show (W8 m ρ c (Proc.devRef .tc main_v33) : FVec Ideal S50000x256 .bf16) = _ from v33_8 m ρ c hR0 hR1 hR2] at h
  exact h

theorem v45_9 : (W9 m ρ c (Proc.devRef .tc main_v45) : FVec Ideal S1x256 .f32) = shapeCast S1x256 (Bs2 m c) shapeCasts_S256_S1x256 := by
  have h := s3_v45 (W8 m ρ c)
  rw [show W8 m ρ c (Proc.devRef .tc main_arg5) = _ from arg5_8 m ρ c] at h
  exact h
theorem v46_9 : (W9 m ρ c (Proc.devRef .tc main_v46) : FVec Ideal S256x2 .bf16) = toBf16 (Wfc m c) := by
  have h := s3_v46 (W8 m ρ c)
  rw [show W8 m ρ c (Proc.devRef .tc main_arg6) = _ from arg6_8 m ρ c] at h
  exact h
theorem v47_9 : (W9 m ρ c (Proc.devRef .tc main_v47) : FVec Ideal S1x2 .f32) = shapeCast S1x2 (Bfc m c) shapeCasts_S2_S1x2 := by
  have h := s3_v47 (W8 m ρ c)
  rw [show W8 m ρ c (Proc.devRef .tc main_arg7) = _ from arg7_8 m ρ c] at h
  exact h

include hR0 hR1 hR2 hR3 in
/-- THE RESULT: at the last boundary the result array holds the kernel's function of the eight arguments. -/
theorem result_eq : (W10 m ρ c (Proc.devRef .tc main_v48) : FVec Ideal S50000x2 .f32)
    = kernelOut (X m c) (E m c) (Wt1 m c) (Bs1 m c) (Wt2 m c) (Bs2 m c) (Wfc m c) (Bfc m c) := by
  refine (W10_arr m ρ c 5).trans ((hR3 (V9 m ρ) c).trans ?_)
  rw [show V9 m ρ c main_v44 = _ from v44_9 m ρ c hR0 hR1 hR2, show V9 m ρ c main_v15 = _ from v15_9 m ρ c,
    show V9 m ρ c main_v45 = _ from v45_9 m ρ c, show V9 m ρ c main_v46 = _ from v46_9 m ρ c,
    show V9 m ρ c main_v47 = _ from v47_9 m ρ c]
  rfl

end Regions

end Cert.KernelIdeal.Chain

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KRegion0.lean ====
/-
  Region 0 of the kernel program: a row-scaled matrix product, block by block.

  The region walks 25 grid points.  Point `t` loads rows `2000 t … 2000 t + 1999` of a node-by-feature matrix
  `A` (all 256 columns), the whole 256-by-256 weight matrix `W`, and rows `2000 t … 2000 t + 1999` of a one-column
  array `d`; it stores, at row `p` and column `q` of its output block,
      (∑ k : Fin 256, A (2000 t + p, k) * W (k, q)) * d (2000 t + p, 0),
  the sum accumulated from zero, the final change of float format being the identity on extended reals.
  The output blocks are rows `2000 t … 2000 t + 1999` of the result, so they tile it: row `r` lies in the block of
  point `r / 2000`.  Hence after the region the output array is the one function
      rowScaled A W d (v, c) = (∑ k, A (v, k) * W (k, c)) * d (v, 0)
  of the arrays the region found at its entry.
-/
import proofs.«122100_j8770323219094_2_alg».proof.Proof.Gen.KernelIdeal.Frame
import proofs.«122100_j8770323219094_2_alg».proof.Proof.Spec
import proofs.«122100_j8770323219094_2_alg».proof.Proof.LibDotRows
import proofs.«122100_j8770323219094_2_alg».proof.Proof.LibLayout
import Idealize.ShloMosaic.Lib.Pipeline.Value

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-- The body's stored block at row `p`, column `q`: the matrix product of the loaded blocks at `(p, q)`
    (a sum over the 256 contracted columns, accumulated from zero) times the loaded column at row `p`; the
    change of float format is the identity on extended reals. -/
theorem pay0_apply (x0 : Vec Ideal S2000x256 .bf16) (x1 : Vec Ideal S256x256 .bf16) (x2 : Vec Ideal S2000x1 .f32)
    (p : Fin 2000) (q : Fin 256) :
    k0_pay1 (F := Ideal) x0 x1 x2 (ix2 p q) = (∑ k : Fin 256, x0 (ix2 p k) * x1 (ix2 k q)) * x2 (ix2 p (0 : Fin 1)) := by
  unfold k0_pay1
  rw [truncf_apply, mulf_apply, shapeCast_self, shapeCast_self, shapeCast_self, broadcastTo_a1_ab_apply]
  exact congrArg (· * x2 (ix2 p (0 : Fin 1))) (matmul_zero_rows dot_S2000x256_S256x256_S2000x256_1_0_0_1_n_n none rfl rfl
    (fun _ _ => rfl) (fun _ _ => rfl) (fun _ _ => rfl) (fun _ _ => rfl) x0 x1 p q)

variable (V : (c : Dev nD) → (b : Ref sig .tc) → Buf (Elt Ideal) ((c : Thread nD τ).loc b))

/-- The zero offset of a whole-block access. -/
theorem zeros0 : (![0, 0] : Fin 2 → Nat) = fun _ => 0 := funext fun a => by fin_cases a <;> rfl

/-- The printed index maps over the grid: the row-block windows sit at block `(t, 0)`, the weight window at `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The matrix window's block at point `t`, at row `p` and column `k`, is the matrix at row `2000 t + p`, column `k`. -/
theorem iblk0_0_apply (c : Dev nD) (t : Fin cfg0.N) (p : Fin 2000) (k : Fin 256) (i : S50000x256.Idx)
    (h0 : (i 0).val = 2000 * t.val + p.val) (h1 : (i 1).val = k.val) :
    (iblk0 (F := Ideal) V c 0 t : Vec Ideal S2000x256 .bf16) (ix2 p k) = (V c main_v16 : S50000x256.Idx → EReal) i := by
  obtain ⟨e0, e1, -⟩ := idx_facts0 t
  unfold iblk0
  rw [View.read_apply]
  show V c main_v16 _ = V c main_v16 _
  congr 1
  funext a
  apply Fin.ext
  match a with
  | ⟨0, _⟩ => show win0_0.index t 0 * 2000 + 1 * p.val = (i 0).val; rw [e0, h0]; omega
  | ⟨1, _⟩ => show win0_0.index t 1 * 256 + 1 * k.val = (i 1).val; rw [e1, h1]; omega

/-- The weight window's block at every point is the whole weight matrix. -/
theorem iblk0_1_apply (c : Dev nD) (t : Fin cfg0.N) (k : Fin 256) (q : Fin 256) (i : S256x256.Idx)
    (h0 : (i 0).val = k.val) (h1 : (i 1).val = q.val) :
    (iblk0 (F := Ideal) V c 1 t : Vec Ideal S256x256 .bf16) (ix2 k q) = (V c main_v17 : S256x256.Idx → EReal) i := by
  obtain ⟨-, -, e0, e1, -⟩ := idx_facts0 t
  unfold iblk0
  rw [View.read_apply]
  show V c main_v17 _ = V c main_v17 _
  congr 1
  funext a
  apply Fin.ext
  match a with
  | ⟨0, _⟩ => show win0_1.index t 0 * 256 + 1 * k.val = (i 0).val; rw [e0, h0]; omega
  | ⟨1, _⟩ => show win0_1.index t 1 * 256 + 1 * q.val = (i 1).val; rw [e1, h1]; omega

/-- The column window's block at point `t`, at row `p`, is the column at row `2000 t + p`. -/
theorem iblk0_2_apply (c : Dev nD) (t : Fin cfg0.N) (p : Fin 2000) (i : S50000x1.Idx)
    (h0 : (i 0).val = 2000 * t.val + p.val) :
    (iblk0 (F := Ideal) V c 2 t : Vec Ideal S2000x1 .f32) (ix2 p (0 : Fin 1)) = (V c main_v15 : S50000x1.Idx → EReal) i := by
  obtain ⟨-, -, -, -, e0, e1, -⟩ := idx_facts0 t
  unfold iblk0
  rw [View.read_apply]
  show V c main_v15 _ = V c main_v15 _
  congr 1
  funext a
  apply Fin.ext
  match a with
  | ⟨0, _⟩ => show win0_2.index t 0 * 2000 + 1 * p.val = (i 0).val; rw [e0, h0]; omega
  | ⟨1, _⟩ => show win0_2.index t 1 * 1 + 1 * 0 = (i 1).val; rw [e1]; have hi : (i 1).val < 1 := (i 1).isLt; omega

/-- If three blocks read rows `i 0` of the node matrix and of the column, and column `i 1` of the weights, then their
    product at `(p, q)` scaled by the column block at `p` is the row-scaled product of the whole arrays at `i`. -/
theorem point0_eq (x0 : Vec Ideal S2000x256 .bf16) (x1 : Vec Ideal S256x256 .bf16) (x2 : Vec Ideal S2000x1 .f32)
    (A : Cert.Gcn.NodeMat) (W : Cert.Gcn.WMat) (col : Cert.Gcn.NodeCol) (p : Fin 2000) (q : Fin 256) (i : S50000x256.Idx)
    (h0 : ∀ k : Fin 256, x0 (ix2 p k) = A (ix2 (i 0) k)) (h1 : ∀ k : Fin 256, x1 (ix2 k q) = W (ix2 k (i 1)))
    (h2 : x2 (ix2 p (0 : Fin 1)) = col (ix2 (i 0) (0 : Fin 1))) :
    (∑ k : Fin 256, x0 (ix2 p k) * x1 (ix2 k q)) * x2 (ix2 p (0 : Fin 1)) = Cert.Gcn.rowScaled A W col i := by
  unfold Cert.Gcn.rowScaled Cert.Gcn.prod
  exact congrArg₂ (· * ·) (Finset.sum_congr rfl fun k _ => congrArg₂ (· * ·) (h0 k) (h1 k)) h2

/-- What point `t` writes back is block `t` of the row-scaled product of the arrays the region finds. -/
theorem flushed0_eq (c : Dev nD) (t : Fin cfg0.N) :
    (dat0 (F := Ideal) V c).flushed 3 t
      = ((cfg0.win 3).blk t).view.read (Elt Ideal) (Cert.Gcn.rowScaled (V c main_v16) (V c main_v17) (V c main_v15)) := by
  show (cfg0.win 3).cut (grid0.coords t) ((dat0 V c).after 3 t) = _
  rw [after0_3]
  unfold out0_3
  rw [View.canon_unit_zero zeros0]
  simp only [View.ld_unit_zero (S := S2000x256) zeros0, View.ld_unit_zero (S := S256x256) zeros0, View.ld_unit_zero (S := S2000x1) zeros0]
  obtain ⟨-, -, -, -, -, -, e0, e1⟩ := idx_facts0 t
  refine funext fun (j : S2000x256.Idx) => ?_
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (ix2 p q)
    = Cert.Gcn.rowScaled (V c main_v16) (V c main_v17) (V c main_v15) (((cfg0.win 3).blk t).view.emb (ix2 p q))
  refine (pay0_apply _ _ _ p q).trans ?_
  have hr : ((((cfg0.win 3).blk t).view.emb (ix2 p q) : S50000x256.Idx) 0).val = 2000 * t.val + p.val := by
    show win0_3.index t 0 * 2000 + 1 * p.val = 2000 * t.val + p.val; rw [e0]; omega
  have hc : ((((cfg0.win 3).blk t).view.emb (ix2 p q) : S50000x256.Idx) 1).val = q.val := by
    show win0_3.index t 1 * 256 + 1 * q.val = q.val; rw [e1]; omega
  exact point0_eq _ _ _ _ _ _ p q _
    (fun k => iblk0_0_apply V c t p k _ hr rfl)
    (fun k => iblk0_1_apply V c t k q _ rfl hc)
    (iblk0_2_apply V c t p _ hr)

/-- An index of the output array is in point `t`'s block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v18).slice (win0_3.rect t)).set ↔ _
  rw [View.set_slice_whole, Rect.mem_set_unit]
  exact Iff.rfl

/-- After the region its output array is the row-scaled product of the arrays it found: every point writes its
    block of that one function, and row `r` lies in the block of point `r / 2000`. -/
theorem region0_array (c : Dev nD) :
    (dat0 (F := Ideal) V c).arrAt 3 cfg0.N = Cert.Gcn.rowScaled (V c main_v16) (V c main_v17) (V c main_v15) :=
  (dat0 (F := Ideal) V c).arrAt_eq_of_cover 3 _ (fun t _ => flushed0_eq V c t) fun (i : S50000x256.Idx) => by
    have hi0 : (i 0).val < 50000 := (i 0).isLt
    have hi1 : (i 1).val < 256 := (i 1).isLt
    have hN : cfg0.N = 25 := N_0
    obtain ⟨t, ht⟩ : ∃ t : Fin cfg0.N, t.val = (i 0).val / 2000 := ⟨⟨(i 0).val / 2000, by rw [hN]; omega⟩, rfl⟩
    obtain ⟨-, -, -, -, -, -, e0, e1⟩ := idx_facts0 t
    refine ⟨t, flush0_3 t, ?_⟩
    rw [mem_blk0]
    intro a
    match a with
    | ⟨0, _⟩ =>
      show win0_3.index t 0 * 2000 ≤ (i 0).val ∧ (i 0).val < win0_3.index t 0 * 2000 + 2000
      rw [e0, ht]; omega
    | ⟨1, _⟩ =>
      show win0_3.index t 1 * 256 ≤ (i 1).val ∧ (i 1).val < win0_3.index t 1 * 256 + 256
      rw [e1]; omega

end Cert.KernelIdeal.RegionValue

end
-- ==== Proof.KRegion1.lean ====
/-
  Region 1 of the kernel, read as one whole-array function.

  Each grid point t (25 of them) stages rows 2000·t … 2000·t+1999 of the aggregated matrix G ([50000,256]) and of
  the column d ([50000,1]), and the whole bias row b ([1,256]); the body stores, at (p, q) of the block,
      max (G(p, q) · d(p, 0) + b(0, q)) 0
  (the change of float format at the store is the identity on extended reals).  The 25 output blocks tile the
  [50000,256] output, so after the region the output array is  scaleBiasRelu G d b  at every index.
-/
import proofs.«122100_j8770323219094_2_alg».proof.Proof.Spec
import proofs.«122100_j8770323219094_2_alg».proof.Proof.LibLayout
import proofs.«122100_j8770323219094_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic Idealize.ShloMosaic.ValueIdx

/-- The body's stored value at (p, q): scale by the column's entry of row p, add the bias of column q, clip at 0. -/
theorem pay1_apply (x0 : Vec Ideal S2000x256 .f32) (x1 : Vec Ideal S2000x1 .f32) (x2 : Vec Ideal S1x256 .f32)
    (p : Fin 2000) (q : Fin 256) :
    k1_pay1 (F := Ideal) x0 x1 x2 (ix2 p q)
      = max (x0 (ix2 p q) * x1 (ix2 p (0 : Fin 1)) + x2 (ix2 (0 : Fin 1) q)) 0 := by
  unfold k1_pay1
  simp only [shapeCast_self]
  rw [truncf_apply, maximumf_apply, addf_apply, mulf_apply, broadcast_apply,
    broadcastTo_a1_ab_apply, broadcastTo_1b_ab_apply]
  exact congrArg _ Ideal.ofBits_zero_f32

variable (V : (c : Dev nD) → (b : Ref sig .tc) → Buf (Elt Ideal) ((c : Thread nD τ).loc b))

/-- The zero offsets of a whole-buffer access, however spelt. -/
theorem zero_off1 : (![0, 0] : Fin 2 → Nat) = fun _ => 0 := funext fun a => by fin_cases a <;> rfl

/-- The printed index maps over the grid: the per-node windows sit at block (t, 0), the bias row at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node row that row p of block t is. -/
def rowOf1 (t : Fin cfg1.N) (p : Fin 2000) : Fin 50000 :=
  ⟨2000 * t.val + p.val, by have h := t.isLt; have hN : cfg1.N = 25 := N_1; omega⟩

/-- Block t of the aggregated matrix holds its rows 2000·t + p. -/
theorem iblk1_0_apply (c : Dev nD) (t : Fin cfg1.N) (p : Fin 2000) (q : Fin 256) :
    (iblk1 (F := Ideal) V c 0 t : Vec Ideal S2000x256 .f32) (ix2 p q)
      = (V c main_v29 : S50000x256.Idx → EReal) (ix2 (rowOf1 t p) q) := by
  obtain ⟨e0, e1, -⟩ := index_facts1 t
  unfold iblk1
  rw [View.read_apply]
  show V c main_v29 _ = V c main_v29 _
  congr 1
  funext a
  apply Fin.ext
  match a with
  | ⟨0, _⟩ => show win1_0.index t 0 * 2000 + 1 * p.val = 2000 * t.val + p.val; rw [e0]; omega
  | ⟨1, _⟩ => show win1_0.index t 1 * 256 + 1 * q.val = q.val; rw [e1]; omega

/-- Block t of the column holds its rows 2000·t + p. -/
theorem iblk1_1_apply (c : Dev nD) (t : Fin cfg1.N) (p : Fin 2000) (u : Fin 1) :
    (iblk1 (F := Ideal) V c 1 t : Vec Ideal S2000x1 .f32) (ix2 p u)
      = (V c main_v15 : S50000x1.Idx → EReal) (ix2 (rowOf1 t p) (0 : Fin 1)) := by
  obtain ⟨-, -, e2, e3, -⟩ := index_facts1 t
  unfold iblk1
  rw [View.read_apply]
  show V c main_v15 _ = V c main_v15 _
  congr 1
  funext a
  apply Fin.ext
  match a with
  | ⟨0, _⟩ => show win1_1.index t 0 * 2000 + 1 * p.val = 2000 * t.val + p.val; rw [e2]; omega
  | ⟨1, _⟩ => show win1_1.index t 1 * 1 + 1 * u.val = 0; rw [e3]; omega

/-- Every point stages the whole bias row. -/
theorem iblk1_2_apply (c : Dev nD) (t : Fin cfg1.N) (u : Fin 1) (q : Fin 256) :
    (iblk1 (F := Ideal) V c 2 t : Vec Ideal S1x256 .f32) (ix2 u q)
      = (V c main_v30 : S1x256.Idx → EReal) (ix2 (0 : Fin 1) q) := by
  obtain ⟨-, -, -, -, e4, e5, -⟩ := index_facts1 t
  unfold iblk1
  rw [View.read_apply]
  show V c main_v30 _ = V c main_v30 _
  congr 1
  funext a
  apply Fin.ext
  match a with
  | ⟨0, _⟩ => show win1_2.index t 0 * 1 + 1 * u.val = 0; rw [e4]; omega
  | ⟨1, _⟩ => show win1_2.index t 1 * 256 + 1 * q.val = q.val; rw [e5]; omega

/-- Where element (p, q) of output block t sits in the output array. -/
theorem emb1_3 (t : Fin cfg1.N) (p : Fin 2000) (q : Fin 256) :
    (((cfg1.win 3).blk t).view.emb (ix2 p q) : S50000x256.Idx) = ix2 (rowOf1 t p) q := by
  obtain ⟨-, -, -, -, -, -, e6, e7⟩ := index_facts1 t
  funext a
  apply Fin.ext
  match a with
  | ⟨0, _⟩ => show win1_3.index t 0 * 2000 + 1 * p.val = 2000 * t.val + p.val; rw [e6]; omega
  | ⟨1, _⟩ => show win1_3.index t 1 * 256 + 1 * q.val = q.val; rw [e7]; omega

/-- The body's block at point t, index by index, is the whole-array function read through output block t. -/
theorem block1_point (c : Dev nD) (t : Fin cfg1.N) (j : S2000x256.Idx) :
    k1_pay1 (F := Ideal) (iblk1 V c 0 t) (iblk1 V c 1 t) (iblk1 V c 2 t) j
      = Cert.Gcn.scaleBiasRelu (V c main_v29) (V c main_v15) (V c main_v30) (((cfg1.win 3).blk t).view.emb j) := by
  obtain ⟨p, q, rfl⟩ : ∃ (p : Fin 2000) (q : Fin 256), j = ix2 p q := ⟨j 0, j 1, eq_ix2 j⟩
  refine (pay1_apply (iblk1 V c 0 t) (iblk1 V c 1 t) (iblk1 V c 2 t) p q).trans ?_
  rw [emb1_3, iblk1_0_apply, iblk1_1_apply, iblk1_2_apply]
  rfl

/-- What point t writes back is block t of the whole-array function. -/
theorem flushed1_eq (c : Dev nD) (t : Fin cfg1.N) :
    (dat1 (F := Ideal) V c).flushed 3 t = ((cfg1.win 3).blk t).view.read (Elt Ideal)
      (Cert.Gcn.scaleBiasRelu (V c main_v29) (V c main_v15) (V c main_v30)) := by
  show (cfg1.win 3).cut (grid1.coords t) ((dat1 (F := Ideal) V c).after 3 t) = _
  rw [after1_3]
  unfold out1_3
  rw [View.canon_unit_zero zero_off1]
  simp only [View.ld_unit_zero (S := S2000x256) zero_off1, View.ld_unit_zero (S := S2000x1) zero_off1,
    View.ld_unit_zero (S := S1x256) zero_off1]
  funext j
  exact block1_point V c t j

/-- An index of the output is in point t's block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v31).slice (win1_3.rect t)).set ↔ _
  rw [View.set_slice_whole, Rect.mem_set_unit]
  exact Iff.rfl

/-- AFTER REGION 1 the output array is the scaled, biased, clipped matrix, everywhere: the block of point
    r / 2000 covers row r. -/
theorem region1_array (c : Dev nD) :
    (dat1 (F := Ideal) V c).arrAt 3 cfg1.N
      = Cert.Gcn.scaleBiasRelu (V c main_v29) (V c main_v15) (V c main_v30) :=
  (dat1 (F := Ideal) V c).arrAt_eq_of_cover 3 _ (fun t _ => flushed1_eq V c t) fun i => by
    have hi0 : (i 0 : Nat) < 50000 := (i 0).isLt
    have hi1 : (i 1 : Nat) < 256 := (i 1).isLt
    have hN : cfg1.N = 25 := N_1
    refine ⟨⟨(i 0 : Nat) / 2000, by omega⟩, flush1_3 _, ?_⟩
    rw [mem_blk1]
    obtain ⟨-, -, -, -, -, -, e6, e7⟩ := index_facts1 ⟨(i 0 : Nat) / 2000, by omega⟩
    intro a
    match a with
    | ⟨0, _⟩ =>
      show win1_3.index _ 0 * 2000 ≤ (i 0 : Nat) ∧ (i 0 : Nat) < win1_3.index _ 0 * 2000 + 2000
      rw [e6]; show (i 0 : Nat) / 2000 * 2000 ≤ (i 0 : Nat) ∧ (i 0 : Nat) < (i 0 : Nat) / 2000 * 2000 + 2000; omega
    | ⟨1, _⟩ =>
      show win1_3.index _ 1 * 256 ≤ (i 1 : Nat) ∧ (i 1 : Nat) < win1_3.index _ 1 * 256 + 256
      rw [e7]; omega

end Cert.KernelIdeal.RegionValue

end
-- ==== Proof.KRegion2.lean ====
/-
  Region 2 of the kernel program: a row-scaled matrix product, block by block.

  The region walks 25 grid points.  Point `t` loads rows `2000 t … 2000 t + 1999` of a node-by-feature matrix
  `A` (all 256 columns), the whole 256-by-256 weight matrix `W`, and rows `2000 t … 2000 t + 1999` of a one-column
  array `d`; it stores, at row `p` and column `q` of its output block,
      (∑ k : Fin 256, A (2000 t + p, k) * W (k, q)) * d (2000 t + p, 0),
  the sum accumulated from zero, the final change of float format being the identity on extended reals.
  The output blocks are rows `2000 t … 2000 t + 1999` of the result, so they tile it: row `r` lies in the block of
  point `r / 2000`.  Hence after the region the output array is the one function
      rowScaled A W d (v, c) = (∑ k, A (v, k) * W (k, c)) * d (v, 0)
  of the arrays the region found at its entry.
-/
import proofs.«122100_j8770323219094_2_alg».proof.Proof.Gen.KernelIdeal.Frame
import proofs.«122100_j8770323219094_2_alg».proof.Proof.Spec
import proofs.«122100_j8770323219094_2_alg».proof.Proof.LibDotRows
import proofs.«122100_j8770323219094_2_alg».proof.Proof.LibLayout
import Idealize.ShloMosaic.Lib.Pipeline.Value

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-- The body's stored block at row `p`, column `q`: the matrix product of the loaded blocks at `(p, q)`
    (a sum over the 256 contracted columns, accumulated from zero) times the loaded column at row `p`; the
    change of float format is the identity on extended reals. -/
theorem pay2_apply (x0 : Vec Ideal S2000x256 .bf16) (x1 : Vec Ideal S256x256 .bf16) (x2 : Vec Ideal S2000x1 .f32)
    (p : Fin 2000) (q : Fin 256) :
    k2_pay1 (F := Ideal) x0 x1 x2 (ix2 p q) = (∑ k : Fin 256, x0 (ix2 p k) * x1 (ix2 k q)) * x2 (ix2 p (0 : Fin 1)) := by
  unfold k2_pay1
  rw [truncf_apply, mulf_apply, shapeCast_self, shapeCast_self, shapeCast_self, broadcastTo_a1_ab_apply]
  exact congrArg (· * x2 (ix2 p (0 : Fin 1))) (matmul_zero_rows dot_S2000x256_S256x256_S2000x256_1_0_0_1_n_n none rfl rfl
    (fun _ _ => rfl) (fun _ _ => rfl) (fun _ _ => rfl) (fun _ _ => rfl) x0 x1 p q)

variable (V : (c : Dev nD) → (b : Ref sig .tc) → Buf (Elt Ideal) ((c : Thread nD τ).loc b))

/-- The zero offset of a whole-block access. -/
theorem zeros2 : (![0, 0] : Fin 2 → Nat) = fun _ => 0 := funext fun a => by fin_cases a <;> rfl

/-- The printed index maps over the grid: the row-block windows sit at block `(t, 0)`, the weight window at `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The matrix window's block at point `t`, at row `p` and column `k`, is the matrix at row `2000 t + p`, column `k`. -/
theorem iblk2_0_apply (c : Dev nD) (t : Fin cfg2.N) (p : Fin 2000) (k : Fin 256) (i : S50000x256.Idx)
    (h0 : (i 0).val = 2000 * t.val + p.val) (h1 : (i 1).val = k.val) :
    (iblk2 (F := Ideal) V c 0 t : Vec Ideal S2000x256 .bf16) (ix2 p k) = (V c main_v31 : S50000x256.Idx → EReal) i := by
  obtain ⟨e0, e1, -⟩ := idx_facts2 t
  unfold iblk2
  rw [View.read_apply]
  show V c main_v31 _ = V c main_v31 _
  congr 1
  funext a
  apply Fin.ext
  match a with
  | ⟨0, _⟩ => show win2_0.index t 0 * 2000 + 1 * p.val = (i 0).val; rw [e0, h0]; omega
  | ⟨1, _⟩ => show win2_0.index t 1 * 256 + 1 * k.val = (i 1).val; rw [e1, h1]; omega

/-- The weight window's block at every point is the whole weight matrix. -/
theorem iblk2_1_apply (c : Dev nD) (t : Fin cfg2.N) (k : Fin 256) (q : Fin 256) (i : S256x256.Idx)
    (h0 : (i 0).val = k.val) (h1 : (i 1).val = q.val) :
    (iblk2 (F := Ideal) V c 1 t : Vec Ideal S256x256 .bf16) (ix2 k q) = (V c main_v32 : S256x256.Idx → EReal) i := by
  obtain ⟨-, -, e0, e1, -⟩ := idx_facts2 t
  unfold iblk2
  rw [View.read_apply]
  show V c main_v32 _ = V c main_v32 _
  congr 1
  funext a
  apply Fin.ext
  match a with
  | ⟨0, _⟩ => show win2_1.index t 0 * 256 + 1 * k.val = (i 0).val; rw [e0, h0]; omega
  | ⟨1, _⟩ => show win2_1.index t 1 * 256 + 1 * q.val = (i 1).val; rw [e1, h1]; omega

/-- The column window's block at point `t`, at row `p`, is the column at row `2000 t + p`. -/
theorem iblk2_2_apply (c : Dev nD) (t : Fin cfg2.N) (p : Fin 2000) (i : S50000x1.Idx)
    (h0 : (i 0).val = 2000 * t.val + p.val) :
    (iblk2 (F := Ideal) V c 2 t : Vec Ideal S2000x1 .f32) (ix2 p (0 : Fin 1)) = (V c main_v15 : S50000x1.Idx → EReal) i := by
  obtain ⟨-, -, -, -, e0, e1, -⟩ := idx_facts2 t
  unfold iblk2
  rw [View.read_apply]
  show V c main_v15 _ = V c main_v15 _
  congr 1
  funext a
  apply Fin.ext
  match a with
  | ⟨0, _⟩ => show win2_2.index t 0 * 2000 + 1 * p.val = (i 0).val; rw [e0, h0]; omega
  | ⟨1, _⟩ => show win2_2.index t 1 * 1 + 1 * 0 = (i 1).val; rw [e1]; have hi : (i 1).val < 1 := (i 1).isLt; omega

/-- If three blocks read rows `i 0` of the node matrix and of the column, and column `i 1` of the weights, then their
    product at `(p, q)` scaled by the column block at `p` is the row-scaled product of the whole arrays at `i`. -/
theorem point2_eq (x0 : Vec Ideal S2000x256 .bf16) (x1 : Vec Ideal S256x256 .bf16) (x2 : Vec Ideal S2000x1 .f32)
    (A : Cert.Gcn.NodeMat) (W : Cert.Gcn.WMat) (col : Cert.Gcn.NodeCol) (p : Fin 2000) (q : Fin 256) (i : S50000x256.Idx)
    (h0 : ∀ k : Fin 256, x0 (ix2 p k) = A (ix2 (i 0) k)) (h1 : ∀ k : Fin 256, x1 (ix2 k q) = W (ix2 k (i 1)))
    (h2 : x2 (ix2 p (0 : Fin 1)) = col (ix2 (i 0) (0 : Fin 1))) :
    (∑ k : Fin 256, x0 (ix2 p k) * x1 (ix2 k q)) * x2 (ix2 p (0 : Fin 1)) = Cert.Gcn.rowScaled A W col i := by
  unfold Cert.Gcn.rowScaled Cert.Gcn.prod
  exact congrArg₂ (· * ·) (Finset.sum_congr rfl fun k _ => congrArg₂ (· * ·) (h0 k) (h1 k)) h2

/-- What point `t` writes back is block `t` of the row-scaled product of the arrays the region finds. -/
theorem flushed2_eq (c : Dev nD) (t : Fin cfg2.N) :
    (dat2 (F := Ideal) V c).flushed 3 t
      = ((cfg2.win 3).blk t).view.read (Elt Ideal) (Cert.Gcn.rowScaled (V c main_v31) (V c main_v32) (V c main_v15)) := by
  show (cfg2.win 3).cut (grid2.coords t) ((dat2 V c).after 3 t) = _
  rw [after2_3]
  unfold out2_3
  rw [View.canon_unit_zero zeros2]
  simp only [View.ld_unit_zero (S := S2000x256) zeros2, View.ld_unit_zero (S := S256x256) zeros2, View.ld_unit_zero (S := S2000x1) zeros2]
  obtain ⟨-, -, -, -, -, -, e0, e1⟩ := idx_facts2 t
  refine funext fun (j : S2000x256.Idx) => ?_
  obtain ⟨p, q, rfl⟩ : ∃ (p : Fin 2000) (q : Fin 256), j = ix2 p q := ⟨j 0, j 1, eq_ix2 j⟩
  show k2_pay1 (F := Ideal) (iblk2 V c 0 t) (iblk2 V c 1 t) (iblk2 V c 2 t) (ix2 p q)
    = Cert.Gcn.rowScaled (V c main_v31) (V c main_v32) (V c main_v15) (((cfg2.win 3).blk t).view.emb (ix2 p q))
  refine (pay2_apply _ _ _ p q).trans ?_
  have hr : ((((cfg2.win 3).blk t).view.emb (ix2 p q) : S50000x256.Idx) 0).val = 2000 * t.val + p.val := by
    show win2_3.index t 0 * 2000 + 1 * p.val = 2000 * t.val + p.val; rw [e0]; omega
  have hc : ((((cfg2.win 3).blk t).view.emb (ix2 p q) : S50000x256.Idx) 1).val = q.val := by
    show win2_3.index t 1 * 256 + 1 * q.val = q.val; rw [e1]; omega
  exact point2_eq _ _ _ _ _ _ p q _
    (fun k => iblk2_0_apply V c t p k _ hr rfl)
    (fun k => iblk2_1_apply V c t k q _ rfl hc)
    (iblk2_2_apply V c t p _ hr)

/-- An index of the output array is in point `t`'s block iff each coordinate is in the block's range on its axis. -/
theorem mem_blk2 (t : Fin cfg2.N) (i : S50000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v33).slice (win2_3.rect t)).set ↔ _
  rw [View.set_slice_whole, Rect.mem_set_unit]
  exact Iff.rfl

/-- After the region its output array is the row-scaled product of the arrays it found: every point writes its
    block of that one function, and row `r` lies in the block of point `r / 2000`. -/
theorem region2_array (c : Dev nD) :
    (dat2 (F := Ideal) V c).arrAt 3 cfg2.N = Cert.Gcn.rowScaled (V c main_v31) (V c main_v32) (V c main_v15) :=
  (dat2 (F := Ideal) V c).arrAt_eq_of_cover 3 _ (fun t _ => flushed2_eq V c t) fun (i : S50000x256.Idx) => by
    have hi0 : (i 0).val < 50000 := (i 0).isLt
    have hi1 : (i 1).val < 256 := (i 1).isLt
    have hN : cfg2.N = 25 := N_2
    obtain ⟨t, ht⟩ : ∃ t : Fin cfg2.N, t.val = (i 0).val / 2000 := ⟨⟨(i 0).val / 2000, by rw [hN]; omega⟩, rfl⟩
    obtain ⟨-, -, -, -, -, -, e0, e1⟩ := idx_facts2 t
    refine ⟨t, flush2_3 t, ?_⟩
    rw [mem_blk2]
    intro a
    match a with
    | ⟨0, _⟩ =>
      show win2_3.index t 0 * 2000 ≤ (i 0).val ∧ (i 0).val < win2_3.index t 0 * 2000 + 2000
      rw [e0, ht]; omega
    | ⟨1, _⟩ =>
      show win2_3.index t 1 * 256 ≤ (i 1).val ∧ (i 1).val < win2_3.index t 1 * 256 + 256
      rw [e1]; omega

end Cert.KernelIdeal.RegionValue

end
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.LibRowMax.lean ====
import Idealize.ShloMosaic.Lib.ValueIdx
import Idealize.ShloMosaic.PureOps.Ideal.Laws

/-!
  A ROW MAXIMUM AS A FOLD.

  The host's reduction with a maximum body over the LAST axis of a rank-2 array `x : [N, J]` is, at the ideal
  values and at row `r`, the fold of `max` from the initial value over the row's entries `x (r, c')`, `c' < J`.
  The maximum is commutative and associative, so the order in which the host visits the row does not matter.
  The f32 word `0xFF800000` reads as `-∞`, the least extended real, so a fold of `max` from it is the maximum of
  the entries alone; the f32 word `0x00000000` reads as `0`.
-/

open Idealize.ShloMosaic Idealize.ShloMosaic.ValueIdx

namespace RowMax

variable {N J : Nat}

/-- Dropping the last axis of `[N, J]` leaves `[N]`, a shape with an axis: the host's shape fact gives the
    vector reduction's. -/
theorem reduces_of_reducesTo (h' : (⟨2, ![N, J]⟩ : Shape).ReducesTo [1] (⟨1, ![N]⟩ : Shape)) :
    (⟨2, ![N, J]⟩ : Shape).Reduces [1] (⟨1, ![N]⟩ : Shape) :=
  ⟨h'.1, Nat.one_pos, h'.2⟩

/-- Row `r` with column `k` put back is `(r, k)`. -/
theorem lift_ix2 (h : (⟨2, ![N, J]⟩ : Shape).Reduces [1] (⟨1, ![N]⟩ : Shape)) (r : Fin N)
    (k : Fin ((⟨2, ![N, J]⟩ : Shape).size 1)) :
    h.lift (ix1 r) k = ix2 r (⟨k.val, k.isLt⟩ : Fin J) := by
  funext c; apply Fin.ext
  fin_cases c <;> rfl

/-- THE ROW MAXIMUM AT A ROW: the fold of `max` from the initial value's element over the row's entries. -/
theorem hostReduce_maximumf_rows {φ : FTy} {u : Shape} (x : FVec Ideal ⟨2, ![N, J]⟩ φ) (init : u.Idx → Ideal φ)
    (h' : (⟨2, ![N, J]⟩ : Shape).ReducesTo [1] (⟨1, ![N]⟩ : Shape)) (hu : 0 < u.numel) (r : Fin N) :
    Host.reduce FloatOps.maximumf x init h' hu (ix1 r)
      = (Finset.univ : Finset (Fin J)).fold max (init (Shape.Idx.first hu)) (fun c' => x (ix2 r c')) := by
  have h := reduces_of_reducesTo h'
  rw [Host.reduce_eq_fold_single FloatOps.maximumf x init h' h hu]
  have hf : (x ∘ h.lift (ix1 r)) = fun c' : Fin J => x (ix2 r c') :=
    funext fun k => congrArg x (lift_ix2 h r k)
  exact congrArg (fun f => Finset.fold max (init (Shape.Idx.first hu)) f (Finset.univ : Finset (Fin J))) hf

/-- The same from a constant initial value `v`. -/
theorem hostReduce_maximumf_rows_const {φ : FTy} {u : Shape} (x : FVec Ideal ⟨2, ![N, J]⟩ φ) (v : Ideal φ)
    (h' : (⟨2, ![N, J]⟩ : Shape).ReducesTo [1] (⟨1, ![N]⟩ : Shape)) (hu : 0 < u.numel) (r : Fin N) :
    Host.reduce FloatOps.maximumf x (fun _ : u.Idx => v) h' hu (ix1 r)
      = (Finset.univ : Finset (Fin J)).fold max v (fun c' => x (ix2 r c')) :=
  hostReduce_maximumf_rows x (fun _ : u.Idx => v) h' hu r

/-- The same from a constant array holding the word `b`: the fold starts from what `b` reads as. -/
theorem hostReduce_maximumf_rows_constant {φ : FTy} {u : Shape} (x : FVec Ideal ⟨2, ![N, J]⟩ φ) (b : BitVec φ.bits)
    (h' : (⟨2, ![N, J]⟩ : Shape).ReducesTo [1] (⟨1, ![N]⟩ : Shape)) (hu : 0 < u.numel) (r : Fin N) :
    Host.reduce FloatOps.maximumf x (constant (F := Ideal) u φ b) h' hu (ix1 r)
      = (Finset.univ : Finset (Fin J)).fold max (Ideal.ofBits φ b) (fun c' => x (ix2 r c')) :=
  hostReduce_maximumf_rows x (constant (F := Ideal) u φ b) h' hu r

/-! ## Two f32 words -/

/-- The f32 word `0xFF800000` is `-∞`, the least extended real. -/
theorem ofBits_ninf_f32 : Ideal.ofBits .f32 0xFF800000#32 = ⊥ := by
  simp [Ideal.ofBits, Ideal.ieee]

/-- So the maximum of it with anything is that thing. -/
theorem max_ninf_left (y : EReal) : max (Ideal.ofBits .f32 0xFF800000#32) y = y := by
  rw [ofBits_ninf_f32]; exact max_bot_left y

theorem max_ninf_right (y : EReal) : max y (Ideal.ofBits .f32 0xFF800000#32) = y := by
  rw [ofBits_ninf_f32]; exact max_bot_right y

/-- The f32 word `0x00000000` is `0`. -/
theorem ofBits_zero_f32 : Ideal.ofBits .f32 0x00000000#32 = 0 := Ideal.ofBits_zero_f32

end RowMax
-- ==== Proof.KRegion3.lean ====
/-
  Region 3 of the kernel, read as one whole-array function.

  Each grid point t (25 of them) stages rows 2000·t … 2000·t+1999 of the aggregated matrix G ([50000,256]) and of
  the column d ([50000,1]), and the whole bias row b ([1,256]), head weights W ([256,2]) and head bias c ([1,2]).
  At row p of the block the body forms the hidden row  h(p, k) = max (G(p, k) · d(p, 0) + b(0, k)) 0,  the two logits
      z(p, j) = (∑ k, h(p, k) · W(k, j)) + c(0, j)
  (a product into the zero accumulator), the row maximum  m(p) = max over j of z(p, j)  (a fold of max from -∞),
  and stores  (z(p, j) − m(p)) − log (∑ j', exp (z(p, j') − m(p))),  the sum of exponentials started at 0.
  That is the log-softmax of the row of two logits.  The 25 output blocks tile the [50000,2] output, so after the
  region the output array is  head (scaleBiasRelu G d b) W c  at every index.
-/
import proofs.«122100_j8770323219094_2_alg».proof.Proof.Spec
import proofs.«122100_j8770323219094_2_alg».proof.Proof.LibLayout
import proofs.«122100_j8770323219094_2_alg».proof.Proof.LibDotRows
import proofs.«122100_j8770323219094_2_alg».proof.Proof.LibPlainMatmul
import proofs.«122100_j8770323219094_2_alg».proof.Proof.LibRowMax
import proofs.«122100_j8770323219094_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic Idealize.ShloMosaic.ValueIdx

/-- The product of a [2000,256] block by the [256,2] head weights, into the zero accumulator, at (p, j). -/
theorem headProduct3_apply (lhs : FVec Ideal S2000x256 .bf16) (rhs : FVec Ideal S256x2 .bf16) (p : Fin 2000) (j : Fin 2) :
    matmul (F := Ideal) dot_S2000x256_S256x2_S2000x2_1_0_0_1_n_n none lhs rhs
        (constant (F := Ideal) S2000x2 .f32 0x00000000#32) (ix2 p j)
      = ∑ k : Fin 256, lhs (ix2 p k) * rhs (ix2 k j) :=
  matmul_zero_rows dot_S2000x256_S256x2_S2000x2_1_0_0_1_n_n none rfl rfl (fun _ _ => rfl) (fun _ _ => rfl)
    (fun _ _ => rfl) (fun _ _ => rfl) lhs rhs p j

/-- The maximum along a row of two, from -∞, laid as a column. -/
theorem rowMaxCol3_apply (z : FVec Ideal S2000x2 .f32) (p : Fin 2000) (u : Fin 1) :
    shapeCast S2000x1
        (multiReduction (F := Ideal) .maximumf [1] S2000 z 0xFF800000#32 reduces_S2000x2_S2000 (.inl rfl) rfl)
        shapeCasts_S2000_S2000x1 (ix2 p u)
      = (Finset.univ : Finset (Fin 2)).fold max ⊥ (fun k => z (ix2 p k)) := by
  rw [shapeCast_a_a1_apply]
  refine (Ideal.multiReduction_maximumf_single z _ reduces_S2000x2_S2000 (.inl rfl) rfl (ix1 p)).trans ?_
  have hf : (z ∘ reduces_S2000x2_S2000.lift (ix1 p)) = fun k : Fin 2 => z (ix2 p k) :=
    funext fun k => congrArg z (PlainMatmul.lift_last reduces_S2000x2_S2000 p k)
  refine (congrArg (fun f => Finset.fold max (Ideal.ofBits .f32 0xFF800000#32) f (Finset.univ : Finset (Fin 2))) hf).trans ?_
  rw [RowMax.ofBits_ninf_f32]

/-- The same column broadcast back along the row. -/
theorem rowMax3_apply (z : FVec Ideal S2000x2 .f32) (p : Fin 2000) (j : Fin 2) :
    broadcastTo S2000x2 (shapeCast S2000x1
        (multiReduction (F := Ideal) .maximumf [1] S2000 z 0xFF800000#32 reduces_S2000x2_S2000 (.inl rfl) rfl)
        shapeCasts_S2000_S2000x1) broadcasts_S2000x1_S2000x2 (ix2 p j)
      = (Finset.univ : Finset (Fin 2)).fold max ⊥ (fun k => z (ix2 p k)) := by
  rw [broadcastTo_a1_ab_apply, rowMaxCol3_apply]

/-- The log of the sum along a row of two, the sum laid as a column, the log broadcast back along the row. -/
theorem logRowSum3_apply (e : FVec Ideal S2000x2 .f32) (p : Fin 2000) (j : Fin 2) :
    broadcastTo S2000x2 (log (shapeCast S2000x1
        (multiReduction (F := Ideal) .add [1] S2000 e 0x00000000#32 reduces_S2000x2_S2000 (.inl rfl) rfl)
        shapeCasts_S2000_S2000x1)) broadcasts_S2000x1_S2000x2 (ix2 p j)
      = Ideal.log (0 + ∑ k : Fin 2, e (ix2 p k)) := by
  rw [broadcastTo_a1_ab_apply]
  show Ideal.log (shapeCast S2000x1 _ shapeCasts_S2000_S2000x1 (ix2 p (0 : Fin 1))) = _
  rw [shapeCast_a_a1_apply]
  exact congrArg Ideal.log
    ((PlainMatmul.sum_axis1_apply e _ reduces_S2000x2_S2000 (.inl rfl) rfl p).trans (zero_add _).symm)

/-- The exponential of an array is taken entry by entry. -/
theorem exp3_apply {s : Shape} (x : FVec Ideal s .f32) (i : s.Idx) : exp x i = Ideal.exp (x i) := rfl

/-- The tail of the body on a block z of logits, at (p, j): subtract the row maximum, then the log of the row's
    sum of exponentials — the log-softmax of row p of z. -/
theorem softmaxTail3_apply (z : FVec Ideal S2000x2 .f32) (p : Fin 2000) (j : Fin 2) :
    subf
        (subf z (broadcastTo S2000x2 (shapeCast S2000x1
          (multiReduction (F := Ideal) .maximumf [1] S2000 z 0xFF800000#32 reduces_S2000x2_S2000 (.inl rfl) rfl)
          shapeCasts_S2000_S2000x1) broadcasts_S2000x1_S2000x2))
        (broadcastTo S2000x2 (log (shapeCast S2000x1
          (multiReduction (F := Ideal) .add [1] S2000
            (exp (subf z (broadcastTo S2000x2 (shapeCast S2000x1
              (multiReduction (F := Ideal) .maximumf [1] S2000 z 0xFF800000#32 reduces_S2000x2_S2000 (.inl rfl) rfl)
              shapeCasts_S2000_S2000x1) broadcasts_S2000x1_S2000x2)))
            0x00000000#32 reduces_S2000x2_S2000 (.inl rfl) rfl)
          shapeCasts_S2000_S2000x1)) broadcasts_S2000x1_S2000x2) (ix2 p j)
      = Cert.Gcn.logSoftmax2 (fun k : Fin 2 => z (ix2 p k)) j := by
  rw [subf_apply, subf_apply, rowMax3_apply, logRowSum3_apply]
  unfold Cert.Gcn.logSoftmax2
  refine congrArg (fun s => z (ix2 p j) - Finset.fold max ⊥ (fun k => z (ix2 p k)) Finset.univ - Ideal.log (0 + s))
    (Finset.sum_congr rfl fun k _ => ?_)
  rw [exp3_apply, subf_apply, rowMax3_apply]

/-- THE BODY'S STORED VALUE AT (p, j): the log-softmax of the row's two logits. -/
theorem pay3_apply (x0 : Vec Ideal S2000x256 .f32) (x1 : Vec Ideal S2000x1 .f32) (x2 : Vec Ideal S1x256 .f32)
    (x3 : Vec Ideal S256x2 .bf16) (x4 : Vec Ideal S1x2 .f32) (p : Fin 2000) (j : Fin 2) :
    k3_pay1 (F := Ideal) x0 x1 x2 x3 x4 (ix2 p j)
      = Cert.Gcn.logSoftmax2 (fun k : Fin 2 =>
          (∑ k' : Fin 256, max (x0 (ix2 p k') * x1 (ix2 p (0 : Fin 1)) + x2 (ix2 (0 : Fin 1) k')) 0 * x3 (ix2 k' k))
            + x4 (ix2 (0 : Fin 1) k)) j := by
  have h0 : (FloatOps.ofBits FTy.f32 0x00000000#32 : Ideal .f32) = 0 := Ideal.ofBits_zero_f32
  unfold k3_pay1
  simp only [shapeCast_self]
  refine (softmaxTail3_apply _ p j).trans ?_
  refine congrArg (fun f => Cert.Gcn.logSoftmax2 f j) (funext fun k => ?_)
  rw [addf_apply, headProduct3_apply, broadcastTo_1b_ab_apply]
  refine congrArg (· + x4 (ix2 (0 : Fin 1) k)) (Finset.sum_congr rfl fun k' _ => ?_)
  rw [truncf_apply, maximumf_apply, addf_apply, mulf_apply, broadcast_apply, broadcastTo_a1_ab_apply,
    broadcastTo_1b_ab_apply]
  exact congrArg (fun y => max (x0 (ix2 p k') * x1 (ix2 p (0 : Fin 1)) + x2 (ix2 (0 : Fin 1) k')) y * x3 (ix2 k' k)) h0

variable (V : (c : Dev nD) → (b : Ref sig .tc) → Buf (Elt Ideal) ((c : Thread nD τ).loc b))

/-- The zero offsets of a whole-buffer access, however spelt. -/
theorem zero_off3 : (![0, 0] : Fin 2 → Nat) = fun _ => 0 := funext fun a => by fin_cases a <;> rfl

/-- The printed index maps over the grid: the per-node windows sit at block (t, 0); the bias row, the head's weights
    and the head's bias at block (0, 0). -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The node row that row p of block t is. -/
def rowOf3 (t : Fin cfg3.N) (p : Fin 2000) : Fin 50000 :=
  ⟨2000 * t.val + p.val, by have h := t.isLt; have hN : cfg3.N = 25 := N_3; omega⟩

/-- Block t of the aggregated matrix holds its rows 2000·t + p. -/
theorem iblk3_0_apply (c : Dev nD) (t : Fin cfg3.N) (p : Fin 2000) (q : Fin 256) :
    (iblk3 (F := Ideal) V c 0 t : Vec Ideal S2000x256 .f32) (ix2 p q)
      = (V c main_v44 : S50000x256.Idx → EReal) (ix2 (rowOf3 t p) q) := by
  obtain ⟨e0, e1, -⟩ := index_facts3 t
  unfold iblk3
  rw [View.read_apply]
  show V c main_v44 _ = V c main_v44 _
  congr 1
  funext a
  apply Fin.ext
  match a with
  | ⟨0, _⟩ => show win3_0.index t 0 * 2000 + 1 * p.val = 2000 * t.val + p.val; rw [e0]; omega
  | ⟨1, _⟩ => show win3_0.index t 1 * 256 + 1 * q.val = q.val; rw [e1]; omega

/-- Block t of the column holds its rows 2000·t + p. -/
theorem iblk3_1_apply (c : Dev nD) (t : Fin cfg3.N) (p : Fin 2000) (u : Fin 1) :
    (iblk3 (F := Ideal) V c 1 t : Vec Ideal S2000x1 .f32) (ix2 p u)
      = (V c main_v15 : S50000x1.Idx → EReal) (ix2 (rowOf3 t p) (0 : Fin 1)) := by
  obtain ⟨-, -, e2, e3, -⟩ := index_facts3 t
  unfold iblk3
  rw [View.read_apply]
  show V c main_v15 _ = V c main_v15 _
  congr 1
  funext a
  apply Fin.ext
  match a with
  | ⟨0, _⟩ => show win3_1.index t 0 * 2000 + 1 * p.val = 2000 * t.val + p.val; rw [e2]; omega
  | ⟨1, _⟩ => show win3_1.index t 1 * 1 + 1 * u.val = 0; rw [e3]; omega

/-- Every point stages the whole bias row. -/
theorem iblk3_2_apply (c : Dev nD) (t : Fin cfg3.N) (u : Fin 1) (q : Fin 256) :
    (iblk3 (F := Ideal) V c 2 t : Vec Ideal S1x256 .f32) (ix2 u q)
      = (V c main_v45 : S1x256.Idx → EReal) (ix2 (0 : Fin 1) q) := by
  obtain ⟨-, -, -, -, e4, e5, -⟩ := index_facts3 t
  unfold iblk3
  rw [View.read_apply]
  show V c main_v45 _ = V c main_v45 _
  congr 1
  funext a
  apply Fin.ext
  match a with
  | ⟨0, _⟩ => show win3_2.index t 0 * 1 + 1 * u.val = 0; rw [e4]; omega
  | ⟨1, _⟩ => show win3_2.index t 1 * 256 + 1 * q.val = q.val; rw [e5]; omega

/-- Every point stages the whole head weights. -/
theorem iblk3_3_apply (c : Dev nD) (t : Fin cfg3.N) (k : Fin 256) (q : Fin 2) :
    (iblk3 (F := Ideal) V c 3 t : Vec Ideal S256x2 .bf16) (ix2 k q)
      = (V c main_v46 : S256x2.Idx → EReal) (ix2 k q) := by
  obtain ⟨-, -, -, -, -, -, e6, e7, -⟩ := index_facts3 t
  unfold iblk3
  rw [View.read_apply]
  show V c main_v46 _ = V c main_v46 _
  congr 1
  funext a
  apply Fin.ext
  match a with
  | ⟨0, _⟩ => show win3_3.index t 0 * 256 + 1 * k.val = k.val; rw [e6]; omega
  | ⟨1, _⟩ => show win3_3.index t 1 * 2 + 1 * q.val = q.val; rw [e7]; omega

/-- Every point stages the whole head bias. -/
theorem iblk3_4_apply (c : Dev nD) (t : Fin cfg3.N) (u : Fin 1) (q : Fin 2) :
    (iblk3 (F := Ideal) V c 4 t : Vec Ideal S1x2 .f32) (ix2 u q)
      = (V c main_v47 : S1x2.Idx → EReal) (ix2 (0 : Fin 1) q) := by
  obtain ⟨-, -, -, -, -, -, -, -, e8, e9, -⟩ := index_facts3 t
  unfold iblk3
  rw [View.read_apply]
  show V c main_v47 _ = V c main_v47 _
  congr 1
  funext a
  apply Fin.ext
  match a with
  | ⟨0, _⟩ => show win3_4.index t 0 * 1 + 1 * u.val = 0; rw [e8]; omega
  | ⟨1, _⟩ => show win3_4.index t 1 * 2 + 1 * q.val = q.val; rw [e9]; omega

/-- Where element (p, q) of output block t sits in the output array. -/
theorem emb3_5 (t : Fin cfg3.N) (p : Fin 2000) (q : Fin 2) :
    (((cfg3.win 5).blk t).view.emb (ix2 p q) : S50000x2.Idx) = ix2 (rowOf3 t p) q := by
  obtain ⟨-, -, -, -, -, -, -, -, -, -, e10, e11⟩ := index_facts3 t
  funext a
  apply Fin.ext
  match a with
  | ⟨0, _⟩ => show win3_5.index t 0 * 2000 + 1 * p.val = 2000 * t.val + p.val; rw [e10]; omega
  | ⟨1, _⟩ => show win3_5.index t 1 * 2 + 1 * q.val = q.val; rw [e11]; omega

/-- The body's block at point t, index by index, is the whole-array function read through output block t. -/
theorem block3_point (c : Dev nD) (t : Fin cfg3.N) (j : S2000x2.Idx) :
    k3_pay1 (F := Ideal) (iblk3 V c 0 t) (iblk3 V c 1 t) (iblk3 V c 2 t) (iblk3 V c 3 t) (iblk3 V c 4 t) j
      = Cert.Gcn.head (Cert.Gcn.scaleBiasRelu (V c main_v44) (V c main_v15) (V c main_v45)) (V c main_v46)
          (fun j => V c main_v47 (ix2 (0 : Fin 1) j)) (((cfg3.win 5).blk t).view.emb j) := by
  obtain ⟨p, q, rfl⟩ : ∃ (p : Fin 2000) (q : Fin 2), j = ix2 p q := ⟨j 0, j 1, eq_ix2 j⟩
  refine (pay3_apply (iblk3 V c 0 t) (iblk3 V c 1 t) (iblk3 V c 2 t) (iblk3 V c 3 t) (iblk3 V c 4 t) p q).trans ?_
  rw [emb3_5]
  show Cert.Gcn.logSoftmax2 _ q
    = Cert.Gcn.logSoftmax2 (Cert.Gcn.logit (Cert.Gcn.scaleBiasRelu (V c main_v44) (V c main_v15) (V c main_v45))
        (V c main_v46) (fun j => V c main_v47 (ix2 (0 : Fin 1) j)) (rowOf3 t p)) q
  refine congrArg (fun f => Cert.Gcn.logSoftmax2 f q) (funext fun k => ?_)
  show (∑ k' : Fin 256, _) + _
    = (∑ k' : Fin 256, Cert.Gcn.scaleBiasRelu (V c main_v44) (V c main_v15) (V c main_v45) (ix2 (rowOf3 t p) k')
          * (V c main_v46 : S256x2.Idx → EReal) (ix2 k' k))
        + (V c main_v47 : S1x2.Idx → EReal) (ix2 (0 : Fin 1) k)
  rw [iblk3_4_apply]
  refine congrArg (· + (V c main_v47 : S1x2.Idx → EReal) (ix2 (0 : Fin 1) k)) (Finset.sum_congr rfl fun k' _ => ?_)
  rw [iblk3_0_apply, iblk3_1_apply, iblk3_2_apply, iblk3_3_apply]
  rfl

/-- What point t writes back is block t of the whole-array function. -/
theorem flushed3_eq (c : Dev nD) (t : Fin cfg3.N) :
    (dat3 (F := Ideal) V c).flushed 5 t = ((cfg3.win 5).blk t).view.read (Elt Ideal)
      (Cert.Gcn.head (Cert.Gcn.scaleBiasRelu (V c main_v44) (V c main_v15) (V c main_v45)) (V c main_v46)
        (fun j => V c main_v47 (ix2 (0 : Fin 1) j))) := by
  show (cfg3.win 5).cut (grid3.coords t) ((dat3 (F := Ideal) V c).after 5 t) = _
  rw [after3_5]
  unfold out3_5
  rw [View.canon_unit_zero zero_off3]
  simp only [View.ld_unit_zero (S := S2000x256) zero_off3, View.ld_unit_zero (S := S2000x1) zero_off3,
    View.ld_unit_zero (S := S1x256) zero_off3, View.ld_unit_zero (S := S256x2) zero_off3,
    View.ld_unit_zero (S := S1x2) zero_off3]
  funext j
  exact block3_point V c t j

/-- An index of the output is in point t's block iff each coordinate is in the block's range on its axis. -/
theorem mem_blk3 (t : Fin cfg3.N) (i : S50000x2.Idx) :
    i ∈ ((cfg3.win 5).blk t).view.set ↔ ∀ a : Fin 2, win3_5.index t a * S2000x2.size a ≤ (i a).val
      ∧ (i a).val < win3_5.index t a * S2000x2.size a + S2000x2.size a := by
  show i ∈ ((View.whole main_v48).slice (win3_5.rect t)).set ↔ _
  rw [View.set_slice_whole, Rect.mem_set_unit]
  exact Iff.rfl

/-- AFTER REGION 3 the output array is the head's log-softmax of the hidden matrix, everywhere: the block of point
    r / 2000 covers row r. -/
theorem region3_array (c : Dev nD) :
    (dat3 (F := Ideal) V c).arrAt 5 cfg3.N
      = Cert.Gcn.head (Cert.Gcn.scaleBiasRelu (V c main_v44) (V c main_v15) (V c main_v45)) (V c main_v46)
          (fun j => V c main_v47 (ix2 (0 : Fin 1) j)) :=
  (dat3 (F := Ideal) V c).arrAt_eq_of_cover 5 _ (fun t _ => flushed3_eq V c t) fun i => by
    have hi0 : (i 0 : Nat) < 50000 := (i 0).isLt
    have hi1 : (i 1 : Nat) < 2 := (i 1).isLt
    have hN : cfg3.N = 25 := N_3
    refine ⟨⟨(i 0 : Nat) / 2000, by omega⟩, flush3_5 _, ?_⟩
    rw [mem_blk3]
    obtain ⟨-, -, -, -, -, -, -, -, -, -, e10, e11⟩ := index_facts3 ⟨(i 0 : Nat) / 2000, by omega⟩
    intro a
    match a with
    | ⟨0, _⟩ =>
      show win3_5.index _ 0 * 2000 ≤ (i 0 : Nat) ∧ (i 0 : Nat) < win3_5.index _ 0 * 2000 + 2000
      rw [e10]; show (i 0 : Nat) / 2000 * 2000 ≤ (i 0 : Nat) ∧ (i 0 : Nat) < (i 0 : Nat) / 2000 * 2000 + 2000; omega
    | ⟨1, _⟩ =>
      show win3_5.index _ 1 * 2 ≤ (i 1 : Nat) ∧ (i 1 : Nat) < win3_5.index _ 1 * 2 + 2
      rw [e11]; omega

end Cert.KernelIdeal.RegionValue

end
-- ==== Proof.LibHostScatterIdeal.lean ====
import Idealize.ShloMosaic.PureOps.Ideal

/-!
  THE HOST'S ACCUMULATING SCATTER AT THE IDEAL VALUES, WITHOUT OPENING IT.

  The host program's accumulating float scatter `Host.scatterAdd d x idx upd` is, at the ideal values, the exact
  function `Ideal.hostScatterAdd d x idx upd`: each operand element plus the sum of the update elements that land on it.
  Both steps of this identification are definitional, but at a full-size update array (hundreds of thousands of
  updates) a goal must never be asked to see that by unfolding: the exact function's body is an extended-real sum over
  every update index. So the first step is stated for an ARBITRARY float instance, where the operation is a field of
  an unknown structure and nothing can unfold, and the second is the instance's own equation; a proof rewrites with
  this lemma as a whole and then reads the result with a lemma about `Ideal.hostScatterAdd` (a segment sum read at an
  index, say).
-/

namespace Idealize.ShloMosaic

/-- The host's accumulating scatter is the float instance's `hostScatterAdd` at the single-device schedule, at any
    instance. -/
theorem Host.scatterAdd_eq_hostScatterAdd {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- At the ideal values it is the exact accumulating scatter. -/
theorem Host.scatterAdd_ideal {s si u : Shape} {φ : FTy} {w : Nat}
    (d : ScatterDims s si u) (x : FVec Ideal s φ) (idx : IVec si w) (upd : FVec Ideal u φ) :
    Host.scatterAdd d x idx upd = Ideal.hostScatterAdd d x idx upd :=
  (Host.scatterAdd_eq_hostScatterAdd d x idx upd).trans (Ideal.hostScatterAdd_def d .single x idx upd)

end Idealize.ShloMosaic
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.LibGatherRows.lean ====
import Idealize.ShloMosaic.Lib.ValueIdx

/-!
  A ROW GATHER READ AT AN INDEX.

  A gather whose start indices are one column of row numbers — operand `[N, J]`, start indices `[E, 1]`, result
  `[E, J]`, result row `e` a copy of operand row `idx e` — is, at result index `(e, c)`, the operand at
  `(r, c)` where `r` is the row number `idx (e, 0)` read SIGNED and CLAMPED into `[0, N - 1]`: a negative row
  number reads row `0`, one that is `N` or more reads row `N - 1`. The same for a rank-1 operand `[N]` with
  result `[E]`: result entry `e` is the operand at the clamped `idx (e, 0)`.

  Every lemma takes an arbitrary dimension record `d` of the right shapes together with the equations that say
  its lists are those of a row gather; for a record given by literal lists each equation is `rfl`.
-/

open Idealize.ShloMosaic Idealize.ShloMosaic.ValueIdx

namespace GatherRows

/-! ## Rank 2: operand `[N, J]`, start indices `[E, 1]`, result `[E, J]` -/

section Rank2

variable {α : Type} {N J E w : Nat} (d : GatherDims ⟨2, ![N, J]⟩ ⟨2, ![E, 1]⟩ ⟨2, ![E, J]⟩)

/-- Result index `(e, c)` reads its row number at `(e, 0)` of the start indices. -/
theorem siIdx2 (hod : d.offsetDims = [1]) (hsm : d.startIndexMap = [0]) (hiv : d.indexVectorDim = 1)
    (e : Fin E) (c : Fin J) (k : Fin d.startIndexMap.length) :
    d.siIdx (ix2 e c) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- On the row axis the slice of result index `(e, c)` starts at its row number, read signed and clamped into
    `[0, N - 1]`. -/
theorem start2_row (hod : d.offsetDims = [1]) (hsm : d.startIndexMap = [0]) (hiv : d.indexVectorDim = 1)
    (hss : d.sliceSizes = ![1, J]) (idx : IVec ⟨2, ![E, 1]⟩ w) (e : Fin E) (c : Fin J) :
    d.start (ix2 e c) idx 0 = min (idx (ix2 e 0)).toInt.toNat (N - 1) := by
  have hm : (0 : Fin 2) ∈ d.startIndexMap := by
    rw [hsm]; show (0 : Fin 2) ∈ ([0] : List (Fin 2)); decide
  unfold GatherDims.start
  rw [dif_pos hm, siIdx2 d hod hsm hiv, hss]
  rfl

/-- On the column axis the slice starts at `0`. -/
theorem start2_col (hsm : d.startIndexMap = [0]) (idx : IVec ⟨2, ![E, 1]⟩ w) (j : (⟨2, ![E, J]⟩ : Shape).Idx) :
    d.start j idx 1 = 0 := by
  have hm : ¬ (1 : Fin 2) ∈ d.startIndexMap := by
    rw [hsm]; show ¬ (1 : Fin 2) ∈ ([0] : List (Fin 2)); decide
  unfold GatherDims.start
  rw [dif_neg hm]

/-- The offset coordinate on the column axis is the result's column. -/
theorem offCoord2_col (hod : d.offsetDims = [1]) (hcd : d.collapsedSliceDims = [0])
    (hob : d.operandBatchingDims = []) (e : Fin E) (c : Fin J) :
    d.offCoord (ix2 e c) 1 = c.val := by
  obtain ⟨od, cd, ob, sb, sm, iv, ss, wf⟩ := d
  subst hod hcd hob
  rfl

/-- THE ROW GATHER AT AN INDEX, rank 2: the operand at `(r, c)`, `r` the row number `idx (e, 0)` read signed
    and clamped into `[0, N - 1]`. -/
theorem gather_rows2 (hN : 0 < N) (hod : d.offsetDims = [1]) (hcd : d.collapsedSliceDims = [0])
    (hob : d.operandBatchingDims = []) (hsm : d.startIndexMap = [0]) (hiv : d.indexVectorDim = 1)
    (hss : d.sliceSizes = ![1, J])
    (x : (⟨2, ![N, J]⟩ : Shape).Idx → α) (idx : IVec ⟨2, ![E, 1]⟩ w) (e : Fin E) (c : Fin J) :
    Host.gather d x idx (ix2 e c)
      = x (ix2 ⟨min (idx (ix2 e 0)).toInt.toNat (N - 1), by omega⟩ c) := by
  have hnb : ∀ a : Fin 2, a ∉ d.operandBatchingDims := by
    intro a; rw [hob]; exact List.not_mem_nil
  unfold Host.gather
  congr 1
  funext a
  refine Fin.ext ?_
  match a with
  | ⟨0, _⟩ =>
    show d.start (ix2 e c) idx 0 + d.batchCoord (ix2 e c) 0 + d.offCoord (ix2 e c) 0 = _
    rw [d.batchCoord_eq_zero _ _ (hnb 0),
      d.offCoord_eq_zero _ _ (fun h => ((d.mem_sKept _).mp h).1 (by rw [hcd]; exact List.mem_singleton.mpr rfl)),
      start2_row d hod hsm hiv hss]
    rfl
  | ⟨1, _⟩ =>
    show d.start (ix2 e c) idx 1 + d.batchCoord (ix2 e c) 1 + d.offCoord (ix2 e c) 1 = c.val
    rw [d.batchCoord_eq_zero _ _ (hnb 1), start2_col d hsm, offCoord2_col d hod hcd hob]
    omega

end Rank2

/-! ## Rank 1: operand `[N]`, start indices `[E, 1]`, result `[E]` -/

section Rank1

variable {α : Type} {N E w : Nat} (d : GatherDims ⟨1, ![N]⟩ ⟨2, ![E, 1]⟩ ⟨1, ![E]⟩)

/-- Result index `e` reads its row number at `(e, 0)` of the start indices. -/
theorem siIdx1 (hod : d.offsetDims = []) (hsm : d.startIndexMap = [0]) (hiv : d.indexVectorDim = 1)
    (e : Fin E) (k : Fin d.startIndexMap.length) :
    d.siIdx (ix1 e) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- The slice of result index `e` starts at its row number, read signed and clamped into `[0, N - 1]`. -/
theorem start1 (hod : d.offsetDims = []) (hsm : d.startIndexMap = [0]) (hiv : d.indexVectorDim = 1)
    (hss : d.sliceSizes = ![1]) (idx : IVec ⟨2, ![E, 1]⟩ w) (e : Fin E) :
    d.start (ix1 e) idx 0 = min (idx (ix2 e 0)).toInt.toNat (N - 1) := by
  have hm : (0 : Fin 1) ∈ d.startIndexMap := by
    rw [hsm]; show (0 : Fin 1) ∈ ([0] : List (Fin 1)); decide
  unfold GatherDims.start
  rw [dif_pos hm, siIdx1 d hod hsm hiv, hss]
  rfl

/-- THE ROW GATHER AT AN INDEX, rank 1: the operand at the row number `idx (e, 0)` read signed and clamped into
    `[0, N - 1]`. -/
theorem gather_rows1 (hN : 0 < N) (hod : d.offsetDims = []) (hcd : d.collapsedSliceDims = [0])
    (hob : d.operandBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  congr 1
  funext a
  obtain rfl : a = 0 := Subsingleton.elim _ _
  refine Fin.ext ?_
  show d.start (ix1 e) idx 0 + d.batchCoord (ix1 e) 0 + d.offCoord (ix1 e) 0 = _
  rw [d.batchCoord_eq_zero _ _ (by rw [hob]; exact List.not_mem_nil),
    d.offCoord_eq_zero _ _ (fun h => ((d.mem_sKept _).mp h).1 (by rw [hcd]; exact List.mem_singleton.mpr rfl)),
    start1 d hod hsm hiv hss]
  rfl

end Rank1

end GatherRows
-- ==== Proof.HostAggregate.lean ====
/-
  THE AGGREGATION BETWEEN TWO LAYERS, READ AS MATHEMATICS.

  Gather the rows of a node-by-feature matrix `H` along the source column of the edges (each source word read
  signed and clamped into the node range), widen the gathered numbers (at the ideal values a change of float
  format is the identity), and add row `e` of the result onto row `dI e` of a zero matrix (the destination word
  read signed; an edge whose destination is not a node is dropped).  At node `v` and feature `c` the result is
    `0 + ∑ e ∈ hits dI v, H (clampRow sI e, c)`,
  which is `aggregate dI sI H` of the specification.  The statement is over arbitrary dimension records whose
  lists are those of a row scatter and a row gather, and arbitrary proofs of the side conditions.
-/
import Idealize.ShloMosaic.PureOps.Ideal
import Idealize.ShloMosaic.Lib.ValueIdx
import Idealize.ShloMosaic.Lib.IdealHost
import proofs.«122100_j8770323219094_2_alg».proof.Proof.Spec
import proofs.«122100_j8770323219094_2_alg».proof.Proof.LibHostScatterIdeal
import proofs.«122100_j8770323219094_2_alg».proof.Proof.LibScatterRows
import proofs.«122100_j8770323219094_2_alg».proof.Proof.LibGatherRows

noncomputable section

open scoped BigOperators
open Idealize.ShloMosaic Idealize.ShloMosaic.ValueIdx

namespace Cert.Gcn

/-- A zero matrix, scattered onto by the widened gather of `H`, is the specification's aggregation. -/
theorem aggregate_eq
    (sd : ScatterDims ⟨2, ![50000, 256]⟩ ⟨2, ![850000, 1]⟩ ⟨2, ![850000, 256]⟩)
    (huw : sd.updateWindowDims = [1]) (hiw : sd.insertedWindowDims = [0])
    (hsd : sd.scatterDimsToOperandDims = [0]) (hiv : sd.indexVectorDim = 1)
    (gd : GatherDims ⟨2, ![50000, 256]⟩ ⟨2, ![850000, 1]⟩ ⟨2, ![850000, 256]⟩)
    (hod : gd.offsetDims = [1]) (hcd : gd.collapsedSliceDims = [0]) (hob : gd.operandBatchingDims = [])
    (hsm : gd.startIndexMap = [0]) (hgiv : gd.indexVectorDim = 1) (hss : gd.sliceSizes = ![1, 256])
    (hb : (⟨0, ![]⟩ : Shape).BroadcastsInDim ⟨2, ![50000, 256]⟩ (![] : Fin 0 → Fin 2))
    (hlt : FTy.bits .bf16 < FTy.bits .f32)
    (H : FVec Ideal ⟨2, ![50000, 256]⟩ .bf16) (dI sI : IVec ⟨2, ![850000, 1]⟩ 32) :
    Host.scatterAdd sd
        (broadcastInDim ⟨2, ![50000, 256]⟩ ![] hb (constant (F := Ideal) ⟨0, ![]⟩ .f32 0x00000000#32)) dI
        (extf .f32 (Host.gather gd H sI) hlt)
      = aggregate dI sI H := by
  rw [Host.scatterAdd_ideal]
  funext i
  obtain ⟨p, q, rfl⟩ : ∃ (p : Fin 50000) (q : Fin 256), i = ix2 p q := ⟨i 0, i 1, eq_ix2 i⟩
  refine (ScatterRows.hostScatterAdd_rows2 (N := 50000) (E := 850000) (F := 256) sd huw hiw hsd hiv _ dI _ p q).trans ?_
  refine congrArg₂ (· + ·) ?_ (Finset.sum_congr rfl fun e _ => ?_)
  · rw [broadcastInDim_scalar_apply, constant_apply, Ideal.ofBits_zero_f32]
  · exact GatherRows.gather_rows2 (N := 50000) (J := 256) (E := 850000) gd (by omega) hod hcd hob hsm hgiv hss H sI e q

end Cert.Gcn

end
-- ==== Proof.LibRealDivSum.lean ====
/-
  Extended reals that are real numbers, and the one algebraic law of this certificate.

  Both programs pass messages along the incidences of a hypergraph.  One of them divides every
  message by the normaliser of the row it is sent to and then adds the messages up; the other adds
  the undivided messages up and divides the total once.  Over the real numbers, and for a nonzero
  normaliser `s`,

      (∑ₑ xₑ · aₑ) / s  =  ∑ₑ (aₑ / s) · xₑ,

  because division by `s` is multiplication by `1 / s`, which distributes over a finite sum.  On
  the extended reals neither step is free (an infinite term breaks distributivity, and a quotient
  by zero is not a product), so the law is stated for terms that are real numbers and a divisor
  that is a nonzero real number, and the closure properties that show every intermediate value of
  the two programs to be a real number are collected here as well.
-/
import Idealize.ShloMosaic.PureOps.Ideal

noncomputable section

open scoped BigOperators

open Idealize.ShloMosaic

namespace Hnhn

/-- An extended real that is (the image of) a real number. -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A real number that is not the extended real `0` is a nonzero real. -/
theorem ne_zero_of_coe_ne_zero {b : ℝ} (h : (b : EReal) ≠ 0) : b ≠ 0 := by
  rintro rfl
  exact h EReal.coe_zero

/-- The quotient of a real number by a nonzero real number is a real number. -/
theorem IsReal.div {x y : EReal} (hx : IsReal x) (hy : IsReal y) (h0 : y ≠ 0) : IsReal (Ideal.div x y) := by
  obtain ⟨a, rfl⟩ := hx
  obtain ⟨b, rfl⟩ := hy
  rw [Ideal.div_coe (ne_zero_of_coe_ne_zero h0)]
  exact ⟨a * (1 / b), (EReal.coe_mul _ _).symm⟩

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW.  For real terms `x e`, `a e` and a nonzero real divisor `s`, dividing the total of the
    products `x e · a e` by `s` gives the total of the products `(a e / s) · x e`.  The divisor on the right
    may be named per term (`sd e`), as long as it is `s` for every term of the sum.  Both totals start from
    the extended real `0`, as an accumulating scatter into a zero array does. -/
theorem div_sum_law {ι : Type*} (S : Finset ι) (a x sd : ι → EReal) (s : EReal)
    (ha : ∀ e, IsReal (a e)) (hx : ∀ e, IsReal (x e)) (hs : IsReal s) (h0 : s ≠ 0)
    (hsd : ∀ e ∈ S, sd e = s) :
    Ideal.div (0 + ∑ e ∈ S, x e * a e) s = 0 + ∑ e ∈ S, Ideal.div (a e) (sd e) * x e := by
  obtain ⟨s', rfl⟩ := hs
  have hs' : s' ≠ 0 := ne_zero_of_coe_ne_zero h0
  choose a' ha' using ha
  choose x' hx' using hx
  have hR : ∑ e ∈ S, Ideal.div (a e) (sd e) * x e = ∑ e ∈ S, ((a' e * (1 / s') * x' e : ℝ) : EReal) :=
    Finset.sum_congr rfl fun e he => by
      rw [hsd e he, Ideal.div_coe hs', ha' e, hx' e, ← EReal.coe_mul, ← EReal.coe_mul]
  have hL : ∑ e ∈ S, x e * a e = ∑ e ∈ S, ((x' e * a' e : ℝ) : EReal) :=
    Finset.sum_congr rfl fun e _ => by rw [ha' e, hx' e, ← EReal.coe_mul]
  rw [hR, hL, Ideal.div_coe hs', ← coe_sum, ← coe_sum, zero_add, zero_add, ← EReal.coe_mul]
  congr 1
  rw [Finset.sum_mul]
  exact Finset.sum_congr rfl fun e _ => by ring

end Hnhn

end
-- ==== Proof.LayerLaw.lean ====
/-
  The graph-convolution layer in its two arrangements agrees on real data.

  With `d` the vector of inverse square roots of the degrees, one arrangement scales the rows of the product
  `A · W` by `d`, adds up the rows that the incoming edges of a node `v` carry, scales the total by `d v`, adds
  the bias and clips below at zero.  The other arrangement weights the row an edge `e` carries by
  `d (source e) * d (destination e)` before adding.  For an edge that reaches `v` the destination is `v`, so
  the two totals are

      (0 + ∑ₑ pₑ · d (sₑ)) · d v     and     0 + ∑ₑ pₑ · (d (sₑ) · d v).

  Over the real numbers these agree, because multiplication by `d v` distributes over a finite sum and
  multiplication is associative.  On the extended reals distributivity can fail when a term is infinite,
  so the law is stated for real terms: every entry of `A`, `W` and `d` is a real number.  The result of the
  layer is then again a matrix of real numbers (a maximum of two reals is one of the two).
-/
import proofs.«122100_j8770323219094_2_alg».proof.Proof.Spec
import proofs.«122100_j8770323219094_2_alg».proof.Proof.LibRealDivSum

noncomputable section

open scoped BigOperators
open Idealize.ShloMosaic Idealize.ShloMosaic.ValueIdx

namespace Cert.Gcn

open Hnhn (IsReal)

/-- For real terms, a real factor moves from outside a finite sum (started at zero) into every term. -/
theorem sum_mul_real {ι : Type*} (S : Finset ι) (p q : ι → EReal) (c : EReal)
    (hp : ∀ e, IsReal (p e)) (hq : ∀ e, IsReal (q e)) (hc : IsReal c) :
    (0 + ∑ e ∈ S, p e * q e) * c = 0 + ∑ e ∈ S, p e * (q e * c) := by
  obtain ⟨c', rfl⟩ := hc
  choose p' hp' using hp
  choose q' hq' using hq
  have hL : ∑ e ∈ S, p e * q e = ∑ e ∈ S, ((p' e * q' e : ℝ) : EReal) :=
    Finset.sum_congr rfl fun e _ => by rw [hp' e, hq' e, ← EReal.coe_mul]
  have hR : ∑ e ∈ S, p e * (q e * (c' : EReal)) = ∑ e ∈ S, ((p' e * (q' e * c') : ℝ) : EReal) :=
    Finset.sum_congr rfl fun e _ => by rw [hp' e, hq' e, ← EReal.coe_mul, ← EReal.coe_mul]
  rw [hL, hR, ← Hnhn.coe_sum, ← Hnhn.coe_sum, zero_add, zero_add, ← EReal.coe_mul]
  congr 1
  rw [Finset.sum_mul]
  exact Finset.sum_congr rfl fun e _ => by ring

/-- A row of a real matrix against a column of a real matrix is a real number. -/
theorem prod_real (A : NodeMat) (W : WMat) (hA : ∀ i, IsReal (A i)) (hW : ∀ i, IsReal (W i))
    (v : Fin 50000) (c : Fin 256) : IsReal (prod A W v c) :=
  Hnhn.IsReal.sum _ _ fun k _ => (hA _).mul (hW _)

/-- The larger of two real numbers is a real number. -/
theorem IsReal_max {x y : EReal} (hx : IsReal x) (hy : IsReal y) : IsReal (max x y) := by
  rcases le_total x y with h | h
  · rw [max_eq_right h]; exact hy
  · rw [max_eq_left h]; exact hx

/-- The four definitions at an index given by its coordinates. -/
theorem rowScaled_ix2 (A : NodeMat) (W : WMat) (col : NodeCol) (v : Fin 50000) (c : Fin 256) :
    rowScaled A W col (ix2 v c) = prod A W v c * col (ix2 v (0 : Fin 1)) := rfl

theorem aggregate_ix2 (dI sI : EdgeCol) (H : NodeMat) (v : Fin 50000) (c : Fin 256) :
    aggregate dI sI H (ix2 v c) = 0 + ∑ e ∈ hits dI v, H (ix2 (clampRow sI e) c) := rfl

theorem scaleBiasRelu_ix2 (G : NodeMat) (col : NodeCol) (brow : FeatRow) (v : Fin 50000) (c : Fin 256) :
    scaleBiasRelu G col brow (ix2 v c)
      = max (G (ix2 v c) * col (ix2 v (0 : Fin 1)) + brow (ix2 (0 : Fin 1) c)) 0 := rfl

theorem edgeWeighted_ix2 (dI sI wdI : EdgeCol) (dinv : Fin 50000 → EReal) (A : NodeMat) (W : WMat)
    (b : Fin 256 → EReal) (v : Fin 50000) (c : Fin 256) :
    edgeWeighted dI sI wdI dinv A W b (ix2 v c)
      = max ((0 + ∑ e ∈ hits dI v,
          prod A W (clampRow sI e) c * (dinv (clampRow sI e) * dinv (clampRow wdI e))) + b c) 0 := rfl

/-- THE LAYER LAW.  Scaling rows before and after the aggregation is the same as weighting every edge by the
    product of the two scale factors, when all the data are real numbers and the second index column `wdI`
    names, for every edge that reaches a node `v`, that node `v`. -/
theorem layer_law (dI sI wdI : EdgeCol) (dinv : Fin 50000 → EReal) (col : NodeCol) (A : NodeMat) (W : WMat)
    (b : Fin 256 → EReal) (brow : FeatRow)
    (hcol : ∀ v : Fin 50000, col (ix2 v (0 : Fin 1)) = dinv v)
    (hb : ∀ k : Fin 256, brow (ix2 (0 : Fin 1) k) = b k)
    (hw : ∀ (e : Fin 850000) (v : Fin 50000), (dI (ix2 e 0)).toInt = (v.val : Int) → clampRow wdI e = v)
    (hd : ∀ v, IsReal (dinv v)) (hA : ∀ i, IsReal (A i)) (hW : ∀ i, IsReal (W i)) :
    scaleBiasRelu (aggregate dI sI (rowScaled A W col)) col brow
      = edgeWeighted dI sI wdI dinv A W b := by
  funext i
  obtain ⟨v, c, rfl⟩ : ∃ a b, i = ix2 a b := ⟨_, _, eq_ix2 i⟩
  have hS : ∑ e ∈ hits dI v,
        prod A W (clampRow sI e) c * (dinv (clampRow sI e) * dinv (clampRow wdI e))
      = ∑ e ∈ hits dI v, prod A W (clampRow sI e) c * (dinv (clampRow sI e) * dinv v) :=
    Finset.sum_congr rfl fun e he => by
      rw [hw e v (Finset.mem_filter.mp he).2]
  have hG : ∑ e ∈ hits dI v, rowScaled A W col (ix2 (clampRow sI e) c)
      = ∑ e ∈ hits dI v, prod A W (clampRow sI e) c * dinv (clampRow sI e) :=
    Finset.sum_congr rfl fun e _ => by rw [rowScaled_ix2, hcol]
  rw [scaleBiasRelu_ix2, edgeWeighted_ix2, aggregate_ix2, hG, hS, hcol, hb,
    sum_mul_real (hits dI v) (fun e => prod A W (clampRow sI e) c) (fun e => dinv (clampRow sI e))
      (dinv v) (fun e => prod_real A W hA hW _ _) (fun e => hd _) (hd _)]

/-- The layer on real data gives real data. -/
theorem layer_real (dI sI wdI : EdgeCol) (dinv : Fin 50000 → EReal) (A : NodeMat) (W : WMat)
    (b : Fin 256 → EReal)
    (hd : ∀ v, IsReal (dinv v)) (hA : ∀ i, IsReal (A i)) (hW : ∀ i, IsReal (W i)) (hbr : ∀ k, IsReal (b k)) :
    ∀ i, IsReal (edgeWeighted dI sI wdI dinv A W b i) := by
  intro i
  obtain ⟨v, c, rfl⟩ : ∃ a b, i = ix2 a b := ⟨_, _, eq_ix2 i⟩
  rw [edgeWeighted_ix2]
  refine IsReal_max (Hnhn.IsReal.add (Hnhn.IsReal.add Hnhn.IsReal.zero ?_) (hbr _)) Hnhn.IsReal.zero
  exact Hnhn.IsReal.sum _ _ fun e _ => (prod_real A W hA hW _ _).mul ((hd _).mul (hd _))

end Cert.Gcn

end
-- ==== Proof.LibWrapIdx.lean ====
import Idealize.ShloMosaic.Lib.ValueIdx

/-!
  A NONNEGATIVE INDEX WORD IS NOT WRAPPED.

  Before a row gather both programs replace an index word `v` by `v + 100000` when `v`, read signed, is
  negative (a negative index counts from the end), and keep it otherwise. For a word whose signed reading is
  nonnegative the comparison `v < 0` is false, so the selection returns `v` itself.
-/

open Idealize.ShloMosaic

namespace WrapIdx

/-- The signed comparison `v < 0` of a word whose signed reading is nonnegative is the false bit. -/
theorem cmpi_slt_zero_of_nonneg (v : BitVec 32) (h : 0 ≤ v.toInt) : IntOp.cmpi .slt v 0#32 = 0#1 := by
  have hs : v.slt 0#32 = false := by
    unfold BitVec.slt
    exact decide_eq_false (by simpa using h)
  show BitVec.ofBool (v.slt 0#32) = 0#1
  rw [hs]
  rfl

/-- The signed comparison `v < 0` of a word whose signed reading is negative is the true bit. -/
theorem cmpi_slt_zero_of_neg (v : BitVec 32) (h : v.toInt < 0) : IntOp.cmpi .slt v 0#32 = 1#1 := by
  have hs : v.slt 0#32 = true := by
    unfold BitVec.slt
    exact decide_eq_true (by simpa using h)
  show BitVec.ofBool (v.slt 0#32) = 1#1
  rw [hs]
  rfl

/-- A word whose signed reading is nonnegative is kept: the selection between `v + m` and `v` on `v < 0`
    returns `v`. -/
theorem select_wrap_of_nonneg (v m : BitVec 32) (h : 0 ≤ v.toInt) :
    Scalar.select (IntOp.cmpi .slt v 0#32) (IntOp.addi v m) v = v := by
  rw [cmpi_slt_zero_of_nonneg v h]
  exact ValueIdx.select_zero _ _

/-- The same for the constant `100000` both programs add. -/
theorem wrapIdx_of_nonneg (v : BitVec 32) (h : 0 ≤ v.toInt) :
    Scalar.select (IntOp.cmpi .slt v 0#32) (IntOp.addi v 100000#32) v = v :=
  select_wrap_of_nonneg v 100000#32 h

/-- A word whose signed reading is negative is replaced by `v + m`. -/
theorem select_wrap_of_neg (v m : BitVec 32) (h : v.toInt < 0) :
    Scalar.select (IntOp.cmpi .slt v 0#32) (IntOp.addi v m) v = v + m := by
  rw [cmpi_slt_zero_of_neg v h]
  exact ValueIdx.select_one _ _

end WrapIdx
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.LibHostRowScalar.lean ====
/-
  Host layout steps read at an index written by coordinates, for any element type and any extents, and two
  identities between a reshape and a broadcast.

  A row `[1, b]` copied down `a` rows reads, at `(i, j)`, the row at `j`.  A vector `[b]` broadcast to the single row `[1, b]` reads, at `(u, j)`, the vector at `j`.
  Reshaping a vector `[a]` to the column `[a, 1]` keeps the elements in row-major order, and so does broadcasting it
  along the new unit axis: the two arrays are equal; likewise for the row `[1, b]`.  General; no program is imported.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- A row `[1, b]` copied down `a` rows reads, at `(i, j)`, the row at `j`. -/
theorem broadcastInDim_row_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- A vector `[b]` broadcast to the single row `[1, b]` reads, at `(u, j)`, the vector at `j`. -/
theorem broadcastInDim_vec_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- A vector `[a]` broadcast to the column `[a, 1]` reads, at `(i, u)`, the vector at `i`. -/
theorem broadcastInDim_vec_column_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The reshape of a vector to the column `[a, 1]` is its broadcast along the new unit axis. -/
theorem shapeCast_column_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_vec_column_apply]
  exact shapeCast_apply x hc _ _ (by
    have hu : u.val = 0 := by omega
    rw [Shape.rowMajor_val_two, Shape.rowMajor_val_one]
    show i.val = i.val * 1 + u.val
    rw [hu, Nat.mul_one, Nat.add_zero])

/-- The reshape of a vector to the row `[1, b]` is its broadcast along the new unit axis. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, i, rfl⟩ : ∃ (u : Fin 1) (i : Fin b), j = ix2 u i := ⟨j 0, j 1, eq_ix2 j⟩
  rw [broadcastInDim_vec_row_apply, shapeCast_a_1a_apply]

end Idealize.ShloMosaic.ValueIdx
-- ==== Proof.Glue.lean ====
/-
  The steps between the printed programs' values and the specification's layer, free of either program.

  Two layers.  The layer law (scaling rows before and after the aggregation is weighting every edge by the product of
  the two scale factors) holds for real data and gives real data, so it applies twice: the hidden matrix the first
  layer produces is real, and the second layer's law takes it as its input.

  A wrapped destination.  An index word that is negative, read signed, counts from the end: it is replaced by the
  word plus `50000`; a nonnegative word is kept.  A destination word whose signed reading is a node `v` is
  nonnegative, so it is kept, and clamping `v` into the node range returns `v`.

  Layout.  A vector cast to a column reads, at `(i, 0)`, the vector at `i`; a vector cast to a row reads, at
  `(0, j)`, the vector at `j`.

  Formats.  On the extended reals a change of float format is the identity, for a whole array as for a number.
-/
import proofs.«122100_j8770323219094_2_alg».proof.Proof.Spec
import proofs.«122100_j8770323219094_2_alg».proof.Proof.LayerLaw
import proofs.«122100_j8770323219094_2_alg».proof.Proof.LibWrapIdx
import proofs.«122100_j8770323219094_2_alg».proof.Proof.LibHostLayout
import proofs.«122100_j8770323219094_2_alg».proof.Proof.LibHostRowScalar
import proofs.«122100_j8770323219094_2_alg».proof.Proof.LibLayout
import Idealize.ShloMosaic.PureOps.Ideal
import Idealize.ShloMosaic.Lib.ValueIdx
import Idealize.ShloMosaic.Lib.ValueLayout

noncomputable section

open scoped BigOperators
open Idealize.ShloMosaic Idealize.ShloMosaic.ValueIdx

namespace Cert.Gcn

open Hnhn (IsReal)

/-! ## Two layers -/

/-- The layer law twice: the first layer's result is real, so the second layer's law applies to it. -/
theorem two_layers (dI sI wdI : EdgeCol) (dinv : Fin 50000 → EReal) (col : NodeCol) (X : NodeMat) (W1 W2 : WMat)
    (b1 b2 : Fin 256 → EReal) (b1row b2row : FeatRow)
    (hcol : ∀ v : Fin 50000, col (ix2 v (0 : Fin 1)) = dinv v)
    (hb1 : ∀ k : Fin 256, b1row (ix2 (0 : Fin 1) k) = b1 k)
    (hb2 : ∀ k : Fin 256, b2row (ix2 (0 : Fin 1) k) = b2 k)
    (hw : ∀ (e : Fin 850000) (v : Fin 50000), (dI (ix2 e 0)).toInt = (v.val : Int) → clampRow wdI e = v)
    (hd : ∀ v, IsReal (dinv v)) (hX : ∀ i, IsReal (X i)) (hW1 : ∀ i, IsReal (W1 i)) (hW2 : ∀ i, IsReal (W2 i))
    (hb1r : ∀ k, IsReal (b1 k)) :
    scaleBiasRelu (aggregate dI sI (rowScaled
        (scaleBiasRelu (aggregate dI sI (rowScaled X W1 col)) col b1row) W2 col)) col b2row
      = edgeWeighted dI sI wdI dinv (edgeWeighted dI sI wdI dinv X W1 b1) W2 b2 := by
  rw [layer_law dI sI wdI dinv col X W1 b1 b1row hcol hb1 hw hd hX hW1]
  exact layer_law dI sI wdI dinv col _ W2 b2 b2row hcol hb2 hw hd
    (layer_real dI sI wdI dinv X W1 b1 hd hX hW1 hb1r) hW2

/-! ## A wrapped destination -/

/-- For an edge whose destination word, read signed, is the node `v`, the wrapped destination column clamps to `v`. -/
theorem wrap_hits (s : IVec ⟨1, ![850000]⟩ 32)
    (h : (⟨1, ![850000]⟩ : Shape).BroadcastsInDim ⟨2, ![850000, 1]⟩ ![0])
    (h0 : (⟨0, ![]⟩ : Shape).BroadcastsInDim ⟨1, ![850000]⟩ (![] : Fin 0 → Fin 1)) :
    ∀ (e : Fin 850000) (v : Fin 50000),
      (broadcastInDim ⟨2, ![850000, 1]⟩ ![0] h s (ix2 e 0)).toInt = (v.val : Int) →
      clampRow (broadcastInDim ⟨2, ![850000, 1]⟩ ![0] h
        (select (cmpi .slt s (broadcastInDim ⟨1, ![850000]⟩ ![] h0 (constantI ⟨0, ![]⟩ 32 0#32)))
          (addi s (broadcastInDim ⟨1, ![850000]⟩ ![] h0 (constantI ⟨0, ![]⟩ 32 50000#32))) s)) e = v := by
  intro e v hv
  rw [broadcastInDim_vec_col_apply] at hv
  have hsel : broadcastInDim ⟨2, ![850000, 1]⟩ ![0] h
      (select (cmpi .slt s (broadcastInDim ⟨1, ![850000]⟩ ![] h0 (constantI ⟨0, ![]⟩ 32 0#32)))
        (addi s (broadcastInDim ⟨1, ![850000]⟩ ![] h0 (constantI ⟨0, ![]⟩ 32 50000#32))) s) (ix2 e 0)
      = s (ix1 e) := by
    rw [broadcastInDim_vec_col_apply]
    exact WrapIdx.select_wrap_of_nonneg (s (ix1 e)) 50000#32 (by rw [hv]; exact Int.natCast_nonneg _)
  apply Fin.ext
  show min (broadcastInDim ⟨2, ![850000, 1]⟩ ![0] h
      (select (cmpi .slt s (broadcastInDim ⟨1, ![850000]⟩ ![] h0 (constantI ⟨0, ![]⟩ 32 0#32)))
        (addi s (broadcastInDim ⟨1, ![850000]⟩ ![] h0 (constantI ⟨0, ![]⟩ 32 50000#32))) s)
      (ix2 e 0)).toInt.toNat (50000 - 1) = v.val
  rw [hsel, hv]
  have := v.isLt
  omega

/-! ## Layout -/

variable {α : Type}

/-- A vector of one number per node cast to a column reads, at `(v, 0)`, the vector at `v`. -/
theorem col_apply (d : (⟨1, ![50000]⟩ : Shape).Idx → α)
    (h : (⟨1, ![50000]⟩ : Shape).ShapeCasts ⟨2, ![50000, 1]⟩) (v : Fin 50000) :
    shapeCast ⟨2, ![50000, 1]⟩ d h (ix2 v (0 : Fin 1)) = d (ix1 v) :=
  shapeCast_a_a1_apply d h v 0

/-- A vector of one number per feature cast to a row reads, at `(0, k)`, the vector at `k`. -/
theorem row_apply (b : (⟨1, ![256]⟩ : Shape).Idx → α)
    (h : (⟨1, ![256]⟩ : Shape).ShapeCasts ⟨2, ![1, 256]⟩) (k : Fin 256) :
    shapeCast ⟨2, ![1, 256]⟩ b h (ix2 (0 : Fin 1) k) = b (ix1 k) :=
  shapeCast_a_1a_apply b h 0 k

/-- The same for a vector of one number per class. -/
theorem row2_apply (b : (⟨1, ![2]⟩ : Shape).Idx → α)
    (h : (⟨1, ![2]⟩ : Shape).ShapeCasts ⟨2, ![1, 2]⟩) (k : Fin 2) :
    shapeCast ⟨2, ![1, 2]⟩ b h (ix2 (0 : Fin 1) k) = b (ix1 k) :=
  shapeCast_a_1a_apply b h 0 k

/-! ## Formats -/

/-- Narrowing the float format of a whole array of extended reals changes nothing. -/
theorem truncf_id {s : Shape} {φ : FTy} (ψ : FTy) (x : FVec Ideal s φ) (h : ψ.bits < φ.bits) :
    truncf ψ x h = x := rfl

/-- Widening the float format of a whole array of extended reals changes nothing. -/
theorem extf_id {s : Shape} {φ : FTy} (ψ : FTy) (y : FVec Ideal s φ) (h : φ.bits < ψ.bits) :
    extf ψ y h = y := rfl

end Cert.Gcn

end
-- ==== Proof.LibScatter1.lean ====
import Idealize.ShloMosaic.Lib.ValueIdx

/-!
  A SCATTER ONTO A VECTOR READ AT AN INDEX.

  An accumulating scatter whose scatter indices are one column of entry numbers — operand `[N]`, updates `[E]`,
  indices `[E, 1]`, update `e` added onto operand entry `idx e` (a segment sum) — is, at the ideal values and at
  operand index `n`, the operand there plus the sum of `u e` over the updates `e` whose entry number is `n`.
  The entry number is read SIGNED and is not clamped: an update whose entry number lies outside `[0, N)` lands
  nowhere and is dropped.

  Every lemma takes an arbitrary dimension record `d` of the right shapes together with the four equations that
  say its lists are those of such a scatter; for a record given by literal lists each equation is `rfl`.
-/

open scoped BigOperators
open Idealize.ShloMosaic Idealize.ShloMosaic.ValueIdx

namespace Scatter1

/-! ## A sum over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Operand `[N]`, updates `[E]`, indices `[E, 1]` -/

variable {N E w : Nat} (d : ScatterDims ⟨1, ![N]⟩ ⟨2, ![E, 1]⟩ ⟨1, ![E]⟩)

/-- Update `e` reads its entry number at `(e, 0)` of the scatter indices. -/
theorem siIdx1 (huw : d.updateWindowDims = []) (hsd : d.scatterDimsToOperandDims = [0]) (hiv : d.indexVectorDim = 1)
    (e : Fin E) (c : Fin d.scatterDimsToOperandDims.length) :
    d.siIdx (ix1 e) c = ix2 e 0 := by
  obtain ⟨uw, iw, sd, iv, wf⟩ := d
  subst huw hsd hiv
  funext b
  match b with
  | ⟨0, _⟩ => rfl
  | ⟨1, _⟩ => exact Fin.ext (by have := c.isLt; simp at this; simpa [ScatterDims.siIdx] using this)

/-- The window of update `e` starts at its entry number, read signed. -/
theorem start1 (huw : d.updateWindowDims = []) (hsd : d.scatterDimsToOperandDims = [0]) (hiv : d.indexVectorDim = 1)
    (idx : IVec ⟨2, ![E, 1]⟩ w) (e : Fin E) :
    d.start (ix1 e) idx 0 = (idx (ix2 e 0)).toInt := by
  have hm : (0 : Fin 1) ∈ d.scatterDimsToOperandDims := by
    rw [hsd]; show (0 : Fin 1) ∈ ([0] : List (Fin 1)); decide
  unfold ScatterDims.start
  rw [dif_pos hm, siIdx1 d huw hsd hiv]

/-- The one operand axis is inserted: the window coordinate there is `0`. -/
theorem window1 (hiw : d.insertedWindowDims = [0]) (j : (⟨1, ![E]⟩ : Shape).Idx) :
    d.window j 0 = 0 := by
  have hm : ¬ (0 : Fin 1) ∈ d.sKept := by
    show ¬ (0 : Fin 1) ∈ Shape.kept _ d.insertedWindowDims
    rw [hiw]
    show ¬ (0 : Fin 1) ∈ (List.finRange 1).filter (fun a => a ∉ ([0] : List (Fin 1)))
    decide
  unfold ScatterDims.window
  rw [dif_neg hm]

/-- Update `e` lands at operand index `n` exactly when its entry number is `n`. -/
theorem resultIdx1 (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  have s0 := start1 d huw hsd hiv idx e
  have w0 := window1 d hiw (ix1 e)
  unfold ScatterDims.resultIdx?
  split
  · rename_i h
    constructor
    · intro he
      have hfun := Option.some.inj he
      have h0 : (d.start (ix1 e) idx 0 + d.window (ix1 e) 0).toNat = n.val :=
        congrArg Fin.val (congrFun hfun 0)
      have hh := (h 0).1
      rw [s0, w0] at h0 hh
      omega
    · intro hn
      congr 1
      funext a
      match a with
      | ⟨0, _⟩ =>
        exact Fin.ext (by
          show (d.start (ix1 e) idx 0 + d.window (ix1 e) 0).toNat = n.val
          rw [s0, w0]; omega)
  · rename_i h
    constructor
    · intro he; exact absurd he (by simp)
    · intro hn
      exfalso; apply h
      intro a
      match a with
      | ⟨0, _⟩ =>
        show 0 ≤ d.start (ix1 e) idx 0 + d.window (ix1 e) 0
          ∧ d.start (ix1 e) idx 0 + d.window (ix1 e) 0 < (N : Int)
        rw [s0, w0]; have := n.isLt; omega

/-- THE SCATTER ONTO A VECTOR AT AN INDEX: the operand at `n` plus the sum of `u e` over the updates `e` whose
    entry number, read signed, is `n`. -/
theorem hostScatterAdd_rows1 (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (u : (⟨1, ![E]⟩ : Shape).Idx → EReal) (n : Fin N) :
    Ideal.hostScatterAdd d x idx u (ix1 n)
      = x (ix1 n) + ∑ e ∈ Finset.univ.filter (fun e : Fin E => (idx (ix2 e 0)).toInt = (n.val : Int)), u (ix1 e) := by
  unfold Ideal.hostScatterAdd
  congr 1
  rw [Finset.sum_filter, Finset.sum_filter, sum_idx1]
  refine Finset.sum_congr rfl fun e _ => ?_
  simp only [resultIdx1 d huw hiw hsd hiv idx e]

end Scatter1
-- ==== Proof.DinvReal.lean ====
/-
  The vector of inverse square roots of the degrees is real-valued.

  The degree of a node `v` is the accumulating scatter, into a vector of zeros, of a vector of ones along the
  destination words of the edges: at `v` it is `0 + ∑ 1` over the edges whose destination word, read signed,
  is `v`.  The f32 word `0x00000000` reads as the real `0` and the word `0x3F800000` as the real `1`, so the
  degree is a finite sum of reals, a real number.

  The scale factor of `v` is `1 / √(deg v)` where `deg v > 0` and `0` elsewhere.  For a real `r > 0` the
  inverse square root is the real `(√r)⁻¹` (the corners `r < 0`, `r = 0`, `±∞` are not met), and `0` is real.
  So every scale factor is a real number.
-/
import proofs.«122100_j8770323219094_2_alg».proof.Proof.LibScatter1
import proofs.«122100_j8770323219094_2_alg».proof.Proof.LibHostScatterIdeal
import proofs.«122100_j8770323219094_2_alg».proof.Proof.LibRealDivSum
import Idealize.ShloMosaic.Lib.IdealHost
import Idealize.ShloMosaic.Lib.ValueIdx
import Idealize.ShloMosaic.PureOps.Ideal.Laws

noncomputable section

open scoped BigOperators
open Idealize.ShloMosaic Idealize.ShloMosaic.ValueIdx

namespace Cert.Dinv

open Hnhn (IsReal)

/-- A rank-0 constant spread over any shape is, at every index, the extended real its word denotes. -/
theorem bcast_const_apply {t : Shape} (hb : (⟨0, ![]⟩ : Shape).BroadcastsInDim t (![] : Fin 0 → Fin t.rank))
    (b : BitVec 32) (i : t.Idx) :
    broadcastInDim t ![] hb (constant (F := Ideal) (⟨0, ![]⟩ : Shape) .f32 b) i = Ideal.ofBits .f32 b := rfl

/-- The inverse square root of a positive real number is a real number. -/
theorem isReal_rsqrt_pos (r : ℝ) (hr : 0 < r) : IsReal (Ideal.rsqrt (r : EReal)) := by
  rw [Ideal.rsqrt_coe, if_neg (not_lt.mpr hr.le), if_neg hr.ne']
  exact ⟨_, rfl⟩

/-- The element of the scale vector: for a real `d`, "`1 / √d` where `d > 0`, else `z`" with `z = 0` is real. -/
theorem isReal_select_rsqrt (d z : EReal) (hd : IsReal d) (hz : z = 0) :
    IsReal (Scalar.select (FloatOps.cmpf (F := Ideal) (φ := .f32) .ogt d (Ideal.ofBits .f32 0x00000000#32))
      (FloatOps.hostUnary (F := Ideal) (φ := .f32) .rsqrt d) z) := by
  obtain ⟨r, rfl⟩ := hd
  show IsReal (if BitVec.ofBool (decide (Ideal.ofBits .f32 0x00000000#32 < (r : EReal))) = 1 then
      Ideal.rsqrt (r : EReal) else z)
  rw [Ideal.ofBits_zero_f32]
  split
  · rename_i hc
    have hpos : (0 : EReal) < (r : EReal) := by
      by_contra hn
      rw [decide_eq_false hn] at hc
      exact absurd hc (by decide)
    exact isReal_rsqrt_pos r (by exact_mod_cast hpos)
  · rw [hz]; exact Hnhn.IsReal.zero

variable {N E w : Nat} (sd : ScatterDims ⟨1, ![N]⟩ ⟨2, ![E, 1]⟩ ⟨1, ![E]⟩)

/-- The degree vector, ones scattered into zeros along the destination words, is real-valued. -/
theorem deg_isReal (huw : sd.updateWindowDims = []) (hiw : sd.insertedWindowDims = [0])
    (hsd : sd.scatterDimsToOperandDims = [0]) (hiv : sd.indexVectorDim = 1)
    (h0 : (⟨0, ![]⟩ : Shape).BroadcastsInDim ⟨1, ![N]⟩ (![] : Fin 0 → Fin 1))
    (h1 : (⟨0, ![]⟩ : Shape).BroadcastsInDim ⟨1, ![E]⟩ (![] : Fin 0 → Fin 1))
    (dI : IVec ⟨2, ![E, 1]⟩ w) (v : Fin N) :
    IsReal (Host.scatterAdd sd
      (broadcastInDim ⟨1, ![N]⟩ ![] h0 (constant (F := Ideal) (⟨0, ![]⟩ : Shape) .f32 0x00000000#32)) dI
      (broadcastInDim ⟨1, ![E]⟩ ![] h1 (constant (F := Ideal) (⟨0, ![]⟩ : Shape) .f32 0x3F800000#32)) (ix1 v)) := by
  rw [Host.scatterAdd_ideal, Scatter1.hostScatterAdd_rows1 sd huw hiw hsd hiv, bcast_const_apply,
    Ideal.ofBits_zero_f32]
  refine Hnhn.IsReal.add Hnhn.IsReal.zero (Hnhn.IsReal.sum _ _ fun e _ => ?_)
  rw [bcast_const_apply, Ideal.ofBits_one_f32]
  exact ⟨1, EReal.coe_one.symm⟩

/-- THE SCALE VECTOR IS REAL-VALUED: `1 / √deg` where the degree is positive and zero elsewhere. -/
theorem dinv_isReal (huw : sd.updateWindowDims = []) (hiw : sd.insertedWindowDims = [0])
    (hsd : sd.scatterDimsToOperandDims = [0]) (hiv : sd.indexVectorDim = 1)
    (h0 : (⟨0, ![]⟩ : Shape).BroadcastsInDim ⟨1, ![N]⟩ (![] : Fin 0 → Fin 1))
    (h1 : (⟨0, ![]⟩ : Shape).BroadcastsInDim ⟨1, ![E]⟩ (![] : Fin 0 → Fin 1))
    (dI : IVec ⟨2, ![E, 1]⟩ w) (z0 : FVec Ideal (⟨0, ![]⟩ : Shape) .f32) (hz : ∀ i, z0 i = 0) (v : Fin N) :
    IsReal (select
      (cmpf .ogt
        (Host.scatterAdd sd
          (broadcastInDim ⟨1, ![N]⟩ ![] h0 (constant (F := Ideal) (⟨0, ![]⟩ : Shape) .f32 0x00000000#32)) dI
          (broadcastInDim ⟨1, ![E]⟩ ![] h1 (constant (F := Ideal) (⟨0, ![]⟩ : Shape) .f32 0x3F800000#32)))
        (broadcastInDim ⟨1, ![N]⟩ ![] h0 (constant (F := Ideal) (⟨0, ![]⟩ : Shape) .f32 0x00000000#32)))
      (Host.rsqrt
        (Host.scatterAdd sd
          (broadcastInDim ⟨1, ![N]⟩ ![] h0 (constant (F := Ideal) (⟨0, ![]⟩ : Shape) .f32 0x00000000#32)) dI
          (broadcastInDim ⟨1, ![E]⟩ ![] h1 (constant (F := Ideal) (⟨0, ![]⟩ : Shape) .f32 0x3F800000#32))))
      (broadcastInDim ⟨1, ![N]⟩ ![] h0 z0) (ix1 v)) :=
  isReal_select_rsqrt _ _ (deg_isReal sd huw hiw hsd hiv h0 h1 dI v) (hz _)

end Cert.Dinv

end
-- ==== Proof.Bridge.lean ====
/-
  THE LAW THAT JOINS THE TWO ARRANGEMENTS, OVER THE IDEALIZED KERNEL'S OWN TERMS.

  The idealized kernel computes, with `d` the column of inverse square roots of the degrees, two layers of
    rows of (features · weights) scaled by `d`  →  the rows the edges carry, added up per destination from zero
    →  scaled by `d`, biased, clipped at zero,
  and then the head.  On the extended reals the casts between float formats are the identity.  The stretch
  between two regions (gather the rows along the wrapped source column, widen, add onto zero along the destination
  column) is the specification's `aggregate`.  For real inputs, scaling rows before and after the aggregation is
  weighting every edge by `d (source) * d (destination)`; the scale vector is real (a degree is a finite sum of ones,
  and the inverse square root of a positive real is real); and an edge that reaches a node `v` has a nonnegative
  destination word, which wrapping keeps and clamping returns as `v`.  So the kernel's result is the head of two
  edge-weighted layers.
-/
import proofs.«122100_j8770323219094_2_alg».proof.Proof.KTerms
import proofs.«122100_j8770323219094_2_alg».proof.Proof.HostAggregate
import proofs.«122100_j8770323219094_2_alg».proof.Proof.Glue
import proofs.«122100_j8770323219094_2_alg».proof.Proof.LayerLaw
import proofs.«122100_j8770323219094_2_alg».proof.Proof.DinvReal
import proofs.«122100_j8770323219094_2_alg».proof.Proof.LibRealDivSum

noncomputable section

namespace Cert.KernelIdeal.Terms

open Cert.KernelIdeal Cert.KernelIdeal.Gen
open Idealize.ShloMosaic Idealize.ShloMosaic.ValueIdx
open Hnhn (IsReal)

/-- The stretch between two regions is the specification's aggregation along the destination column and the
    wrapped source column. -/
theorem gatherAdd_eq (ei : IVec S2x800000 32) (H : FVec Ideal S50000x256 .bf16) :
    gatherAdd ei H = Cert.Gcn.aggregate (dstCol ei) (srcCol ei) H := by
  unfold gatherAdd gatherAddW
  exact Cert.Gcn.aggregate_eq scatter_S50000x256_S850000x1_S850000x256_1_0_0_1 rfl rfl rfl rfl
    gather_S50000x256_S850000x1_S850000x256_1_0_n_n_0_1_1256 rfl rfl rfl rfl rfl rfl
    bcast_S_S50000x256 bitsLt_bf16_f32 H (dstCol ei) (srcCol ei)

/-- Every entry of the scale vector is a real number. -/
theorem dinvVec_isReal (ei : IVec S2x800000 32) (v : Fin 50000) : IsReal (dinvVec ei (ix1 v)) := by
  unfold dinvVec degrees
  exact Cert.Dinv.dinv_isReal (N := 50000) (E := 850000) scatter_S50000_S850000x1_S850000_n_0_0_1 rfl rfl rfl rfl
    bcast_S_S50000 bcast_S_S850000 (dstCol ei) (id (constant (F := Ideal) S_ .f32 0x00000000#32))
    (fun _ => Ideal.ofBits_zero_f32) v

/-- For an edge whose destination word, read signed, is the node `v`, the wrapped destination column clamps
    to `v`. -/
theorem wrap_dst_hits (ei : IVec S2x800000 32) (e : Fin 850000) (v : Fin 50000)
    (h : (dstCol ei (ix2 e 0)).toInt = (v.val : Int)) : Cert.Gcn.clampRow (wrapCol (dstWords ei)) e = v := by
  unfold wrapCol
  unfold dstCol at h
  exact Cert.Gcn.wrap_hits (dstWords ei) bcast_S850000_S850000x1_0 bcast_S_S850000 e v h

/-- The two layers of the idealized kernel are two edge-weighted layers. -/
theorem layers_eq (x : FVec Ideal S50000x256 .f32) (ei : IVec S2x800000 32) (w1 : FVec Ideal S256x256 .f32)
    (b1 : FVec Ideal S256 .f32) (w2 : FVec Ideal S256x256 .f32) (b2 : FVec Ideal S256 .f32)
    (hx : ∀ i, IsReal (x i)) (hw1 : ∀ i, IsReal (w1 i)) (hb1 : ∀ i, IsReal (b1 i)) (hw2 : ∀ i, IsReal (w2 i)) :
    Cert.Gcn.scaleBiasRelu
        (Cert.Gcn.aggregate (dstCol ei) (srcCol ei) (Cert.Gcn.rowScaled
          (Cert.Gcn.scaleBiasRelu (Cert.Gcn.aggregate (dstCol ei) (srcCol ei) (Cert.Gcn.rowScaled x w1 (dinvCol ei)))
            (dinvCol ei) (shapeCast S1x256 b1 shapeCasts_S256_S1x256))
          w2 (dinvCol ei)))
        (dinvCol ei) (shapeCast S1x256 b2 shapeCasts_S256_S1x256)
      = Cert.Gcn.edgeWeighted (dstCol ei) (srcCol ei) (wrapCol (dstWords ei)) (fun v => dinvVec ei (ix1 v))
          (Cert.Gcn.edgeWeighted (dstCol ei) (srcCol ei) (wrapCol (dstWords ei)) (fun v => dinvVec ei (ix1 v)) x w1
            (fun k => b1 (ix1 k)))
          w2 (fun k => b2 (ix1 k)) :=
  Cert.Gcn.two_layers (dstCol ei) (srcCol ei) (wrapCol (dstWords ei)) (fun v => dinvVec ei (ix1 v)) (dinvCol ei)
    x w1 w2 (fun k => b1 (ix1 k)) (fun k => b2 (ix1 k))
    (shapeCast S1x256 b1 shapeCasts_S256_S1x256) (shapeCast S1x256 b2 shapeCasts_S256_S1x256)
    (fun v => Cert.Gcn.col_apply (dinvVec ei) shapeCasts_S50000_S50000x1 v)
    (fun k => Cert.Gcn.row_apply b1 shapeCasts_S256_S1x256 k)
    (fun k => Cert.Gcn.row_apply b2 shapeCasts_S256_S1x256 k)
    (wrap_dst_hits ei) (dinvVec_isReal ei) hx hw1 hw2 (fun k => hb1 (ix1 k))

/-- THE BRIDGE: on real inputs the idealized kernel's result is the head of two edge-weighted layers. -/
theorem kernelOut_eq (x : FVec Ideal S50000x256 .f32) (ei : IVec S2x800000 32) (w1 : FVec Ideal S256x256 .f32)
    (b1 : FVec Ideal S256 .f32) (w2 : FVec Ideal S256x256 .f32) (b2 : FVec Ideal S256 .f32)
    (wfc : FVec Ideal S256x2 .f32) (bfc : FVec Ideal S2 .f32)
    (hx : ∀ i, IsReal (x i)) (hw1 : ∀ i, IsReal (w1 i)) (hb1 : ∀ i, IsReal (b1 i)) (hw2 : ∀ i, IsReal (w2 i)) :
    kernelOut x ei w1 b1 w2 b2 wfc bfc
      = Cert.Gcn.head
          (Cert.Gcn.edgeWeighted (dstCol ei) (srcCol ei) (wrapCol (dstWords ei)) (fun v => dinvVec ei (ix1 v))
            (Cert.Gcn.edgeWeighted (dstCol ei) (srcCol ei) (wrapCol (dstWords ei)) (fun v => dinvVec ei (ix1 v)) x w1
              (fun k => b1 (ix1 k)))
            w2 (fun k => b2 (ix1 k)))
          wfc (fun j => bfc (ix1 j)) := by
  have hbfc : (fun j : Fin 2 => shapeCast S1x2 bfc shapeCasts_S2_S1x2 (ix2 (0 : Fin 1) j)) = fun j => bfc (ix1 j) :=
    funext fun j => Cert.Gcn.row2_apply bfc shapeCasts_S2_S1x2 j
  unfold kernelOut
  rw [hbfc, gatherAdd_eq, gatherAdd_eq]
  exact congrArg (fun H => Cert.Gcn.head H wfc (fun j => bfc (ix1 j))) (layers_eq x ei w1 b1 w2 b2 hx hw1 hb1 hw2)

end Cert.KernelIdeal.Terms

end
-- ==== Proof.FiniteInputs.lean ====
/-
  From the precondition to real numbers.

  The precondition says that a printed predicate of the eight argument arrays answers the all-ones rank-0 array.
  The predicate is the conjunction, over the seven float arrays, of "every entry `x` has `|x| < +∞`": the
  absolute value is `max x (-x)`, the f32 word `0x7F800000` reads as `+∞`, the greatest extended real, and each
  "for every entry" is a reduction by `and` from `1` over all the axes of the array.

  An extended real `x` with `max x (-x) < ⊤` is neither `⊤` (then `max x (-x) = ⊤`) nor `⊥` (then `-x = ⊤`),
  so it is a real number.  A reduction by `and` that answers `1` met only ones, and a conjunction of words that
  is `1` has both its halves `1`.  So under the precondition every entry of every float argument is a real number.
-/
import proofs.«122100_j8770323219094_2_alg».proof.Pre_finite_inputs
import proofs.«122100_j8770323219094_2_alg».proof.Proof.Gen.Pre_finite_inputs
import proofs.«122100_j8770323219094_2_alg».proof.Proof.LibRealDivSum
import Idealize.ShloMosaic.Lib.ReduceAll
import Idealize.ShloMosaic.Lib.ValueIdx

noncomputable section

open Idealize.ShloMosaic Idealize.ShloMosaic.ValueIdx

namespace Cert.FiniteInputs

open Hnhn (IsReal)

/-- The rank-0 shape has one index. -/
instance subsingleton_idx0 : Subsingleton (⟨0, ![]⟩ : Shape).Idx := ⟨fun a b => funext fun d => d.elim0⟩

/-- The f32 word `0x7F800000` is `+∞`, the greatest extended real. -/
theorem ofBits_pinf_f32 : Ideal.ofBits .f32 0x7F800000#32 = ⊤ := by
  simp [Ideal.ofBits, Ideal.ieee]

/-- An extended real whose absolute value is below `+∞` is a real number. -/
theorem isReal_of_abs_lt_top (x : EReal) (h : max x (-x) < ⊤) : IsReal x := by
  induction x using EReal.rec with
  | bot => exact absurd h (by simp)
  | top => exact absurd h (by simp)
  | coe r => exact ⟨r, rfl⟩

/-- The element test of the predicate: `|x| < +∞` as an `i1` word being `1` makes `x` a real number. -/
theorem isReal_of_cmp (x : EReal)
    (h : FloatOps.cmpf (F := Ideal) (φ := .f32) .olt (FloatOps.hostAbsf (F := Ideal) (φ := .f32) x)
      (FloatOps.ofBits (F := Ideal) .f32 0x7F800000#32) = 1#1) : IsReal x := by
  apply isReal_of_abs_lt_top
  have h' : BitVec.ofBool (decide (max x (-x) < Ideal.ofBits .f32 0x7F800000#32)) = 1#1 := h
  rw [ofBits_pinf_f32] at h'
  by_contra hn
  rw [decide_eq_false hn] at h'
  exact absurd h' (by decide)

/-- One array's test: the reduction by `and`, over all axes and from `1`, of the element tests answers `1` only
    if every entry is a real number. -/
theorem isReal_of_all {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (a : FVec Ideal s .f32)
    (h : Host.reduce IntOp.andi
        (cmpf .olt (Host.absf a) (broadcastInDim s ![] hb (constant (⟨0, ![]⟩ : Shape) .f32 0x7F800000#32)))
        (constantI (⟨0, ![]⟩ : Shape) 1 1#1) hr hu ix0 = 1#1) :
    ∀ i, IsReal (a i) := fun i =>
  isReal_of_cmp (a i) (Host.reduce_andi_all _ _ hr hu ix0 h i)

/-- THE PRECONDITION READ BACK.  If the printed predicate of the eight arguments answers the all-ones rank-0
    array, every entry of each of the seven float arguments is a real number. -/
theorem real_of_pre [Cert.Pre_finite_inputs.Facts]
    (a0 : FVec Ideal Cert.Pre_finite_inputs.S50000x256 .f32) (a1 : IVec Cert.Pre_finite_inputs.S2x800000 32)
    (a2 : FVec Ideal Cert.Pre_finite_inputs.S256x256 .f32) (a3 : FVec Ideal Cert.Pre_finite_inputs.S256 .f32)
    (a4 : FVec Ideal Cert.Pre_finite_inputs.S256x256 .f32) (a5 : FVec Ideal Cert.Pre_finite_inputs.S256 .f32)
    (a6 : FVec Ideal Cert.Pre_finite_inputs.S256x2 .f32) (a7 : FVec Ideal Cert.Pre_finite_inputs.S2 .f32)
    (h : Cert.Pre_finite_inputs.fn (F := Ideal) a0 a1 a2 a3 a4 a5 a6 a7 = (fun _ => 1#1)) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ix0
  dsimp only [Cert.Pre_finite_inputs.fn, Cert.Pre_finite_inputs.fn_part1, andi] at h0
  simp only [IntOp.andi_eq_one] at h0
  obtain ⟨⟨⟨⟨⟨⟨h3, h7⟩, h12⟩, h17⟩, h22⟩, h27⟩, h32⟩ := h0
  exact ⟨isReal_of_all _ _ _ a0 h3, isReal_of_all _ _ _ a2 h7, isReal_of_all _ _ _ a3 h12,
    isReal_of_all _ _ _ a4 h17, isReal_of_all _ _ _ a5 h22, isReal_of_all _ _ _ a6 h27,
    isReal_of_all _ _ _ a7 h32⟩

end Cert.FiniteInputs

end
-- ==== Proof.LibLineTernary.lean ====
/- Two more stages for a straight line of host operations in single-assignment form (companions of the stages
   for constants, one- and two-operand operations and reshapes): a THREE-operand operation (a select, a scatter), and a
   two-operand operation of an inlined function, whose values are carried to and from its buffers along equations
   between types that are reflexivity for a literal buffer. In both, what the written buffer holds after the WHOLE line
   is the operation's function of what its operands hold after the whole line. -/
import proofs.«122100_j8770323219094_2_alg».proof.Proof.LibLine

namespace Cert.LibLine

open Idealize.ShloMosaic Idealize.ShloMosaic.TcCoe Idealize.ShloMosaic.StableHlo

/-- The stage of a three-operand operation: after the whole line its buffer holds the operation's function of what
    the three operands hold after the whole line. -/
theorem stage_ternary {τ : Topo} {sig : RefSig} {Val : EltTy → Type} {ops : List (HloOp τ sig Val)} {outs : List (Ref sig .tc)}
    (h : WritesAre ops outs) (k : Nat) (c a b y : Ref sig .tc)
    (f : c.ty.Contents Val → a.ty.Contents Val → b.ty.Contents Val → y.ty.Contents Val) {hc ha hb hy}
    (hk : ops[k]? = some (ternary c a b y f hc ha hb hy)) (hy' : y ∉ outs.drop (k + 1)) (hc' : c ∉ outs.drop k)
    (ha' : a ∉ outs.drop k) (hb' : b ∉ outs.drop k) (V : Valuation τ sig Val) :
    after ops V (Proc.devRef .tc y)
      = f (after ops V (Proc.devRef .tc c)) (after ops V (Proc.devRef .tc a)) (after ops V (Proc.devRef .tc b)) := by
  rw [after_eq_take h (k + 1) V hy', after_eq_take h k V hc', after_eq_take h k V ha', after_eq_take h k V hb',
    after_take_succ hk]
  exact ternary_result ..

/-- The stage of a two-operand operation of an inlined function: its values are carried to and from the buffers along
    equations between types that are reflexivity, so its stage reads like any other two-operand operation's. -/
theorem stage_tbinary {τ : Topo} {sig : RefSig} {Val : EltTy → Type} {ops : List (HloOp τ sig Val)} {outs : List (Ref sig .tc)}
    (h : WritesAre ops outs) (k : Nat) (a b y : Ref sig .tc) {ha2 ha3 hb2 hb3 hy2 hy3}
    (f : a.ty.Contents Val → b.ty.Contents Val → y.ty.Contents Val)
    (hk : ops[k]? = some (TRef.binary (⟨a, rfl, ha2, ha3⟩ : TRef sig a.ty) (⟨b, rfl, hb2, hb3⟩ : TRef sig b.ty)
      (⟨y, rfl, hy2, hy3⟩ : TRef sig y.ty) f))
    (hy' : y ∉ outs.drop (k + 1)) (ha' : a ∉ outs.drop k) (hb' : b ∉ outs.drop k) (V : Valuation τ sig Val) :
    after ops V (Proc.devRef .tc y) = f (after ops V (Proc.devRef .tc a)) (after ops V (Proc.devRef .tc b)) :=
  stage_binary h k a b y f hk hy' ha' hb' V

end Cert.LibLine
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.RefStages.lean ====
/-
  The reference program's host line, read one operation at a time.

  The line is in single-assignment form: each of its 105 operations writes one buffer, and no buffer is written
  twice or read before it is written. So the contents a buffer holds after the whole line are its own operation's
  function of what its operands hold after the whole line. This file lists the written buffers in order, proves
  that the line writes exactly those, and states that equation for every operation. An operation of an inlined
  function carries its values to and from the buffers along an equation between types that is reflexivity for a
  literal buffer, so its equation reads like any other's. The equations are then composed into the source and
  destination index columns, the column of inverse square roots of the degrees, the two layers and the head.
-/
import proofs.«122100_j8770323219094_2_alg».proof.Proof.RefRun
import proofs.«122100_j8770323219094_2_alg».proof.Proof.LibLine
import proofs.«122100_j8770323219094_2_alg».proof.Proof.LibLineTernary
import proofs.«122100_j8770323219094_2_alg».proof.Proof.LibTRef
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibLine

/-- What buffer `b` holds on device `c` after the whole line of host operations, started from the launch contents of memory `m`. -/
abbrev A (m : (ℓ : Loc nD τ sig) → Buf (Elt Ideal) ℓ) (c : Dev nD) (b : Ref sig .tc) :=
  StableHlo.after (RunP.ops (F := Ideal)) (StableHlo.launchContents m c) (Proc.devRef .tc b)

/-- The buffers the 105 operations write, in order. -/
abbrev outs : List (Ref sig .tc) :=
  [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_call1_cst, main_call1_v0, main_v47, main_v48, main_c_9, main_v49, main_v50, main_c_10, main_v51, main_v52, main_v53, main_v54, main_v55, main_v56, main_v57, main_v58, main_cst_11, main_v59, main_v60, main_v61, main_v62, main_v63, main_v64, main_call2_cst, main_call2_v0, main_v65, main_v66, main_v67, main_v68, main_v69, main_call3_cst, main_call3_v0, main_call3_cst_0, main_call3_v1, main_call3_v2, main_call3_v3, main_call3_v4, main_call3_v5, main_call3_v6, main_call3_cst_1, main_call3_v7, main_call3_v8, main_call3_v9, main_call3_v10, main_v70]

set_option maxRecDepth 8192 in
/-- Operation by operation, the line writes exactly these buffers. -/
theorem writes : WritesAre (RunP.ops (F := Ideal)) outs := by
  repeat (first | exact List.Forall₂.nil | refine List.Forall₂.cons rfl ?_)

/-! ## One equation per operation -/

set_option maxRecDepth 8192 in
theorem st_v0 (m : (ℓ : Loc nD τ sig) → Buf (Elt Ideal) ℓ) (c : Dev nD) :
    A m c main_v0 = ((iotaInDim S50000 32 0) : IVec S50000 32) :=
  stage_nullary writes 0 main_v0 ((iotaInDim S50000 32 0) : IVec S50000 32) (hk := rfl) (by decide) _

set_option maxRecDepth 8192 in
theorem st_v1 (m : (ℓ : Loc nD τ sig) → Buf (Elt Ideal) ℓ) (c : Dev nD) :
    A m c main_v1 = ((extractStridedSlice S1x800000 ![0, 0] · slices_S2x800000_S1x800000_0_0) : IVec S2x800000 32 → IVec S1x800000 32) (A m c main_arg1) :=
  stage_unary writes 1 main_arg1 main_v1 ((extractStridedSlice S1x800000 ![0, 0] · slices_S2x800000_S1x800000_0_0) : IVec S2x800000 32 → IVec S1x800000 32) (hk := rfl) (by decide) (by decide) _

set_option maxRecDepth 8192 in
theorem st_v2 (m : (ℓ : Loc nD τ sig) → Buf (Elt Ideal) ℓ) (c : Dev nD) :
    A m c main_v2 = shapeCast S800000 (A m c main_v1) shapeCasts_S1x800000_S800000 :=
  stage_reshape writes 2 main_v1 main_v2 rfl shapeCasts_S1x800000_S800000 (hk := rfl) (by decide) (by decide) _

set_option maxRecDepth 8192 in
theorem st_v3 (m : (ℓ : Loc nD τ sig) → Buf (Elt Ideal) ℓ) (c : Dev nD) :
    A m c main_v3 = ((fun a b => concatenate S850000 0 [⟨S800000, a⟩, ⟨S50000, b⟩] concatenates_S800000_S50000_S850000_d0) : IVec S800000 32 → IVec S50000 32 → IVec S850000 32) (A m c main_v2) (A m c main_v0) :=
  stage_binary writes 3 main_v2 main_v0 main_v3 ((fun a b => concatenate S850000 0 [⟨S800000, a⟩, ⟨S50000, b⟩] concatenates_S800000_S50000_S850000_d0) : IVec S800000 32 → IVec S50000 32 → IVec S850000 32) (hk := rfl) (by decide) (by decide) (by decide) _

set_option maxRecDepth 8192 in
theorem st_v4 (m : (ℓ : Loc nD τ sig) → Buf (Elt Ideal) ℓ) (c : Dev nD) :
    A m c main_v4 = ((extractStridedSlice S1x800000 ![1, 0] · slices_S2x800000_S1x800000_1_0) : IVec S2x800000 32 → IVec S1x800000 32) (A m c main_arg1) :=
  stage_unary writes 4 main_arg1 main_v4 ((extractStridedSlice S1x800000 ![1, 0] · slices_S2x800000_S1x800000_1_0) : IVec S2x800000 32 → IVec S1x800000 32) (hk := rfl) (by decide) (by decide) _

set_option maxRecDepth 8192 in
theorem st_v5 (m : (ℓ : Loc nD τ sig) → Buf (Elt Ideal) ℓ) (c : Dev nD) :
    A m c main_v5 = shapeCast S800000 (A m c main_v4) shapeCasts_S1x800000_S800000 :=
  stage_reshape writes 5 main_v4 main_v5 rfl shapeCasts_S1x800000_S800000 (hk := rfl) (by decide) (by decide) _

set_option maxRecDepth 8192 in
theorem st_v6 (m : (ℓ : Loc nD τ sig) → Buf (Elt Ideal) ℓ) (c : Dev nD) :
    A m c main_v6 = ((fun a b => concatenate S850000 0 [⟨S800000, a⟩, ⟨S50000, b⟩] concatenates_S800000_S50000_S850000_d0) : IVec S800000 32 → IVec S50000 32 → IVec S850000 32) (A m c main_v5) (A m c main_v0) :=
  stage_binary writes 6 main_v5 main_v0 main_v6 ((fun a b => concatenate S850000 0 [⟨S800000, a⟩, ⟨S50000, b⟩] concatenates_S800000_S50000_S850000_d0) : IVec S800000 32 → IVec S50000 32 → IVec S850000 32) (hk := rfl) (by decide) (by decide) (by decide) _

set_option maxRecDepth 8192 in
theorem st_cst (m : (ℓ : Loc nD τ sig) → Buf (Elt Ideal) ℓ) (c : Dev nD) :
    A m c main_cst = ((constant S_ .f32 0x3F800000#32) : FVec Ideal S_ .f32) :=
  stage_nullary writes 7 main_cst ((constant S_ .f32 0x3F800000#32) : FVec Ideal S_ .f32) (hk := rfl) (by decide) _

set_option maxRecDepth 8192 in
theorem st_v7 (m : (ℓ : Loc nD τ sig) → Buf (Elt Ideal) ℓ) (c : Dev nD) :
    A m c main_v7 = (broadcastInDim S850000 ![] bcast_S_S850000 : FVec Ideal S_ .f32 → FVec Ideal S850000 .f32) (A m c main_cst) :=
  stage_unary writes 8 main_cst main_v7 (broadcastInDim S850000 ![] bcast_S_S850000 : FVec Ideal S_ .f32 → FVec Ideal S850000 .f32) (hk := rfl) (by decide) (by decide) _

set_option maxRecDepth 8192 in
theorem st_cst_0 (m : (ℓ : Loc nD τ sig) → Buf (Elt Ideal) ℓ) (c : Dev nD) :
    A m c main_cst_0 = ((constant S_ .f32 0x00000000#32) : FVec Ideal S_ .f32) :=
  stage_nullary writes 9 main_cst_0 ((constant S_ .f32 0x00000000#32) : FVec Ideal S_ .f32) (hk := rfl) (by decide) _

set_option maxRecDepth 8192 in
theorem st_v8 (m : (ℓ : Loc nD τ sig) → Buf (Elt Ideal) ℓ) (c : Dev nD) :
    A m c main_v8 = (broadcastInDim S50000 ![] bcast_S_S50000 : FVec Ideal S_ .f32 → FVec Ideal S50000 .f32) (A m c main_cst_0) :=
  stage_unary writes 10 main_cst_0 main_v8 (broadcastInDim S50000 ![] bcast_S_S50000 : FVec Ideal S_ .f32 → FVec Ideal S50000 .f32) (hk := rfl) (by decide) (by decide) _

set_option maxRecDepth 8192 in
theorem st_v9 (m : (ℓ : Loc nD τ sig) → Buf (Elt Ideal) ℓ) (c : Dev nD) :
    A m c main_v9 = (broadcastInDim S850000x1 ![0] bcast_S850000_S850000x1_0 : IVec S850000 32 → IVec S850000x1 32) (A m c main_v6) :=
  stage_unary writes 11 main_v6 main_v9 (broadcastInDim S850000x1 ![0] bcast_S850000_S850000x1_0 : IVec S850000 32 → IVec S850000x1 32) (hk := rfl) (by decide) (by decide) _

set_option maxRecDepth 8192 in
theorem st_v10 (m : (ℓ : Loc nD τ sig) → Buf (Elt Ideal) ℓ) (c : Dev nD) :
    A m c main_v10 = ((fun x i u => Host.scatterAdd scatter_S50000_S850000x1_S850000_n_0_0_1 x i u) : FVec Ideal S50000 .f32 → IVec S850000x1 32 → FVec Ideal S850000 .f32 → FVec Ideal S50000 .f32) (A m c main_v8) (A m c main_v9) (A m c main_v7) :=
  stage_ternary writes 12 main_v8 main_v9 main_v7 main_v10 ((fun x i u => Host.scatterAdd scatter_S50000_S850000x1_S850000_n_0_0_1 x i u) : FVec Ideal S50000 .f32 → IVec S850000x1 32 → FVec Ideal S850000 .f32 → FVec Ideal S50000 .f32) (hk := rfl) (by decide) (by decide) (by decide) (by decide) _

set_option maxRecDepth 8192 in
theorem st_cst_1 (m : (ℓ : Loc nD τ sig) → Buf (Elt Ideal) ℓ) (c : Dev nD) :
    A m c main_cst_1 = ((constant S_ .f32 0x00000000#32) : FVec Ideal S_ .f32) :=
  stage_nullary writes 13 main_cst_1 ((constant S_ .f32 0x00000000#32) : FVec Ideal S_ .f32) (hk := rfl) (by decide) _

set_option maxRecDepth 8192 in
theorem st_v11 (m : (ℓ : Loc nD τ sig) → Buf (Elt Ideal) ℓ) (c : Dev nD) :
    A m c main_v11 = (broadcastInDim S50000 ![] bcast_S_S50000 : FVec Ideal S_ .f32 → FVec Ideal S50000 .f32) (A m c main_cst_1) :=
  stage_unary writes 14 main_cst_1 main_v11 (broadcastInDim S50000 ![] bcast_S_S50000 : FVec Ideal S_ .f32 → FVec Ideal S50000 .f32) (hk := rfl) (by decide) (by decide) _

set_option maxRecDepth 8192 in
theorem st_v12 (m : (ℓ : Loc nD τ sig) → Buf (Elt Ideal) ℓ) (c : Dev nD) :
    A m c main_v12 = (cmpf .ogt : FVec Ideal S50000 .f32 → FVec Ideal S50000 .f32 → IVec S50000 1) (A m c main_v10) (A m c main_v11) :=
  stage_binary writes 15 main_v10 main_v11 main_v12 (cmpf .ogt : FVec Ideal S50000 .f32 → FVec Ideal S50000 .f32 → IVec S50000 1) (hk := rfl) (by decide) (by decide) (by decide) _

set_option maxRecDepth 8192 in
theorem st_v13 (m : (ℓ : Loc nD τ sig) → Buf (Elt Ideal) ℓ) (c : Dev nD) :
    A m c main_v13 = (Host.rsqrt : FVec Ideal S50000 .f32 → FVec Ideal S50000 .f32) (A m c main_v10) :=
  stage_unary writes 16 main_v10 main_v13 (Host.rsqrt : FVec Ideal S50000 .f32 → FVec Ideal S50000 .f32) (hk := rfl) (by decide) (by decide) _

set_option maxRecDepth 8192 in
theorem st_cst_2 (m : (ℓ : Loc nD τ sig) → Buf (Elt Ideal) ℓ) (c : Dev nD) :
    A m c main_cst_2 = ((constant S_ .f32 0x00000000#32) : FVec Ideal S_ .f32) :=
  stage_nullary writes 17 main_cst_2 ((constant S_ .f32 0x00000000#32) : FVec Ideal S_ .f32) (hk := rfl) (by decide) _

set_option maxRecDepth 8192 in
theorem st_call0_v0 (m : (ℓ : Loc nD τ sig) → Buf (Elt Ideal) ℓ) (c : Dev nD) :
    A m c main_call0_v0 = (id : FVec Ideal S_ .f32 → FVec Ideal S_ .f32) (A m c main_cst_2) :=
  stage_unary writes 18 main_cst_2 main_call0_v0 (id : FVec Ideal S_ .f32 → FVec Ideal S_ .f32) (hk := rfl) (by decide) (by decide) _

set_option maxRecDepth 8192 in
theorem st_call0_v1 (m : (ℓ : Loc nD τ sig) → Buf (Elt Ideal) ℓ) (c : Dev nD) :
    A m c main_call0_v1 = ((broadcastInDim S50000 ![] bcast_S_S50000) : FVec Ideal S_ .f32 → FVec Ideal S50000 .f32) (A m c main_call0_v0) :=
  stage_unary writes 19 main_call0_v0 main_call0_v1 ((broadcastInDim S50000 ![] bcast_S_S50000) : FVec Ideal S_ .f32 → FVec Ideal S50000 .f32) (hk := rfl) (by decide) (by decide) _

set_option maxRecDepth 8192 in
theorem st_v14 (m : (ℓ : Loc nD τ sig) → Buf (Elt Ideal) ℓ) (c : Dev nD) :
    A m c main_v14 = (select : IVec S50000 1 → FVec Ideal S50000 .f32 → FVec Ideal S50000 .f32 → FVec Ideal S50000 .f32) (A m c main_v12) (A m c main_v13) (A m c main_call0_v1) :=
  stage_ternary writes 20 main_v12 main_v13 main_call0_v1 main_v14 (select : IVec S50000 1 → FVec Ideal S50000 .f32 → FVec Ideal S50000 .f32 → FVec Ideal S50000 .f32) (hk := rfl) (by decide) (by decide) (by decide) (by decide) _

set_option maxRecDepth 8192 in
theorem st_c (m : (ℓ : Loc nD τ sig) → Buf (Elt Ideal) ℓ) (c : Dev nD) :
    A m c main_c = ((constantI S_ 32 0#32) : IVec S_ 32) :=
  stage_nullary writes 21 main_c ((constantI S_ 32 0#32) : IVec S_ 32) (hk := rfl) (by decide) _

set_option maxRecDepth 8192 in
theorem st_v15 (m : (ℓ : Loc nD τ sig) → Buf (Elt Ideal) ℓ) (c : Dev nD) :
    A m c main_v15 = (broadcastInDim S850000 ![] bcast_S_S850000 : IVec S_ 32 → IVec S850000 32) (A m c main_c) :=
  stage_unary writes 22 main_c main_v15 (broadcastInDim S850000 ![] bcast_S_S850000 : IVec S_ 32 → IVec S850000 32) (hk := rfl) (by decide) (by decide) _

set_option maxRecDepth 8192 in
theorem st_v16 (m : (ℓ : Loc nD τ sig) → Buf (Elt Ideal) ℓ) (c : Dev nD) :
    A m c main_v16 = (cmpi .slt : IVec S850000 32 → IVec S850000 32 → IVec S850000 1) (A m c main_v3) (A m c main_v15) :=
  stage_binary writes 23 main_v3 main_v15 main_v16 (cmpi .slt : IVec S850000 32 → IVec S850000 32 → IVec S850000 1) (hk := rfl) (by decide) (by decide) (by decide) _

set_option maxRecDepth 8192 in
theorem st_c_3 (m : (ℓ : Loc nD τ sig) → Buf (Elt Ideal) ℓ) (c : Dev nD) :
    A m c main_c_3 = ((constantI S_ 32 50000#32) : IVec S_ 32) :=
  stage_nullary writes 24 main_c_3 ((constantI S_ 32 50000#32) : IVec S_ 32) (hk := rfl) (by decide) _

set_option maxRecDepth 8192 in
theorem st_v17 (m : (ℓ : Loc nD τ sig) → Buf (Elt Ideal) ℓ) (c : Dev nD) :
    A m c main_v17 = (broadcastInDim S850000 ![] bcast_S_S850000 : IVec S_ 32 → IVec S850000 32) (A m c main_c_3) :=
  stage_unary writes 25 main_c_3 main_v17 (broadcastInDim S850000 ![] bcast_S_S850000 : IVec S_ 32 → IVec S850000 32) (hk := rfl) (by decide) (by decide) _

set_option maxRecDepth 8192 in
theorem st_v18 (m : (ℓ : Loc nD τ sig) → Buf (Elt Ideal) ℓ) (c : Dev nD) :
    A m c main_v18 = (addi : IVec S850000 32 → IVec S850000 32 → IVec S850000 32) (A m c main_v3) (A m c main_v17) :=
  stage_binary writes 26 main_v3 main_v17 main_v18 (addi : IVec S850000 32 → IVec S850000 32 → IVec S850000 32) (hk := rfl) (by decide) (by decide) (by decide) _

set_option maxRecDepth 8192 in
theorem st_v19 (m : (ℓ : Loc nD τ sig) → Buf (Elt Ideal) ℓ) (c : Dev nD) :
    A m c main_v19 = (select : IVec S850000 1 → IVec S850000 32 → IVec S850000 32 → IVec S850000 32) (A m c main_v16) (A m c main_v18) (A m c main_v3) :=
  stage_ternary writes 27 main_v16 main_v18 main_v3 main_v19 (select : IVec S850000 1 → IVec S850000 32 → IVec S850000 32 → IVec S850000 32) (hk := rfl) (by decide) (by decide) (by decide) (by decide) _

set_option maxRecDepth 8192 in
theorem st_v20 (m : (ℓ : Loc nD τ sig) → Buf (Elt Ideal) ℓ) (c : Dev nD) :
    A m c main_v20 = (broadcastInDim S850000x1 ![0] bcast_S850000_S850000x1_0 : IVec S850000 32 → IVec S850000x1 32) (A m c main_v19) :=
  stage_unary writes 28 main_v19 main_v20 (broadcastInDim S850000x1 ![0] bcast_S850000_S850000x1_0 : IVec S850000 32 → IVec S850000x1 32) (hk := rfl) (by decide) (by decide) _

set_option maxRecDepth 8192 in
theorem st_v21 (m : (ℓ : Loc nD τ sig) → Buf (Elt Ideal) ℓ) (c : Dev nD) :
    A m c main_v21 = ((fun x i => Host.gather gather_S50000_S850000x1_S850000_n_0_n_n_0_1_1 x i) : FVec Ideal S50000 .f32 → IVec S850000x1 32 → FVec Ideal S850000 .f32) (A m c main_v14) (A m c main_v20) :=
  stage_binary writes 29 main_v14 main_v20 main_v21 ((fun x i => Host.gather gather_S50000_S850000x1_S850000_n_0_n_n_0_1_1 x i) : FVec Ideal S50000 .f32 → IVec S850000x1 32 → FVec Ideal S850000 .f32) (hk := rfl) (by decide) (by decide) (by decide) _

set_option maxRecDepth 8192 in
theorem st_c_4 (m : (ℓ : Loc nD τ sig) → Buf (Elt Ideal) ℓ) (c : Dev nD) :
    A m c main_c_4 = ((constantI S_ 32 0#32) : IVec S_ 32) :=
  stage_nullary writes 30 main_c_4 ((constantI S_ 32 0#32) : IVec S_ 32) (hk := rfl) (by decide) _

set_option maxRecDepth 8192 in
theorem st_v22 (m : (ℓ : Loc nD τ sig) → Buf (Elt Ideal) ℓ) (c : Dev nD) :
    A m c main_v22 = (broadcastInDim S850000 ![] bcast_S_S850000 : IVec S_ 32 → IVec S850000 32) (A m c main_c_4) :=
  stage_unary writes 31 main_c_4 main_v22 (broadcastInDim S850000 ![] bcast_S_S850000 : IVec S_ 32 → IVec S850000 32) (hk := rfl) (by decide) (by decide) _

set_option maxRecDepth 8192 in
theorem st_v23 (m : (ℓ : Loc nD τ sig) → Buf (Elt Ideal) ℓ) (c : Dev nD) :
    A m c main_v23 = (cmpi .slt : IVec S850000 32 → IVec S850000 32 → IVec S850000 1) (A m c main_v6) (A m c main_v22) :=
  stage_binary writes 32 main_v6 main_v22 main_v23 (cmpi .slt : IVec S850000 32 → IVec S850000 32 → IVec S850000 1) (hk := rfl) (by decide) (by decide) (by decide) _

set_option maxRecDepth 8192 in
theorem st_c_5 (m : (ℓ : Loc nD τ sig) → Buf (Elt Ideal) ℓ) (c : Dev nD) :
    A m c main_c_5 = ((constantI S_ 32 50000#32) : IVec S_ 32) :=
  stage_nullary writes 33 main_c_5 ((constantI S_ 32 50000#32) : IVec S_ 32) (hk := rfl) (by decide) _

set_option maxRecDepth 8192 in
theorem st_v24 (m : (ℓ : Loc nD τ sig) → Buf (Elt Ideal) ℓ) (c : Dev nD) :
    A m c main_v24 = (broadcastInDim S850000 ![] bcast_S_S850000 : IVec S_ 32 → IVec S850000 32) (A m c main_c_5) :=
  stage_unary writes 34 main_c_5 main_v24 (broadcastInDim S850000 ![] bcast_S_S850000 : IVec S_ 32 → IVec S850000 32) (hk := rfl) (by decide) (by decide) _

set_option maxRecDepth 8192 in
theorem st_v25 (m : (ℓ : Loc nD τ sig) → Buf (Elt Ideal) ℓ) (c : Dev nD) :
    A m c main_v25 = (addi : IVec S850000 32 → IVec S850000 32 → IVec S850000 32) (A m c main_v6) (A m c main_v24) :=
  stage_binary writes 35 main_v6 main_v24 main_v25 (addi : IVec S850000 32 → IVec S850000 32 → IVec S850000 32) (hk := rfl) (by decide) (by decide) (by decide) _

set_option maxRecDepth 8192 in
theorem st_v26 (m : (ℓ : Loc nD τ sig) → Buf (Elt Ideal) ℓ) (c : Dev nD) :
    A m c main_v26 = (select : IVec S850000 1 → IVec S850000 32 → IVec S850000 32 → IVec S850000 32) (A m c main_v23) (A m c main_v25) (A m c main_v6) :=
  stage_ternary writes 36 main_v23 main_v25 main_v6 main_v26 (select : IVec S850000 1 → IVec S850000 32 → IVec S850000 32 → IVec S850000 32) (hk := rfl) (by decide) (by decide) (by decide) (by decide) _

set_option maxRecDepth 8192 in
theorem st_v27 (m : (ℓ : Loc nD τ sig) → Buf (Elt Ideal) ℓ) (c : Dev nD) :
    A m c main_v27 = (broadcastInDim S850000x1 ![0] bcast_S850000_S850000x1_0 : IVec S850000 32 → IVec S850000x1 32) (A m c main_v26) :=
  stage_unary writes 37 main_v26 main_v27 (broadcastInDim S850000x1 ![0] bcast_S850000_S850000x1_0 : IVec S850000 32 → IVec S850000x1 32) (hk := rfl) (by decide) (by decide) _

set_option maxRecDepth 8192 in
theorem st_v28 (m : (ℓ : Loc nD τ sig) → Buf (Elt Ideal) ℓ) (c : Dev nD) :
    A m c main_v28 = ((fun x i => Host.gather gather_S50000_S850000x1_S850000_n_0_n_n_0_1_1 x i) : FVec Ideal S50000 .f32 → IVec S850000x1 32 → FVec Ideal S850000 .f32) (A m c main_v14) (A m c main_v27) :=
  stage_binary writes 38 main_v14 main_v27 main_v28 ((fun x i => Host.gather gather_S50000_S850000x1_S850000_n_0_n_n_0_1_1 x i) : FVec Ideal S50000 .f32 → IVec S850000x1 32 → FVec Ideal S850000 .f32) (hk := rfl) (by decide) (by decide) (by decide) _

set_option maxRecDepth 8192 in
theorem st_v29 (m : (ℓ : Loc nD τ sig) → Buf (Elt Ideal) ℓ) (c : Dev nD) :
    A m c main_v29 = (mulf : FVec Ideal S850000 .f32 → FVec Ideal S850000 .f32 → FVec Ideal S850000 .f32) (A m c main_v21) (A m c main_v28) :=
  stage_binary writes 39 main_v21 main_v28 main_v29 (mulf : FVec Ideal S850000 .f32 → FVec Ideal S850000 .f32 → FVec Ideal S850000 .f32) (hk := rfl) (by decide) (by decide) (by decide) _

set_option maxRecDepth 8192 in
theorem st_v30 (m : (ℓ : Loc nD τ sig) → Buf (Elt Ideal) ℓ) (c : Dev nD) :
    A m c main_v30 = ((fun l r => Host.dotGeneral dot_S50000x256_S256x256_S50000x256_1_0_0_1_n_n none l r) : FVec Ideal S50000x256 .f32 → FVec Ideal S256x256 .f32 → FVec Ideal S50000x256 .f32) (A m c main_arg0) (A m c main_arg2) :=
  stage_binary writes 40 main_arg0 main_arg2 main_v30 ((fun l r => Host.dotGeneral dot_S50000x256_S256x256_S50000x256_1_0_0_1_n_n none l r) : FVec Ideal S50000x256 .f32 → FVec Ideal S256x256 .f32 → FVec Ideal S50000x256 .f32) (hk := rfl) (by decide) (by decide) (by decide) _

set_option maxRecDepth 8192 in
theorem st_c_6 (m : (ℓ : Loc nD τ sig) → Buf (Elt Ideal) ℓ) (c : Dev nD) :
    A m c main_c_6 = ((constantI S_ 32 0#32) : IVec S_ 32) :=
  stage_nullary writes 41 main_c_6 ((constantI S_ 32 0#32) : IVec S_ 32) (hk := rfl) (by decide) _

set_option maxRecDepth 8192 in
theorem st_v31 (m : (ℓ : Loc nD τ sig) → Buf (Elt Ideal) ℓ) (c : Dev nD) :
    A m c main_v31 = (broadcastInDim S850000 ![] bcast_S_S850000 : IVec S_ 32 → IVec S850000 32) (A m c main_c_6) :=
  stage_unary writes 42 main_c_6 main_v31 (broadcastInDim S850000 ![] bcast_S_S850000 : IVec S_ 32 → IVec S850000 32) (hk := rfl) (by decide) (by decide) _

set_option maxRecDepth 8192 in
theorem st_v32 (m : (ℓ : Loc nD τ sig) → Buf (Elt Ideal) ℓ) (c : Dev nD) :
    A m c main_v32 = (cmpi .slt : IVec S850000 32 → IVec S850000 32 → IVec S850000 1) (A m c main_v3) (A m c main_v31) :=
  stage_binary writes 43 main_v3 main_v31 main_v32 (cmpi .slt : IVec S850000 32 → IVec S850000 32 → IVec S850000 1) (hk := rfl) (by decide) (by decide) (by decide) _

set_option maxRecDepth 8192 in
theorem st_c_7 (m : (ℓ : Loc nD τ sig) → Buf (Elt Ideal) ℓ) (c : Dev nD) :
    A m c main_c_7 = ((constantI S_ 32 50000#32) : IVec S_ 32) :=
  stage_nullary writes 44 main_c_7 ((constantI S_ 32 50000#32) : IVec S_ 32) (hk := rfl) (by decide) _

set_option maxRecDepth 8192 in
theorem st_v33 (m : (ℓ : Loc nD τ sig) → Buf (Elt Ideal) ℓ) (c : Dev nD) :
    A m c main_v33 = (broadcastInDim S850000 ![] bcast_S_S850000 : IVec S_ 32 → IVec S850000 32) (A m c main_c_7) :=
  stage_unary writes 45 main_c_7 main_v33 (broadcastInDim S850000 ![] bcast_S_S850000 : IVec S_ 32 → IVec S850000 32) (hk := rfl) (by decide) (by decide) _

set_option maxRecDepth 8192 in
theorem st_v34 (m : (ℓ : Loc nD τ sig) → Buf (Elt Ideal) ℓ) (c : Dev nD) :
    A m c main_v34 = (addi : IVec S850000 32 → IVec S850000 32 → IVec S850000 32) (A m c main_v3) (A m c main_v33) :=
  stage_binary writes 46 main_v3 main_v33 main_v34 (addi : IVec S850000 32 → IVec S850000 32 → IVec S850000 32) (hk := rfl) (by decide) (by decide) (by decide) _

set_option maxRecDepth 8192 in
theorem st_v35 (m : (ℓ : Loc nD τ sig) → Buf (Elt Ideal) ℓ) (c : Dev nD) :
    A m c main_v35 = (select : IVec S850000 1 → IVec S850000 32 → IVec S850000 32 → IVec S850000 32) (A m c main_v32) (A m c main_v34) (A m c main_v3) :=
  stage_ternary writes 47 main_v32 main_v34 main_v3 main_v35 (select : IVec S850000 1 → IVec S850000 32 → IVec S850000 32 → IVec S850000 32) (hk := rfl) (by decide) (by decide) (by decide) (by decide) _

set_option maxRecDepth 8192 in
theorem st_v36 (m : (ℓ : Loc nD τ sig) → Buf (Elt Ideal) ℓ) (c : Dev nD) :
    A m c main_v36 = (broadcastInDim S850000x1 ![0] bcast_S850000_S850000x1_0 : IVec S850000 32 → IVec S850000x1 32) (A m c main_v35) :=
  stage_unary writes 48 main_v35 main_v36 (broadcastInDim S850000x1 ![0] bcast_S850000_S850000x1_0 : IVec S850000 32 → IVec S850000x1 32) (hk := rfl) (by decide) (by decide) _

set_option maxRecDepth 8192 in
theorem st_v37 (m : (ℓ : Loc nD τ sig) → Buf (Elt Ideal) ℓ) (c : Dev nD) :
    A m c main_v37 = ((fun x i => Host.gather gather_S50000x256_S850000x1_S850000x256_1_0_n_n_0_1_1256 x i) : FVec Ideal S50000x256 .f32 → IVec S850000x1 32 → FVec Ideal S850000x256 .f32) (A m c main_v30) (A m c main_v36) :=
  stage_binary writes 49 main_v30 main_v36 main_v37 ((fun x i => Host.gather gather_S50000x256_S850000x1_S850000x256_1_0_n_n_0_1_1256 x i) : FVec Ideal S50000x256 .f32 → IVec S850000x1 32 → FVec Ideal S850000x256 .f32) (hk := rfl) (by decide) (by decide) (by decide) _

set_option maxRecDepth 8192 in
theorem st_v38 (m : (ℓ : Loc nD τ sig) → Buf (Elt Ideal) ℓ) (c : Dev nD) :
    A m c main_v38 = (broadcastInDim S850000x1 ![0] bcast_S850000_S850000x1_0 : FVec Ideal S850000 .f32 → FVec Ideal S850000x1 .f32) (A m c main_v29) :=
  stage_unary writes 50 main_v29 main_v38 (broadcastInDim S850000x1 ![0] bcast_S850000_S850000x1_0 : FVec Ideal S850000 .f32 → FVec Ideal S850000x1 .f32) (hk := rfl) (by decide) (by decide) _

set_option maxRecDepth 8192 in
theorem st_v39 (m : (ℓ : Loc nD τ sig) → Buf (Elt Ideal) ℓ) (c : Dev nD) :
    A m c main_v39 = (broadcastInDim S850000x256 ![0, 1] bcast_S850000x1_S850000x256_0_1 : FVec Ideal S850000x1 .f32 → FVec Ideal S850000x256 .f32) (A m c main_v38) :=
  stage_unary writes 51 main_v38 main_v39 (broadcastInDim S850000x256 ![0, 1] bcast_S850000x1_S850000x256_0_1 : FVec Ideal S850000x1 .f32 → FVec Ideal S850000x256 .f32) (hk := rfl) (by decide) (by decide) _

set_option maxRecDepth 8192 in
theorem st_v40 (m : (ℓ : Loc nD τ sig) → Buf (Elt Ideal) ℓ) (c : Dev nD) :
    A m c main_v40 = (mulf : FVec Ideal S850000x256 .f32 → FVec Ideal S850000x256 .f32 → FVec Ideal S850000x256 .f32) (A m c main_v37) (A m c main_v39) :=
  stage_binary writes 52 main_v37 main_v39 main_v40 (mulf : FVec Ideal S850000x256 .f32 → FVec Ideal S850000x256 .f32 → FVec Ideal S850000x256 .f32) (hk := rfl) (by decide) (by decide) (by decide) _

set_option maxRecDepth 8192 in
theorem st_cst_8 (m : (ℓ : Loc nD τ sig) → Buf (Elt Ideal) ℓ) (c : Dev nD) :
    A m c main_cst_8 = ((constant S_ .f32 0x00000000#32) : FVec Ideal S_ .f32) :=
  stage_nullary writes 53 main_cst_8 ((constant S_ .f32 0x00000000#32) : FVec Ideal S_ .f32) (hk := rfl) (by decide) _

set_option maxRecDepth 8192 in
theorem st_v41 (m : (ℓ : Loc nD τ sig) → Buf (Elt Ideal) ℓ) (c : Dev nD) :
    A m c main_v41 = (broadcastInDim S50000x256 ![] bcast_S_S50000x256 : FVec Ideal S_ .f32 → FVec Ideal S50000x256 .f32) (A m c main_cst_8) :=
  stage_unary writes 54 main_cst_8 main_v41 (broadcastInDim S50000x256 ![] bcast_S_S50000x256 : FVec Ideal S_ .f32 → FVec Ideal S50000x256 .f32) (hk := rfl) (by decide) (by decide) _

set_option maxRecDepth 8192 in
theorem st_v42 (m : (ℓ : Loc nD τ sig) → Buf (Elt Ideal) ℓ) (c : Dev nD) :
    A m c main_v42 = (broadcastInDim S850000x1 ![0] bcast_S850000_S850000x1_0 : IVec S850000 32 → IVec S850000x1 32) (A m c main_v6) :=
  stage_unary writes 55 main_v6 main_v42 (broadcastInDim S850000x1 ![0] bcast_S850000_S850000x1_0 : IVec S850000 32 → IVec S850000x1 32) (hk := rfl) (by decide) (by decide) _

set_option maxRecDepth 8192 in
theorem st_v43 (m : (ℓ : Loc nD τ sig) → Buf (Elt Ideal) ℓ) (c : Dev nD) :
    A m c main_v43 = ((fun x i u => Host.scatterAdd scatter_S50000x256_S850000x1_S850000x256_1_0_0_1 x i u) : FVec Ideal S50000x256 .f32 → IVec S850000x1 32 → FVec Ideal S850000x256 .f32 → FVec Ideal S50000x256 .f32) (A m c main_v41) (A m c main_v42) (A m c main_v40) :=
  stage_ternary writes 56 main_v41 main_v42 main_v40 main_v43 ((fun x i u => Host.scatterAdd scatter_S50000x256_S850000x1_S850000x256_1_0_0_1 x i u) : FVec Ideal S50000x256 .f32 → IVec S850000x1 32 → FVec Ideal S850000x256 .f32 → FVec Ideal S50000x256 .f32) (hk := rfl) (by decide) (by decide) (by decide) (by decide) _

set_option maxRecDepth 8192 in
theorem st_v44 (m : (ℓ : Loc nD τ sig) → Buf (Elt Ideal) ℓ) (c : Dev nD) :
    A m c main_v44 = (broadcastInDim S1x256 ![1] bcast_S256_S1x256_1 : FVec Ideal S256 .f32 → FVec Ideal S1x256 .f32) (A m c main_arg3) :=
  stage_unary writes 57 main_arg3 main_v44 (broadcastInDim S1x256 ![1] bcast_S256_S1x256_1 : FVec Ideal S256 .f32 → FVec Ideal S1x256 .f32) (hk := rfl) (by decide) (by decide) _

set_option maxRecDepth 8192 in
theorem st_v45 (m : (ℓ : Loc nD τ sig) → Buf (Elt Ideal) ℓ) (c : Dev nD) :
    A m c main_v45 = (broadcastInDim S50000x256 ![0, 1] bcast_S1x256_S50000x256_0_1 : FVec Ideal S1x256 .f32 → FVec Ideal S50000x256 .f32) (A m c main_v44) :=
  stage_unary writes 58 main_v44 main_v45 (broadcastInDim S50000x256 ![0, 1] bcast_S1x256_S50000x256_0_1 : FVec Ideal S1x256 .f32 → FVec Ideal S50000x256 .f32) (hk := rfl) (by decide) (by decide) _

set_option maxRecDepth 8192 in
theorem st_v46 (m : (ℓ : Loc nD τ sig) → Buf (Elt Ideal) ℓ) (c : Dev nD) :
    A m c main_v46 = (addf : FVec Ideal S50000x256 .f32 → FVec Ideal S50000x256 .f32 → FVec Ideal S50000x256 .f32) (A m c main_v43) (A m c main_v45) :=
  stage_binary writes 59 main_v43 main_v45 main_v46 (addf : FVec Ideal S50000x256 .f32 → FVec Ideal S50000x256 .f32 → FVec Ideal S50000x256 .f32) (hk := rfl) (by decide) (by decide) (by decide) _

set_option maxRecDepth 8192 in
theorem st_call1_cst (m : (ℓ : Loc nD τ sig) → Buf (Elt Ideal) ℓ) (c : Dev nD) :
    A m c main_call1_cst = ((constant S_ .f32 0x00000000#32) : FVec Ideal S_ .f32) :=
  stage_nullary writes 60 main_call1_cst ((constant S_ .f32 0x00000000#32) : FVec Ideal S_ .f32) (hk := rfl) (by decide) _

set_option maxRecDepth 8192 in
theorem st_call1_v0 (m : (ℓ : Loc nD τ sig) → Buf (Elt Ideal) ℓ) (c : Dev nD) :
    A m c main_call1_v0 = ((broadcastInDim S50000x256 ![] bcast_S_S50000x256) : FVec Ideal S_ .f32 → FVec Ideal S50000x256 .f32) (A m c main_call1_cst) :=
  stage_unary writes 61 main_call1_cst main_call1_v0 ((broadcastInDim S50000x256 ![] bcast_S_S50000x256) : FVec Ideal S_ .f32 → FVec Ideal S50000x256 .f32) (hk := rfl) (by decide) (by decide) _

set_option maxRecDepth 8192 in
theorem st_v47 (m : (ℓ : Loc nD τ sig) → Buf (Elt Ideal) ℓ) (c : Dev nD) :
    A m c main_v47 = (maximumf : FVec Ideal S50000x256 .f32 → FVec Ideal S50000x256 .f32 → FVec Ideal S50000x256 .f32) (A m c main_v46) (A m c main_call1_v0) :=
  stage_binary writes 62 main_v46 main_call1_v0 main_v47 (maximumf : FVec Ideal S50000x256 .f32 → FVec Ideal S50000x256 .f32 → FVec Ideal S50000x256 .f32) (hk := rfl) (by decide) (by decide) (by decide) _

set_option maxRecDepth 8192 in
theorem st_v48 (m : (ℓ : Loc nD τ sig) → Buf (Elt Ideal) ℓ) (c : Dev nD) :
    A m c main_v48 = ((fun l r => Host.dotGeneral dot_S50000x256_S256x256_S50000x256_1_0_0_1_n_n none l r) : FVec Ideal S50000x256 .f32 → FVec Ideal S256x256 .f32 → FVec Ideal S50000x256 .f32) (A m c main_v47) (A m c main_arg4) :=
  stage_binary writes 63 main_v47 main_arg4 main_v48 ((fun l r => Host.dotGeneral dot_S50000x256_S256x256_S50000x256_1_0_0_1_n_n none l r) : FVec Ideal S50000x256 .f32 → FVec Ideal S256x256 .f32 → FVec Ideal S50000x256 .f32) (hk := rfl) (by decide) (by decide) (by decide) _

set_option maxRecDepth 8192 in
theorem st_c_9 (m : (ℓ : Loc nD τ sig) → Buf (Elt Ideal) ℓ) (c : Dev nD) :
    A m c main_c_9 = ((constantI S_ 32 0#32) : IVec S_ 32) :=
  stage_nullary writes 64 main_c_9 ((constantI S_ 32 0#32) : IVec S_ 32) (hk := rfl) (by decide) _

set_option maxRecDepth 8192 in
theorem st_v49 (m : (ℓ : Loc nD τ sig) → Buf (Elt Ideal) ℓ) (c : Dev nD) :
    A m c main_v49 = (broadcastInDim S850000 ![] bcast_S_S850000 : IVec S_ 32 → IVec S850000 32) (A m c main_c_9) :=
  stage_unary writes 65 main_c_9 main_v49 (broadcastInDim S850000 ![] bcast_S_S850000 : IVec S_ 32 → IVec S850000 32) (hk := rfl) (by decide) (by decide) _

set_option maxRecDepth 8192 in
theorem st_v50 (m : (ℓ : Loc nD τ sig) → Buf (Elt Ideal) ℓ) (c : Dev nD) :
    A m c main_v50 = (cmpi .slt : IVec S850000 32 → IVec S850000 32 → IVec S850000 1) (A m c main_v3) (A m c main_v49) :=
  stage_binary writes 66 main_v3 main_v49 main_v50 (cmpi .slt : IVec S850000 32 → IVec S850000 32 → IVec S850000 1) (hk := rfl) (by decide) (by decide) (by decide) _

set_option maxRecDepth 8192 in
theorem st_c_10 (m : (ℓ : Loc nD τ sig) → Buf (Elt Ideal) ℓ) (c : Dev nD) :
    A m c main_c_10 = ((constantI S_ 32 50000#32) : IVec S_ 32) :=
  stage_nullary writes 67 main_c_10 ((constantI S_ 32 50000#32) : IVec S_ 32) (hk := rfl) (by decide) _

set_option maxRecDepth 8192 in
theorem st_v51 (m : (ℓ : Loc nD τ sig) → Buf (Elt Ideal) ℓ) (c : Dev nD) :
    A m c main_v51 = (broadcastInDim S850000 ![] bcast_S_S850000 : IVec S_ 32 → IVec S850000 32) (A m c main_c_10) :=
  stage_unary writes 68 main_c_10 main_v51 (broadcastInDim S850000 ![] bcast_S_S850000 : IVec S_ 32 → IVec S850000 32) (hk := rfl) (by decide) (by decide) _

set_option maxRecDepth 8192 in
theorem st_v52 (m : (ℓ : Loc nD τ sig) → Buf (Elt Ideal) ℓ) (c : Dev nD) :
    A m c main_v52 = (addi : IVec S850000 32 → IVec S850000 32 → IVec S850000 32) (A m c main_v3) (A m c main_v51) :=
  stage_binary writes 69 main_v3 main_v51 main_v52 (addi : IVec S850000 32 → IVec S850000 32 → IVec S850000 32) (hk := rfl) (by decide) (by decide) (by decide) _

set_option maxRecDepth 8192 in
theorem st_v53 (m : (ℓ : Loc nD τ sig) → Buf (Elt Ideal) ℓ) (c : Dev nD) :
    A m c main_v53 = (select : IVec S850000 1 → IVec S850000 32 → IVec S850000 32 → IVec S850000 32) (A m c main_v50) (A m c main_v52) (A m c main_v3) :=
  stage_ternary writes 70 main_v50 main_v52 main_v3 main_v53 (select : IVec S850000 1 → IVec S850000 32 → IVec S850000 32 → IVec S850000 32) (hk := rfl) (by decide) (by decide) (by decide) (by decide) _

set_option maxRecDepth 8192 in
theorem st_v54 (m : (ℓ : Loc nD τ sig) → Buf (Elt Ideal) ℓ) (c : Dev nD) :
    A m c main_v54 = (broadcastInDim S850000x1 ![0] bcast_S850000_S850000x1_0 : IVec S850000 32 → IVec S850000x1 32) (A m c main_v53) :=
  stage_unary writes 71 main_v53 main_v54 (broadcastInDim S850000x1 ![0] bcast_S850000_S850000x1_0 : IVec S850000 32 → IVec S850000x1 32) (hk := rfl) (by decide) (by decide) _

set_option maxRecDepth 8192 in
theorem st_v55 (m : (ℓ : Loc nD τ sig) → Buf (Elt Ideal) ℓ) (c : Dev nD) :
    A m c main_v55 = ((fun x i => Host.gather gather_S50000x256_S850000x1_S850000x256_1_0_n_n_0_1_1256 x i) : FVec Ideal S50000x256 .f32 → IVec S850000x1 32 → FVec Ideal S850000x256 .f32) (A m c main_v48) (A m c main_v54) :=
  stage_binary writes 72 main_v48 main_v54 main_v55 ((fun x i => Host.gather gather_S50000x256_S850000x1_S850000x256_1_0_n_n_0_1_1256 x i) : FVec Ideal S50000x256 .f32 → IVec S850000x1 32 → FVec Ideal S850000x256 .f32) (hk := rfl) (by decide) (by decide) (by decide) _

set_option maxRecDepth 8192 in
theorem st_v56 (m : (ℓ : Loc nD τ sig) → Buf (Elt Ideal) ℓ) (c : Dev nD) :
    A m c main_v56 = (broadcastInDim S850000x1 ![0] bcast_S850000_S850000x1_0 : FVec Ideal S850000 .f32 → FVec Ideal S850000x1 .f32) (A m c main_v29) :=
  stage_unary writes 73 main_v29 main_v56 (broadcastInDim S850000x1 ![0] bcast_S850000_S850000x1_0 : FVec Ideal S850000 .f32 → FVec Ideal S850000x1 .f32) (hk := rfl) (by decide) (by decide) _

set_option maxRecDepth 8192 in
theorem st_v57 (m : (ℓ : Loc nD τ sig) → Buf (Elt Ideal) ℓ) (c : Dev nD) :
    A m c main_v57 = (broadcastInDim S850000x256 ![0, 1] bcast_S850000x1_S850000x256_0_1 : FVec Ideal S850000x1 .f32 → FVec Ideal S850000x256 .f32) (A m c main_v56) :=
  stage_unary writes 74 main_v56 main_v57 (broadcastInDim S850000x256 ![0, 1] bcast_S850000x1_S850000x256_0_1 : FVec Ideal S850000x1 .f32 → FVec Ideal S850000x256 .f32) (hk := rfl) (by decide) (by decide) _

set_option maxRecDepth 8192 in
theorem st_v58 (m : (ℓ : Loc nD τ sig) → Buf (Elt Ideal) ℓ) (c : Dev nD) :
    A m c main_v58 = (mulf : FVec Ideal S850000x256 .f32 → FVec Ideal S850000x256 .f32 → FVec Ideal S850000x256 .f32) (A m c main_v55) (A m c main_v57) :=
  stage_binary writes 75 main_v55 main_v57 main_v58 (mulf : FVec Ideal S850000x256 .f32 → FVec Ideal S850000x256 .f32 → FVec Ideal S850000x256 .f32) (hk := rfl) (by decide) (by decide) (by decide) _

set_option maxRecDepth 8192 in
theorem st_cst_11 (m : (ℓ : Loc nD τ sig) → Buf (Elt Ideal) ℓ) (c : Dev nD) :
    A m c main_cst_11 = ((constant S_ .f32 0x00000000#32) : FVec Ideal S_ .f32) :=
  stage_nullary writes 76 main_cst_11 ((constant S_ .f32 0x00000000#32) : FVec Ideal S_ .f32) (hk := rfl) (by decide) _

set_option maxRecDepth 8192 in
theorem st_v59 (m : (ℓ : Loc nD τ sig) → Buf (Elt Ideal) ℓ) (c : Dev nD) :
    A m c main_v59 = (broadcastInDim S50000x256 ![] bcast_S_S50000x256 : FVec Ideal S_ .f32 → FVec Ideal S50000x256 .f32) (A m c main_cst_11) :=
  stage_unary writes 77 main_cst_11 main_v59 (broadcastInDim S50000x256 ![] bcast_S_S50000x256 : FVec Ideal S_ .f32 → FVec Ideal S50000x256 .f32) (hk := rfl) (by decide) (by decide) _

set_option maxRecDepth 8192 in
theorem st_v60 (m : (ℓ : Loc nD τ sig) → Buf (Elt Ideal) ℓ) (c : Dev nD) :
    A m c main_v60 = (broadcastInDim S850000x1 ![0] bcast_S850000_S850000x1_0 : IVec S850000 32 → IVec S850000x1 32) (A m c main_v6) :=
  stage_unary writes 78 main_v6 main_v60 (broadcastInDim S850000x1 ![0] bcast_S850000_S850000x1_0 : IVec S850000 32 → IVec S850000x1 32) (hk := rfl) (by decide) (by decide) _

set_option maxRecDepth 8192 in
theorem st_v61 (m : (ℓ : Loc nD τ sig) → Buf (Elt Ideal) ℓ) (c : Dev nD) :
    A m c main_v61 = ((fun x i u => Host.scatterAdd scatter_S50000x256_S850000x1_S850000x256_1_0_0_1 x i u) : FVec Ideal S50000x256 .f32 → IVec S850000x1 32 → FVec Ideal S850000x256 .f32 → FVec Ideal S50000x256 .f32) (A m c main_v59) (A m c main_v60) (A m c main_v58) :=
  stage_ternary writes 79 main_v59 main_v60 main_v58 main_v61 ((fun x i u => Host.scatterAdd scatter_S50000x256_S850000x1_S850000x256_1_0_0_1 x i u) : FVec Ideal S50000x256 .f32 → IVec S850000x1 32 → FVec Ideal S850000x256 .f32 → FVec Ideal S50000x256 .f32) (hk := rfl) (by decide) (by decide) (by decide) (by decide) _

set_option maxRecDepth 8192 in
theorem st_v62 (m : (ℓ : Loc nD τ sig) → Buf (Elt Ideal) ℓ) (c : Dev nD) :
    A m c main_v62 = (broadcastInDim S1x256 ![1] bcast_S256_S1x256_1 : FVec Ideal S256 .f32 → FVec Ideal S1x256 .f32) (A m c main_arg5) :=
  stage_unary writes 80 main_arg5 main_v62 (broadcastInDim S1x256 ![1] bcast_S256_S1x256_1 : FVec Ideal S256 .f32 → FVec Ideal S1x256 .f32) (hk := rfl) (by decide) (by decide) _

set_option maxRecDepth 8192 in
theorem st_v63 (m : (ℓ : Loc nD τ sig) → Buf (Elt Ideal) ℓ) (c : Dev nD) :
    A m c main_v63 = (broadcastInDim S50000x256 ![0, 1] bcast_S1x256_S50000x256_0_1 : FVec Ideal S1x256 .f32 → FVec Ideal S50000x256 .f32) (A m c main_v62) :=
  stage_unary writes 81 main_v62 main_v63 (broadcastInDim S50000x256 ![0, 1] bcast_S1x256_S50000x256_0_1 : FVec Ideal S1x256 .f32 → FVec Ideal S50000x256 .f32) (hk := rfl) (by decide) (by decide) _

set_option maxRecDepth 8192 in
theorem st_v64 (m : (ℓ : Loc nD τ sig) → Buf (Elt Ideal) ℓ) (c : Dev nD) :
    A m c main_v64 = (addf : FVec Ideal S50000x256 .f32 → FVec Ideal S50000x256 .f32 → FVec Ideal S50000x256 .f32) (A m c main_v61) (A m c main_v63) :=
  stage_binary writes 82 main_v61 main_v63 main_v64 (addf : FVec Ideal S50000x256 .f32 → FVec Ideal S50000x256 .f32 → FVec Ideal S50000x256 .f32) (hk := rfl) (by decide) (by decide) (by decide) _

set_option maxRecDepth 8192 in
theorem st_call2_cst (m : (ℓ : Loc nD τ sig) → Buf (Elt Ideal) ℓ) (c : Dev nD) :
    A m c main_call2_cst = ((constant S_ .f32 0x00000000#32) : FVec Ideal S_ .f32) :=
  stage_nullary writes 83 main_call2_cst ((constant S_ .f32 0x00000000#32) : FVec Ideal S_ .f32) (hk := rfl) (by decide) _

set_option maxRecDepth 8192 in
theorem st_call2_v0 (m : (ℓ : Loc nD τ sig) → Buf (Elt Ideal) ℓ) (c : Dev nD) :
    A m c main_call2_v0 = ((broadcastInDim S50000x256 ![] bcast_S_S50000x256) : FVec Ideal S_ .f32 → FVec Ideal S50000x256 .f32) (A m c main_call2_cst) :=
  stage_unary writes 84 main_call2_cst main_call2_v0 ((broadcastInDim S50000x256 ![] bcast_S_S50000x256) : FVec Ideal S_ .f32 → FVec Ideal S50000x256 .f32) (hk := rfl) (by decide) (by decide) _

set_option maxRecDepth 8192 in
theorem st_v65 (m : (ℓ : Loc nD τ sig) → Buf (Elt Ideal) ℓ) (c : Dev nD) :
    A m c main_v65 = (maximumf : FVec Ideal S50000x256 .f32 → FVec Ideal S50000x256 .f32 → FVec Ideal S50000x256 .f32) (A m c main_v64) (A m c main_call2_v0) :=
  stage_binary writes 85 main_v64 main_call2_v0 main_v65 (maximumf : FVec Ideal S50000x256 .f32 → FVec Ideal S50000x256 .f32 → FVec Ideal S50000x256 .f32) (hk := rfl) (by decide) (by decide) (by decide) _

set_option maxRecDepth 8192 in
theorem st_v66 (m : (ℓ : Loc nD τ sig) → Buf (Elt Ideal) ℓ) (c : Dev nD) :
    A m c main_v66 = ((fun l r => Host.dotGeneral dot_S50000x256_S256x2_S50000x2_1_0_0_1_n_n none l r) : FVec Ideal S50000x256 .f32 → FVec Ideal S256x2 .f32 → FVec Ideal S50000x2 .f32) (A m c main_v65) (A m c main_arg6) :=
  stage_binary writes 86 main_v65 main_arg6 main_v66 ((fun l r => Host.dotGeneral dot_S50000x256_S256x2_S50000x2_1_0_0_1_n_n none l r) : FVec Ideal S50000x256 .f32 → FVec Ideal S256x2 .f32 → FVec Ideal S50000x2 .f32) (hk := rfl) (by decide) (by decide) (by decide) _

set_option maxRecDepth 8192 in
theorem st_v67 (m : (ℓ : Loc nD τ sig) → Buf (Elt Ideal) ℓ) (c : Dev nD) :
    A m c main_v67 = (broadcastInDim S1x2 ![1] bcast_S2_S1x2_1 : FVec Ideal S2 .f32 → FVec Ideal S1x2 .f32) (A m c main_arg7) :=
  stage_unary writes 87 main_arg7 main_v67 (broadcastInDim S1x2 ![1] bcast_S2_S1x2_1 : FVec Ideal S2 .f32 → FVec Ideal S1x2 .f32) (hk := rfl) (by decide) (by decide) _

set_option maxRecDepth 8192 in
theorem st_v68 (m : (ℓ : Loc nD τ sig) → Buf (Elt Ideal) ℓ) (c : Dev nD) :
    A m c main_v68 = (broadcastInDim S50000x2 ![0, 1] bcast_S1x2_S50000x2_0_1 : FVec Ideal S1x2 .f32 → FVec Ideal S50000x2 .f32) (A m c main_v67) :=
  stage_unary writes 88 main_v67 main_v68 (broadcastInDim S50000x2 ![0, 1] bcast_S1x2_S50000x2_0_1 : FVec Ideal S1x2 .f32 → FVec Ideal S50000x2 .f32) (hk := rfl) (by decide) (by decide) _

set_option maxRecDepth 8192 in
theorem st_v69 (m : (ℓ : Loc nD τ sig) → Buf (Elt Ideal) ℓ) (c : Dev nD) :
    A m c main_v69 = (addf : FVec Ideal S50000x2 .f32 → FVec Ideal S50000x2 .f32 → FVec Ideal S50000x2 .f32) (A m c main_v66) (A m c main_v68) :=
  stage_binary writes 89 main_v66 main_v68 main_v69 (addf : FVec Ideal S50000x2 .f32 → FVec Ideal S50000x2 .f32 → FVec Ideal S50000x2 .f32) (hk := rfl) (by decide) (by decide) (by decide) _

set_option maxRecDepth 8192 in
theorem st_call3_cst (m : (ℓ : Loc nD τ sig) → Buf (Elt Ideal) ℓ) (c : Dev nD) :
    A m c main_call3_cst = ((constant S_ .f32 0xFF800000#32) : FVec Ideal S_ .f32) :=
  stage_nullary writes 90 main_call3_cst ((constant S_ .f32 0xFF800000#32) : FVec Ideal S_ .f32) (hk := rfl) (by decide) _

set_option maxRecDepth 8192 in
theorem st_call3_v0 (m : (ℓ : Loc nD τ sig) → Buf (Elt Ideal) ℓ) (c : Dev nD) :
    A m c main_call3_v0 = ((fun x v => Host.reduce FloatOps.maximumf x v reducesTo_S50000x2_S50000_d1 h_S_) : FVec Ideal S50000x2 .f32 → FVec Ideal S_ .f32 → FVec Ideal S50000 .f32) (A m c main_v69) (A m c main_call3_cst) :=
  stage_tbinary writes 91 main_v69 main_call3_cst main_call3_v0 ((fun x v => Host.reduce FloatOps.maximumf x v reducesTo_S50000x2_S50000_d1 h_S_) : FVec Ideal S50000x2 .f32 → FVec Ideal S_ .f32 → FVec Ideal S50000 .f32) (hk := rfl) (by decide) (by decide) (by decide) _

set_option maxRecDepth 8192 in
theorem st_call3_cst_0 (m : (ℓ : Loc nD τ sig) → Buf (Elt Ideal) ℓ) (c : Dev nD) :
    A m c main_call3_cst_0 = ((constant S_ .f32 0xFF800000#32) : FVec Ideal S_ .f32) :=
  stage_nullary writes 92 main_call3_cst_0 ((constant S_ .f32 0xFF800000#32) : FVec Ideal S_ .f32) (hk := rfl) (by decide) _

set_option maxRecDepth 8192 in
theorem st_call3_v1 (m : (ℓ : Loc nD τ sig) → Buf (Elt Ideal) ℓ) (c : Dev nD) :
    A m c main_call3_v1 = ((broadcastInDim S50000 ![] bcast_S_S50000) : FVec Ideal S_ .f32 → FVec Ideal S50000 .f32) (A m c main_call3_cst_0) :=
  stage_unary writes 93 main_call3_cst_0 main_call3_v1 ((broadcastInDim S50000 ![] bcast_S_S50000) : FVec Ideal S_ .f32 → FVec Ideal S50000 .f32) (hk := rfl) (by decide) (by decide) _

set_option maxRecDepth 8192 in
theorem st_call3_v2 (m : (ℓ : Loc nD τ sig) → Buf (Elt Ideal) ℓ) (c : Dev nD) :
    A m c main_call3_v2 = (maximumf : FVec Ideal S50000 .f32 → FVec Ideal S50000 .f32 → FVec Ideal S50000 .f32) (A m c main_call3_v1) (A m c main_call3_v0) :=
  stage_binary writes 94 main_call3_v1 main_call3_v0 main_call3_v2 (maximumf : FVec Ideal S50000 .f32 → FVec Ideal S50000 .f32 → FVec Ideal S50000 .f32) (hk := rfl) (by decide) (by decide) (by decide) _

set_option maxRecDepth 8192 in
theorem st_call3_v3 (m : (ℓ : Loc nD τ sig) → Buf (Elt Ideal) ℓ) (c : Dev nD) :
    A m c main_call3_v3 = ((broadcastInDim S50000x1 ![0] bcast_S50000_S50000x1_0) : FVec Ideal S50000 .f32 → FVec Ideal S50000x1 .f32) (A m c main_call3_v2) :=
  stage_unary writes 95 main_call3_v2 main_call3_v3 ((broadcastInDim S50000x1 ![0] bcast_S50000_S50000x1_0) : FVec Ideal S50000 .f32 → FVec Ideal S50000x1 .f32) (hk := rfl) (by decide) (by decide) _

set_option maxRecDepth 8192 in
theorem st_call3_v4 (m : (ℓ : Loc nD τ sig) → Buf (Elt Ideal) ℓ) (c : Dev nD) :
    A m c main_call3_v4 = ((broadcastInDim S50000x2 ![0, 1] bcast_S50000x1_S50000x2_0_1) : FVec Ideal S50000x1 .f32 → FVec Ideal S50000x2 .f32) (A m c main_call3_v3) :=
  stage_unary writes 96 main_call3_v3 main_call3_v4 ((broadcastInDim S50000x2 ![0, 1] bcast_S50000x1_S50000x2_0_1) : FVec Ideal S50000x1 .f32 → FVec Ideal S50000x2 .f32) (hk := rfl) (by decide) (by decide) _

set_option maxRecDepth 8192 in
theorem st_call3_v5 (m : (ℓ : Loc nD τ sig) → Buf (Elt Ideal) ℓ) (c : Dev nD) :
    A m c main_call3_v5 = (subf : FVec Ideal S50000x2 .f32 → FVec Ideal S50000x2 .f32 → FVec Ideal S50000x2 .f32) (A m c main_v69) (A m c main_call3_v4) :=
  stage_binary writes 97 main_v69 main_call3_v4 main_call3_v5 (subf : FVec Ideal S50000x2 .f32 → FVec Ideal S50000x2 .f32 → FVec Ideal S50000x2 .f32) (hk := rfl) (by decide) (by decide) (by decide) _

set_option maxRecDepth 8192 in
theorem st_call3_v6 (m : (ℓ : Loc nD τ sig) → Buf (Elt Ideal) ℓ) (c : Dev nD) :
    A m c main_call3_v6 = (Host.exp : FVec Ideal S50000x2 .f32 → FVec Ideal S50000x2 .f32) (A m c main_call3_v5) :=
  stage_unary writes 98 main_call3_v5 main_call3_v6 (Host.exp : FVec Ideal S50000x2 .f32 → FVec Ideal S50000x2 .f32) (hk := rfl) (by decide) (by decide) _

set_option maxRecDepth 8192 in
theorem st_call3_cst_1 (m : (ℓ : Loc nD τ sig) → Buf (Elt Ideal) ℓ) (c : Dev nD) :
    A m c main_call3_cst_1 = ((constant S_ .f32 0x00000000#32) : FVec Ideal S_ .f32) :=
  stage_nullary writes 99 main_call3_cst_1 ((constant S_ .f32 0x00000000#32) : FVec Ideal S_ .f32) (hk := rfl) (by decide) _

set_option maxRecDepth 8192 in
theorem st_call3_v7 (m : (ℓ : Loc nD τ sig) → Buf (Elt Ideal) ℓ) (c : Dev nD) :
    A m c main_call3_v7 = ((fun x v => Host.reduceAdd x v reducesTo_S50000x2_S50000_d1 h_S_) : FVec Ideal S50000x2 .f32 → FVec Ideal S_ .f32 → FVec Ideal S50000 .f32) (A m c main_call3_v6) (A m c main_call3_cst_1) :=
  stage_binary writes 100 main_call3_v6 main_call3_cst_1 main_call3_v7 ((fun x v => Host.reduceAdd x v reducesTo_S50000x2_S50000_d1 h_S_) : FVec Ideal S50000x2 .f32 → FVec Ideal S_ .f32 → FVec Ideal S50000 .f32) (hk := rfl) (by decide) (by decide) (by decide) _

set_option maxRecDepth 8192 in
theorem st_call3_v8 (m : (ℓ : Loc nD τ sig) → Buf (Elt Ideal) ℓ) (c : Dev nD) :
    A m c main_call3_v8 = ((broadcastInDim S50000x1 ![0] bcast_S50000_S50000x1_0) : FVec Ideal S50000 .f32 → FVec Ideal S50000x1 .f32) (A m c main_call3_v7) :=
  stage_unary writes 101 main_call3_v7 main_call3_v8 ((broadcastInDim S50000x1 ![0] bcast_S50000_S50000x1_0) : FVec Ideal S50000 .f32 → FVec Ideal S50000x1 .f32) (hk := rfl) (by decide) (by decide) _

set_option maxRecDepth 8192 in
theorem st_call3_v9 (m : (ℓ : Loc nD τ sig) → Buf (Elt Ideal) ℓ) (c : Dev nD) :
    A m c main_call3_v9 = (Host.log : FVec Ideal S50000x1 .f32 → FVec Ideal S50000x1 .f32) (A m c main_call3_v8) :=
  stage_unary writes 102 main_call3_v8 main_call3_v9 (Host.log : FVec Ideal S50000x1 .f32 → FVec Ideal S50000x1 .f32) (hk := rfl) (by decide) (by decide) _

set_option maxRecDepth 8192 in
theorem st_call3_v10 (m : (ℓ : Loc nD τ sig) → Buf (Elt Ideal) ℓ) (c : Dev nD) :
    A m c main_call3_v10 = ((broadcastInDim S50000x2 ![0, 1] bcast_S50000x1_S50000x2_0_1) : FVec Ideal S50000x1 .f32 → FVec Ideal S50000x2 .f32) (A m c main_call3_v9) :=
  stage_unary writes 103 main_call3_v9 main_call3_v10 ((broadcastInDim S50000x2 ![0, 1] bcast_S50000x1_S50000x2_0_1) : FVec Ideal S50000x1 .f32 → FVec Ideal S50000x2 .f32) (hk := rfl) (by decide) (by decide) _

set_option maxRecDepth 8192 in
theorem st_v70 (m : (ℓ : Loc nD τ sig) → Buf (Elt Ideal) ℓ) (c : Dev nD) :
    A m c main_v70 = (subf : FVec Ideal S50000x2 .f32 → FVec Ideal S50000x2 .f32 → FVec Ideal S50000x2 .f32) (A m c main_call3_v5) (A m c main_call3_v10) :=
  stage_binary writes 104 main_call3_v5 main_call3_v10 main_v70 (subf : FVec Ideal S50000x2 .f32 → FVec Ideal S50000x2 .f32 → FVec Ideal S50000x2 .f32) (hk := rfl) (by decide) (by decide) (by decide) _

/-! ## The contents of each buffer at its own type -/

abbrev V_arg0 (m : (ℓ : Loc nD τ sig) → Buf (Elt Ideal) ℓ) (c : Dev nD) : FVec Ideal S50000x256 .f32 := A m c main_arg0
abbrev V_arg1 (m : (ℓ : Loc nD τ sig) → Buf (Elt Ideal) ℓ) (c : Dev nD) : IVec S2x800000 32 := A m c main_arg1
abbrev V_arg2 (m : (ℓ : Loc nD τ sig) → Buf (Elt Ideal) ℓ) (c : Dev nD) : FVec Ideal S256x256 .f32 := A m c main_arg2
abbrev V_arg3 (m : (ℓ : Loc nD τ sig) → Buf (Elt Ideal) ℓ) (c : Dev nD) : FVec Ideal S256 .f32 := A m c main_arg3
abbrev V_arg4 (m : (ℓ : Loc nD τ sig) → Buf (Elt Ideal) ℓ) (c : Dev nD) : FVec Ideal S256x256 .f32 := A m c main_arg4
abbrev V_arg5 (m : (ℓ : Loc nD τ sig) → Buf (Elt Ideal) ℓ) (c : Dev nD) : FVec Ideal S256 .f32 := A m c main_arg5
abbrev V_arg6 (m : (ℓ : Loc nD τ sig) → Buf (Elt Ideal) ℓ) (c : Dev nD) : FVec Ideal S256x2 .f32 := A m c main_arg6
abbrev V_arg7 (m : (ℓ : Loc nD τ sig) → Buf (Elt Ideal) ℓ) (c : Dev nD) : FVec Ideal S2 .f32 := A m c main_arg7
abbrev V_v0 (m : (ℓ : Loc nD τ sig) → Buf (Elt Ideal) ℓ) (c : Dev nD) : IVec S50000 32 := A m c main_v0
abbrev V_v1 (m : (ℓ : Loc nD τ sig) → Buf (Elt Ideal) ℓ) (c : Dev nD) : IVec S1x800000 32 := A m c main_v1
abbrev V_v2 (m : (ℓ : Loc nD τ sig) → Buf (Elt Ideal) ℓ) (c : Dev nD) : IVec S800000 32 := A m c main_v2
abbrev V_v3 (m : (ℓ : Loc nD τ sig) → Buf (Elt Ideal) ℓ) (c : Dev nD) : IVec S850000 32 := A m c main_v3
abbrev V_v4 (m : (ℓ : Loc nD τ sig) → Buf (Elt Ideal) ℓ) (c : Dev nD) : IVec S1x800000 32 := A m c main_v4
abbrev V_v5 (m : (ℓ : Loc nD τ sig) → Buf (Elt Ideal) ℓ) (c : Dev nD) : IVec S800000 32 := A m c main_v5
abbrev V_v6 (m : (ℓ : Loc nD τ sig) → Buf (Elt Ideal) ℓ) (c : Dev nD) : IVec S850000 32 := A m c main_v6
abbrev V_cst (m : (ℓ : Loc nD τ sig) → Buf (Elt Ideal) ℓ) (c : Dev nD) : FVec Ideal S_ .f32 := A m c main_cst
abbrev V_v7 (m : (ℓ : Loc nD τ sig) → Buf (Elt Ideal) ℓ) (c : Dev nD) : FVec Ideal S850000 .f32 := A m c main_v7
abbrev V_cst_0 (m : (ℓ : Loc nD τ sig) → Buf (Elt Ideal) ℓ) (c : Dev nD) : FVec Ideal S_ .f32 := A m c main_cst_0
abbrev V_v8 (m : (ℓ : Loc nD τ sig) → Buf (Elt Ideal) ℓ) (c : Dev nD) : FVec Ideal S50000 .f32 := A m c main_v8
abbrev V_v9 (m : (ℓ : Loc nD τ sig) → Buf (Elt Ideal) ℓ) (c : Dev nD) : IVec S850000x1 32 := A m c main_v9
abbrev V_v10 (m : (ℓ : Loc nD τ sig) → Buf (Elt Ideal) ℓ) (c : Dev nD) : FVec Ideal S50000 .f32 := A m c main_v10
abbrev V_cst_1 (m : (ℓ : Loc nD τ sig) → Buf (Elt Ideal) ℓ) (c : Dev nD) : FVec Ideal S_ .f32 := A m c main_cst_1
abbrev V_v11 (m : (ℓ : Loc nD τ sig) → Buf (Elt Ideal) ℓ) (c : Dev nD) : FVec Ideal S50000 .f32 := A m c main_v11
abbrev V_v12 (m : (ℓ : Loc nD τ sig) → Buf (Elt Ideal) ℓ) (c : Dev nD) : IVec S50000 1 := A m c main_v12
abbrev V_v13 (m : (ℓ : Loc nD τ sig) → Buf (Elt Ideal) ℓ) (c : Dev nD) : FVec Ideal S50000 .f32 := A m c main_v13
abbrev V_cst_2 (m : (ℓ : Loc nD τ sig) → Buf (Elt Ideal) ℓ) (c : Dev nD) : FVec Ideal S_ .f32 := A m c main_cst_2
abbrev V_call0_v0 (m : (ℓ : Loc nD τ sig) → Buf (Elt Ideal) ℓ) (c : Dev nD) : FVec Ideal S_ .f32 := A m c main_call0_v0
abbrev V_call0_v1 (m : (ℓ : Loc nD τ sig) → Buf (Elt Ideal) ℓ) (c : Dev nD) : FVec Ideal S50000 .f32 := A m c main_call0_v1
abbrev V_v14 (m : (ℓ : Loc nD τ sig) → Buf (Elt Ideal) ℓ) (c : Dev nD) : FVec Ideal S50000 .f32 := A m c main_v14
abbrev V_c (m : (ℓ : Loc nD τ sig) → Buf (Elt Ideal) ℓ) (c : Dev nD) : IVec S_ 32 := A m c main_c
abbrev V_v15 (m : (ℓ : Loc nD τ sig) → Buf (Elt Ideal) ℓ) (c : Dev nD) : IVec S850000 32 := A m c main_v15
abbrev V_v16 (m : (ℓ : Loc nD τ sig) → Buf (Elt Ideal) ℓ) (c : Dev nD) : IVec S850000 1 := A m c main_v16
abbrev V_c_3 (m : (ℓ : Loc nD τ sig) → Buf (Elt Ideal) ℓ) (c : Dev nD) : IVec S_ 32 := A m c main_c_3
abbrev V_v17 (m : (ℓ : Loc nD τ sig) → Buf (Elt Ideal) ℓ) (c : Dev nD) : IVec S850000 32 := A m c main_v17
abbrev V_v18 (m : (ℓ : Loc nD τ sig) → Buf (Elt Ideal) ℓ) (c : Dev nD) : IVec S850000 32 := A m c main_v18
abbrev V_v19 (m : (ℓ : Loc nD τ sig) → Buf (Elt Ideal) ℓ) (c : Dev nD) : IVec S850000 32 := A m c main_v19
abbrev V_v20 (m : (ℓ : Loc nD τ sig) → Buf (Elt Ideal) ℓ) (c : Dev nD) : IVec S850000x1 32 := A m c main_v20
abbrev V_v21 (m : (ℓ : Loc nD τ sig) → Buf (Elt Ideal) ℓ) (c : Dev nD) : FVec Ideal S850000 .f32 := A m c main_v21
abbrev V_c_4 (m : (ℓ : Loc nD τ sig) → Buf (Elt Ideal) ℓ) (c : Dev nD) : IVec S_ 32 := A m c main_c_4
abbrev V_v22 (m : (ℓ : Loc nD τ sig) → Buf (Elt Ideal) ℓ) (c : Dev nD) : IVec S850000 32 := A m c main_v22
abbrev V_v23 (m : (ℓ : Loc nD τ sig) → Buf (Elt Ideal) ℓ) (c : Dev nD) : IVec S850000 1 := A m c main_v23
abbrev V_c_5 (m : (ℓ : Loc nD τ sig) → Buf (Elt Ideal) ℓ) (c : Dev nD) : IVec S_ 32 := A m c main_c_5
abbrev V_v24 (m : (ℓ : Loc nD τ sig) → Buf (Elt Ideal) ℓ) (c : Dev nD) : IVec S850000 32 := A m c main_v24
abbrev V_v25 (m : (ℓ : Loc nD τ sig) → Buf (Elt Ideal) ℓ) (c : Dev nD) : IVec S850000 32 := A m c main_v25
abbrev V_v26 (m : (ℓ : Loc nD τ sig) → Buf (Elt Ideal) ℓ) (c : Dev nD) : IVec S850000 32 := A m c main_v26
abbrev V_v27 (m : (ℓ : Loc nD τ sig) → Buf (Elt Ideal) ℓ) (c : Dev nD) : IVec S850000x1 32 := A m c main_v27
abbrev V_v28 (m : (ℓ : Loc nD τ sig) → Buf (Elt Ideal) ℓ) (c : Dev nD) : FVec Ideal S850000 .f32 := A m c main_v28
abbrev V_v29 (m : (ℓ : Loc nD τ sig) → Buf (Elt Ideal) ℓ) (c : Dev nD) : FVec Ideal S850000 .f32 := A m c main_v29
abbrev V_v30 (m : (ℓ : Loc nD τ sig) → Buf (Elt Ideal) ℓ) (c : Dev nD) : FVec Ideal S50000x256 .f32 := A m c main_v30
abbrev V_c_6 (m : (ℓ : Loc nD τ sig) → Buf (Elt Ideal) ℓ) (c : Dev nD) : IVec S_ 32 := A m c main_c_6
abbrev V_v31 (m : (ℓ : Loc nD τ sig) → Buf (Elt Ideal) ℓ) (c : Dev nD) : IVec S850000 32 := A m c main_v31
abbrev V_v32 (m : (ℓ : Loc nD τ sig) → Buf (Elt Ideal) ℓ) (c : Dev nD) : IVec S850000 1 := A m c main_v32
abbrev V_c_7 (m : (ℓ : Loc nD τ sig) → Buf (Elt Ideal) ℓ) (c : Dev nD) : IVec S_ 32 := A m c main_c_7
abbrev V_v33 (m : (ℓ : Loc nD τ sig) → Buf (Elt Ideal) ℓ) (c : Dev nD) : IVec S850000 32 := A m c main_v33
abbrev V_v34 (m : (ℓ : Loc nD τ sig) → Buf (Elt Ideal) ℓ) (c : Dev nD) : IVec S850000 32 := A m c main_v34
abbrev V_v35 (m : (ℓ : Loc nD τ sig) → Buf (Elt Ideal) ℓ) (c : Dev nD) : IVec S850000 32 := A m c main_v35
abbrev V_v36 (m : (ℓ : Loc nD τ sig) → Buf (Elt Ideal) ℓ) (c : Dev nD) : IVec S850000x1 32 := A m c main_v36
abbrev V_v37 (m : (ℓ : Loc nD τ sig) → Buf (Elt Ideal) ℓ) (c : Dev nD) : FVec Ideal S850000x256 .f32 := A m c main_v37
abbrev V_v38 (m : (ℓ : Loc nD τ sig) → Buf (Elt Ideal) ℓ) (c : Dev nD) : FVec Ideal S850000x1 .f32 := A m c main_v38
abbrev V_v39 (m : (ℓ : Loc nD τ sig) → Buf (Elt Ideal) ℓ) (c : Dev nD) : FVec Ideal S850000x256 .f32 := A m c main_v39
abbrev V_v40 (m : (ℓ : Loc nD τ sig) → Buf (Elt Ideal) ℓ) (c : Dev nD) : FVec Ideal S850000x256 .f32 := A m c main_v40
abbrev V_cst_8 (m : (ℓ : Loc nD τ sig) → Buf (Elt Ideal) ℓ) (c : Dev nD) : FVec Ideal S_ .f32 := A m c main_cst_8
abbrev V_v41 (m : (ℓ : Loc nD τ sig) → Buf (Elt Ideal) ℓ) (c : Dev nD) : FVec Ideal S50000x256 .f32 := A m c main_v41
abbrev V_v42 (m : (ℓ : Loc nD τ sig) → Buf (Elt Ideal) ℓ) (c : Dev nD) : IVec S850000x1 32 := A m c main_v42
abbrev V_v43 (m : (ℓ : Loc nD τ sig) → Buf (Elt Ideal) ℓ) (c : Dev nD) : FVec Ideal S50000x256 .f32 := A m c main_v43
abbrev V_v44 (m : (ℓ : Loc nD τ sig) → Buf (Elt Ideal) ℓ) (c : Dev nD) : FVec Ideal S1x256 .f32 := A m c main_v44
abbrev V_v45 (m : (ℓ : Loc nD τ sig) → Buf (Elt Ideal) ℓ) (c : Dev nD) : FVec Ideal S50000x256 .f32 := A m c main_v45
abbrev V_v46 (m : (ℓ : Loc nD τ sig) → Buf (Elt Ideal) ℓ) (c : Dev nD) : FVec Ideal S50000x256 .f32 := A m c main_v46
abbrev V_call1_cst (m : (ℓ : Loc nD τ sig) → Buf (Elt Ideal) ℓ) (c : Dev nD) : FVec Ideal S_ .f32 := A m c main_call1_cst
abbrev V_call1_v0 (m : (ℓ : Loc nD τ sig) → Buf (Elt Ideal) ℓ) (c : Dev nD) : FVec Ideal S50000x256 .f32 := A m c main_call1_v0
abbrev V_v47 (m : (ℓ : Loc nD τ sig) → Buf (Elt Ideal) ℓ) (c : Dev nD) : FVec Ideal S50000x256 .f32 := A m c main_v47
abbrev V_v48 (m : (ℓ : Loc nD τ sig) → Buf (Elt Ideal) ℓ) (c : Dev nD) : FVec Ideal S50000x256 .f32 := A m c main_v48
abbrev V_c_9 (m : (ℓ : Loc nD τ sig) → Buf (Elt Ideal) ℓ) (c : Dev nD) : IVec S_ 32 := A m c main_c_9
abbrev V_v49 (m : (ℓ : Loc nD τ sig) → Buf (Elt Ideal) ℓ) (c : Dev nD) : IVec S850000 32 := A m c main_v49
abbrev V_v50 (m : (ℓ : Loc nD τ sig) → Buf (Elt Ideal) ℓ) (c : Dev nD) : IVec S850000 1 := A m c main_v50
abbrev V_c_10 (m : (ℓ : Loc nD τ sig) → Buf (Elt Ideal) ℓ) (c : Dev nD) : IVec S_ 32 := A m c main_c_10
abbrev V_v51 (m : (ℓ : Loc nD τ sig) → Buf (Elt Ideal) ℓ) (c : Dev nD) : IVec S850000 32 := A m c main_v51
abbrev V_v52 (m : (ℓ : Loc nD τ sig) → Buf (Elt Ideal) ℓ) (c : Dev nD) : IVec S850000 32 := A m c main_v52
abbrev V_v53 (m : (ℓ : Loc nD τ sig) → Buf (Elt Ideal) ℓ) (c : Dev nD) : IVec S850000 32 := A m c main_v53
abbrev V_v54 (m : (ℓ : Loc nD τ sig) → Buf (Elt Ideal) ℓ) (c : Dev nD) : IVec S850000x1 32 := A m c main_v54
abbrev V_v55 (m : (ℓ : Loc nD τ sig) → Buf (Elt Ideal) ℓ) (c : Dev nD) : FVec Ideal S850000x256 .f32 := A m c main_v55
abbrev V_v56 (m : (ℓ : Loc nD τ sig) → Buf (Elt Ideal) ℓ) (c : Dev nD) : FVec Ideal S850000x1 .f32 := A m c main_v56
abbrev V_v57 (m : (ℓ : Loc nD τ sig) → Buf (Elt Ideal) ℓ) (c : Dev nD) : FVec Ideal S850000x256 .f32 := A m c main_v57
abbrev V_v58 (m : (ℓ : Loc nD τ sig) → Buf (Elt Ideal) ℓ) (c : Dev nD) : FVec Ideal S850000x256 .f32 := A m c main_v58
abbrev V_cst_11 (m : (ℓ : Loc nD τ sig) → Buf (Elt Ideal) ℓ) (c : Dev nD) : FVec Ideal S_ .f32 := A m c main_cst_11
abbrev V_v59 (m : (ℓ : Loc nD τ sig) → Buf (Elt Ideal) ℓ) (c : Dev nD) : FVec Ideal S50000x256 .f32 := A m c main_v59
abbrev V_v60 (m : (ℓ : Loc nD τ sig) → Buf (Elt Ideal) ℓ) (c : Dev nD) : IVec S850000x1 32 := A m c main_v60
abbrev V_v61 (m : (ℓ : Loc nD τ sig) → Buf (Elt Ideal) ℓ) (c : Dev nD) : FVec Ideal S50000x256 .f32 := A m c main_v61
abbrev V_v62 (m : (ℓ : Loc nD τ sig) → Buf (Elt Ideal) ℓ) (c : Dev nD) : FVec Ideal S1x256 .f32 := A m c main_v62
abbrev V_v63 (m : (ℓ : Loc nD τ sig) → Buf (Elt Ideal) ℓ) (c : Dev nD) : FVec Ideal S50000x256 .f32 := A m c main_v63
abbrev V_v64 (m : (ℓ : Loc nD τ sig) → Buf (Elt Ideal) ℓ) (c : Dev nD) : FVec Ideal S50000x256 .f32 := A m c main_v64
abbrev V_call2_cst (m : (ℓ : Loc nD τ sig) → Buf (Elt Ideal) ℓ) (c : Dev nD) : FVec Ideal S_ .f32 := A m c main_call2_cst
abbrev V_call2_v0 (m : (ℓ : Loc nD τ sig) → Buf (Elt Ideal) ℓ) (c : Dev nD) : FVec Ideal S50000x256 .f32 := A m c main_call2_v0
abbrev V_v65 (m : (ℓ : Loc nD τ sig) → Buf (Elt Ideal) ℓ) (c : Dev nD) : FVec Ideal S50000x256 .f32 := A m c main_v65
abbrev V_v66 (m : (ℓ : Loc nD τ sig) → Buf (Elt Ideal) ℓ) (c : Dev nD) : FVec Ideal S50000x2 .f32 := A m c main_v66
abbrev V_v67 (m : (ℓ : Loc nD τ sig) → Buf (Elt Ideal) ℓ) (c : Dev nD) : FVec Ideal S1x2 .f32 := A m c main_v67
abbrev V_v68 (m : (ℓ : Loc nD τ sig) → Buf (Elt Ideal) ℓ) (c : Dev nD) : FVec Ideal S50000x2 .f32 := A m c main_v68
abbrev V_v69 (m : (ℓ : Loc nD τ sig) → Buf (Elt Ideal) ℓ) (c : Dev nD) : FVec Ideal S50000x2 .f32 := A m c main_v69
abbrev V_call3_cst (m : (ℓ : Loc nD τ sig) → Buf (Elt Ideal) ℓ) (c : Dev nD) : FVec Ideal S_ .f32 := A m c main_call3_cst
abbrev V_call3_v0 (m : (ℓ : Loc nD τ sig) → Buf (Elt Ideal) ℓ) (c : Dev nD) : FVec Ideal S50000 .f32 := A m c main_call3_v0
abbrev V_call3_cst_0 (m : (ℓ : Loc nD τ sig) → Buf (Elt Ideal) ℓ) (c : Dev nD) : FVec Ideal S_ .f32 := A m c main_call3_cst_0
abbrev V_call3_v1 (m : (ℓ : Loc nD τ sig) → Buf (Elt Ideal) ℓ) (c : Dev nD) : FVec Ideal S50000 .f32 := A m c main_call3_v1
abbrev V_call3_v2 (m : (ℓ : Loc nD τ sig) → Buf (Elt Ideal) ℓ) (c : Dev nD) : FVec Ideal S50000 .f32 := A m c main_call3_v2
abbrev V_call3_v3 (m : (ℓ : Loc nD τ sig) → Buf (Elt Ideal) ℓ) (c : Dev nD) : FVec Ideal S50000x1 .f32 := A m c main_call3_v3
abbrev V_call3_v4 (m : (ℓ : Loc nD τ sig) → Buf (Elt Ideal) ℓ) (c : Dev nD) : FVec Ideal S50000x2 .f32 := A m c main_call3_v4
abbrev V_call3_v5 (m : (ℓ : Loc nD τ sig) → Buf (Elt Ideal) ℓ) (c : Dev nD) : FVec Ideal S50000x2 .f32 := A m c main_call3_v5
abbrev V_call3_v6 (m : (ℓ : Loc nD τ sig) → Buf (Elt Ideal) ℓ) (c : Dev nD) : FVec Ideal S50000x2 .f32 := A m c main_call3_v6
abbrev V_call3_cst_1 (m : (ℓ : Loc nD τ sig) → Buf (Elt Ideal) ℓ) (c : Dev nD) : FVec Ideal S_ .f32 := A m c main_call3_cst_1
abbrev V_call3_v7 (m : (ℓ : Loc nD τ sig) → Buf (Elt Ideal) ℓ) (c : Dev nD) : FVec Ideal S50000 .f32 := A m c main_call3_v7
abbrev V_call3_v8 (m : (ℓ : Loc nD τ sig) → Buf (Elt Ideal) ℓ) (c : Dev nD) : FVec Ideal S50000x1 .f32 := A m c main_call3_v8
abbrev V_call3_v9 (m : (ℓ : Loc nD τ sig) → Buf (Elt Ideal) ℓ) (c : Dev nD) : FVec Ideal S50000x1 .f32 := A m c main_call3_v9
abbrev V_call3_v10 (m : (ℓ : Loc nD τ sig) → Buf (Elt Ideal) ℓ) (c : Dev nD) : FVec Ideal S50000x2 .f32 := A m c main_call3_v10
abbrev V_v70 (m : (ℓ : Loc nD τ sig) → Buf (Elt Ideal) ℓ) (c : Dev nD) : FVec Ideal S50000x2 .f32 := A m c main_v70

/-! ## The index columns, the inverse square roots of the degrees, the layers and the head -/

/-- The source words: row 0 of the edge list, then the node numbers. -/
theorem srcWords_eq (m : (ℓ : Loc nD τ sig) → Buf (Elt Ideal) ℓ) (c : Dev nD) : A m c main_v3 = concatenate S850000 0 [⟨S800000, shapeCast S800000 (extractStridedSlice S1x800000 ![0, 0] (V_arg1 m c) slices_S2x800000_S1x800000_0_0) shapeCasts_S1x800000_S800000⟩, ⟨S50000, iotaInDim S50000 32 0⟩] concatenates_S800000_S50000_S850000_d0 := by
  rw [st_v3, st_v2, st_v1, st_v0] <;> rfl

/-- The destination words: row 1 of the edge list, then the node numbers. -/
theorem dstWords_eq (m : (ℓ : Loc nD τ sig) → Buf (Elt Ideal) ℓ) (c : Dev nD) : A m c main_v6 = concatenate S850000 0 [⟨S800000, shapeCast S800000 (extractStridedSlice S1x800000 ![1, 0] (V_arg1 m c) slices_S2x800000_S1x800000_1_0) shapeCasts_S1x800000_S800000⟩, ⟨S50000, iotaInDim S50000 32 0⟩] concatenates_S800000_S50000_S850000_d0 := by
  rw [st_v6, st_v5, st_v4, st_v0] <;> rfl

theorem v20_eq (m : (ℓ : Loc nD τ sig) → Buf (Elt Ideal) ℓ) (c : Dev nD) : A m c main_v20 = broadcastInDim S850000x1 ![0] bcast_S850000_S850000x1_0 (select (cmpi .slt (V_v3 m c) (broadcastInDim S850000 ![] bcast_S_S850000 (constantI S_ 32 0#32))) (addi (V_v3 m c) (broadcastInDim S850000 ![] bcast_S_S850000 (constantI S_ 32 50000#32))) (V_v3 m c)) := by
  rw [st_v20, st_v19, st_v16, st_v15, st_c, st_v18, st_v17, st_c_3] <;> rfl
theorem v36_eq (m : (ℓ : Loc nD τ sig) → Buf (Elt Ideal) ℓ) (c : Dev nD) : A m c main_v36 = broadcastInDim S850000x1 ![0] bcast_S850000_S850000x1_0 (select (cmpi .slt (V_v3 m c) (broadcastInDim S850000 ![] bcast_S_S850000 (constantI S_ 32 0#32))) (addi (V_v3 m c) (broadcastInDim S850000 ![] bcast_S_S850000 (constantI S_ 32 50000#32))) (V_v3 m c)) := by
  rw [st_v36, st_v35, st_v32, st_v31, st_c_6, st_v34, st_v33, st_c_7] <;> rfl
theorem v54_eq (m : (ℓ : Loc nD τ sig) → Buf (Elt Ideal) ℓ) (c : Dev nD) : A m c main_v54 = broadcastInDim S850000x1 ![0] bcast_S850000_S850000x1_0 (select (cmpi .slt (V_v3 m c) (broadcastInDim S850000 ![] bcast_S_S850000 (constantI S_ 32 0#32))) (addi (V_v3 m c) (broadcastInDim S850000 ![] bcast_S_S850000 (constantI S_ 32 50000#32))) (V_v3 m c)) := by
  rw [st_v54, st_v53, st_v50, st_v49, st_c_9, st_v52, st_v51, st_c_10] <;> rfl
theorem v27_eq (m : (ℓ : Loc nD τ sig) → Buf (Elt Ideal) ℓ) (c : Dev nD) : A m c main_v27 = broadcastInDim S850000x1 ![0] bcast_S850000_S850000x1_0 (select (cmpi .slt (V_v6 m c) (broadcastInDim S850000 ![] bcast_S_S850000 (constantI S_ 32 0#32))) (addi (V_v6 m c) (broadcastInDim S850000 ![] bcast_S_S850000 (constantI S_ 32 50000#32))) (V_v6 m c)) := by
  rw [st_v27, st_v26, st_v23, st_v22, st_c_4, st_v25, st_v24, st_c_5] <;> rfl

/-- The three source columns the gathers read are one column: the source words, a negative one moved up by the
    number of nodes, laid as a column. -/
theorem srcCol (m : (ℓ : Loc nD τ sig) → Buf (Elt Ideal) ℓ) (c : Dev nD) :
    A m c main_v20 = A m c main_v36 ∧ A m c main_v36 = A m c main_v54
    ∧ A m c main_v36 = broadcastInDim S850000x1 ![0] bcast_S850000_S850000x1_0 (select (cmpi .slt (V_v3 m c) (broadcastInDim S850000 ![] bcast_S_S850000 (constantI S_ 32 0#32))) (addi (V_v3 m c) (broadcastInDim S850000 ![] bcast_S_S850000 (constantI S_ 32 50000#32))) (V_v3 m c))
    ∧ A m c main_v3 = concatenate S850000 0 [⟨S800000, shapeCast S800000 (extractStridedSlice S1x800000 ![0, 0] (V_arg1 m c) slices_S2x800000_S1x800000_0_0) shapeCasts_S1x800000_S800000⟩, ⟨S50000, iotaInDim S50000 32 0⟩] concatenates_S800000_S50000_S850000_d0 :=
  ⟨(v20_eq m c).trans (v36_eq m c).symm, (v36_eq m c).trans (v54_eq m c).symm, v36_eq m c, srcWords_eq m c⟩

/-- The three destination columns the scatters read are one column: the destination words laid as a column,
    unwrapped; the column the weight's gather reads is the wrapped one. -/
theorem dstCol (m : (ℓ : Loc nD τ sig) → Buf (Elt Ideal) ℓ) (c : Dev nD) :
    A m c main_v9 = A m c main_v42 ∧ A m c main_v42 = A m c main_v60
    ∧ A m c main_v9 = broadcastInDim S850000x1 ![0] bcast_S850000_S850000x1_0 (V_v6 m c)
    ∧ A m c main_v27 = broadcastInDim S850000x1 ![0] bcast_S850000_S850000x1_0 (select (cmpi .slt (V_v6 m c) (broadcastInDim S850000 ![] bcast_S_S850000 (constantI S_ 32 0#32))) (addi (V_v6 m c) (broadcastInDim S850000 ![] bcast_S_S850000 (constantI S_ 32 50000#32))) (V_v6 m c))
    ∧ A m c main_v6 = concatenate S850000 0 [⟨S800000, shapeCast S800000 (extractStridedSlice S1x800000 ![1, 0] (V_arg1 m c) slices_S2x800000_S1x800000_1_0) shapeCasts_S1x800000_S800000⟩, ⟨S50000, iotaInDim S50000 32 0⟩] concatenates_S800000_S50000_S850000_d0 :=
  ⟨(st_v9 m c).trans (st_v42 m c).symm, (st_v42 m c).trans (st_v60 m c).symm, st_v9 m c, v27_eq m c, dstWords_eq m c⟩

/-- The inverse square root of the degree where the degree is positive, zero elsewhere; the degree is the sum, from
    zero, of one per edge whose destination is the node. -/
theorem dinv (m : (ℓ : Loc nD τ sig) → Buf (Elt Ideal) ℓ) (c : Dev nD) :
    A m c main_v14 = select (cmpf .ogt (Host.scatterAdd scatter_S50000_S850000x1_S850000_n_0_0_1 (broadcastInDim S50000 ![] bcast_S_S50000 (constant (F := Ideal) S_ .f32 0x00000000#32)) (V_v9 m c) (broadcastInDim S850000 ![] bcast_S_S850000 (constant (F := Ideal) S_ .f32 0x3F800000#32))) (broadcastInDim S50000 ![] bcast_S_S50000 (constant (F := Ideal) S_ .f32 0x00000000#32))) (Host.rsqrt (Host.scatterAdd scatter_S50000_S850000x1_S850000_n_0_0_1 (broadcastInDim S50000 ![] bcast_S_S50000 (constant (F := Ideal) S_ .f32 0x00000000#32)) (V_v9 m c) (broadcastInDim S850000 ![] bcast_S_S850000 (constant (F := Ideal) S_ .f32 0x3F800000#32)))) (broadcastInDim S50000 ![] bcast_S_S50000 (id (constant (F := Ideal) S_ .f32 0x00000000#32))) := by
  rw [st_v14, st_v12, st_v13, st_call0_v1, st_call0_v0, st_cst_2, st_v10, st_v11, st_cst_1, st_v8, st_cst_0, st_v7, st_cst] <;> rfl

/-- The weight of an edge: the inverse square roots at its source and at its destination, multiplied. -/
theorem edgeWeight (m : (ℓ : Loc nD τ sig) → Buf (Elt Ideal) ℓ) (c : Dev nD) :
    A m c main_v29 = mulf (Host.gather gather_S50000_S850000x1_S850000_n_0_n_n_0_1_1 (V_v14 m c) (V_v20 m c)) (Host.gather gather_S50000_S850000x1_S850000_n_0_n_n_0_1_1 (V_v14 m c) (V_v27 m c)) := by
  rw [st_v29, st_v21, st_v28] <;> rfl

/-- The first layer. -/
theorem layer1 (m : (ℓ : Loc nD τ sig) → Buf (Elt Ideal) ℓ) (c : Dev nD) :
    A m c main_v47 = maximumf (addf (Host.scatterAdd scatter_S50000x256_S850000x1_S850000x256_1_0_0_1 (broadcastInDim S50000x256 ![] bcast_S_S50000x256 (constant (F := Ideal) S_ .f32 0x00000000#32)) (V_v42 m c) (mulf (Host.gather gather_S50000x256_S850000x1_S850000x256_1_0_n_n_0_1_1256 (Host.dotGeneral dot_S50000x256_S256x256_S50000x256_1_0_0_1_n_n none (V_arg0 m c) (V_arg2 m c)) (V_v36 m c)) (broadcastInDim S850000x256 ![0, 1] bcast_S850000x1_S850000x256_0_1 (broadcastInDim S850000x1 ![0] bcast_S850000_S850000x1_0 (V_v29 m c))))) (broadcastInDim S50000x256 ![0, 1] bcast_S1x256_S50000x256_0_1 (broadcastInDim S1x256 ![1] bcast_S256_S1x256_1 (V_arg3 m c)))) (broadcastInDim S50000x256 ![] bcast_S_S50000x256 (constant (F := Ideal) S_ .f32 0x00000000#32)) := by
  rw [st_v47, st_v46, st_v43, st_v41, st_cst_8, st_v40, st_v37, st_v30, st_v39, st_v38, st_v45, st_v44, st_call1_v0, st_call1_cst] <;> rfl

/-- The second layer. -/
theorem layer2 (m : (ℓ : Loc nD τ sig) → Buf (Elt Ideal) ℓ) (c : Dev nD) :
    A m c main_v65 = maximumf (addf (Host.scatterAdd scatter_S50000x256_S850000x1_S850000x256_1_0_0_1 (broadcastInDim S50000x256 ![] bcast_S_S50000x256 (constant (F := Ideal) S_ .f32 0x00000000#32)) (V_v60 m c) (mulf (Host.gather gather_S50000x256_S850000x1_S850000x256_1_0_n_n_0_1_1256 (Host.dotGeneral dot_S50000x256_S256x256_S50000x256_1_0_0_1_n_n none (V_v47 m c) (V_arg4 m c)) (V_v54 m c)) (broadcastInDim S850000x256 ![0, 1] bcast_S850000x1_S850000x256_0_1 (broadcastInDim S850000x1 ![0] bcast_S850000_S850000x1_0 (V_v29 m c))))) (broadcastInDim S50000x256 ![0, 1] bcast_S1x256_S50000x256_0_1 (broadcastInDim S1x256 ![1] bcast_S256_S1x256_1 (V_arg5 m c)))) (broadcastInDim S50000x256 ![] bcast_S_S50000x256 (constant (F := Ideal) S_ .f32 0x00000000#32)) := by
  rw [st_v65, st_v64, st_v61, st_v59, st_cst_11, st_v58, st_v55, st_v48, st_v57, st_v56, st_v63, st_v62, st_call2_v0, st_call2_cst] <;> rfl

/-- The head: the log-softmax of each row of the two logits. -/
theorem head (m : (ℓ : Loc nD τ sig) → Buf (Elt Ideal) ℓ) (c : Dev nD) :
    A m c main_v70 = subf (subf (addf (Host.dotGeneral dot_S50000x256_S256x2_S50000x2_1_0_0_1_n_n none (V_v65 m c) (V_arg6 m c)) (broadcastInDim S50000x2 ![0, 1] bcast_S1x2_S50000x2_0_1 (broadcastInDim S1x2 ![1] bcast_S2_S1x2_1 (V_arg7 m c)))) (broadcastInDim S50000x2 ![0, 1] bcast_S50000x1_S50000x2_0_1 (broadcastInDim S50000x1 ![0] bcast_S50000_S50000x1_0 (maximumf (broadcastInDim S50000 ![] bcast_S_S50000 (constant (F := Ideal) S_ .f32 0xFF800000#32)) (Host.reduce FloatOps.maximumf (addf (Host.dotGeneral dot_S50000x256_S256x2_S50000x2_1_0_0_1_n_n none (V_v65 m c) (V_arg6 m c)) (broadcastInDim S50000x2 ![0, 1] bcast_S1x2_S50000x2_0_1 (broadcastInDim S1x2 ![1] bcast_S2_S1x2_1 (V_arg7 m c)))) (constant (F := Ideal) S_ .f32 0xFF800000#32) reducesTo_S50000x2_S50000_d1 h_S_))))) (broadcastInDim S50000x2 ![0, 1] bcast_S50000x1_S50000x2_0_1 (Host.log (broadcastInDim S50000x1 ![0] bcast_S50000_S50000x1_0 (Host.reduceAdd (Host.exp (subf (addf (Host.dotGeneral dot_S50000x256_S256x2_S50000x2_1_0_0_1_n_n none (V_v65 m c) (V_arg6 m c)) (broadcastInDim S50000x2 ![0, 1] bcast_S1x2_S50000x2_0_1 (broadcastInDim S1x2 ![1] bcast_S2_S1x2_1 (V_arg7 m c)))) (broadcastInDim S50000x2 ![0, 1] bcast_S50000x1_S50000x2_0_1 (broadcastInDim S50000x1 ![0] bcast_S50000_S50000x1_0 (maximumf (broadcastInDim S50000 ![] bcast_S_S50000 (constant (F := Ideal) S_ .f32 0xFF800000#32)) (Host.reduce FloatOps.maximumf (addf (Host.dotGeneral dot_S50000x256_S256x2_S50000x2_1_0_0_1_n_n none (V_v65 m c) (V_arg6 m c)) (broadcastInDim S50000x2 ![0, 1] bcast_S1x2_S50000x2_0_1 (broadcastInDim S1x2 ![1] bcast_S2_S1x2_1 (V_arg7 m c)))) (constant (F := Ideal) S_ .f32 0xFF800000#32) reducesTo_S50000x2_S50000_d1 h_S_)))))) (constant (F := Ideal) S_ .f32 0x00000000#32) reducesTo_S50000x2_S50000_d1 h_S_)))) := by
  rw [st_v70, st_call3_v10, st_call3_v9, st_call3_v8, st_call3_v7, st_call3_cst_1, st_call3_v6, st_call3_v5, st_call3_v4, st_call3_v3, st_call3_v2, st_call3_v1, st_call3_cst_0, st_call3_v0, st_call3_cst, st_v69, st_v66, st_v68, st_v67] <;> rfl

end Cert.ReferenceIdeal.RefValue

end
-- ==== Proof.RTerms.lean ====
/-
  The host-side terms of the idealized reference, as functions of the edge list, and the reference's result as ONE
  function of its eight arguments.

  From the edge list: every edge's source and destination word (the self loops appended), the destination words as
  the column the scatter reads, a column of words wrapped (a negative word moved up by the number of nodes) as the
  gathers read it, the degree of every node (from zero, one per edge that reaches it), and the inverse square root of
  the degree where it is positive, zero elsewhere.
  The result: one layer weights every edge by the inverse square roots at its source and at its destination, adds
  the weighted rows of (features · weights) per destination from zero, adds the bias and clips at zero; two layers,
  then the head.
-/
import proofs.«122100_j8770323219094_2_alg».proof.Proof.Gen.ReferenceIdeal
import proofs.«122100_j8770323219094_2_alg».proof.Proof.Spec

noncomputable section

namespace Cert.ReferenceIdeal.RTerms

open Cert.ReferenceIdeal Cert.ReferenceIdeal.Gen
open Idealize.ShloMosaic Idealize.ShloMosaic.ValueIdx

/-! ## The host terms: the edge words, the degrees, the inverse square roots -/

/-- Every edge's source word: row 0 of the edge list, then the node numbers (the self loops). -/
def srcWords (ei : IVec S2x800000 32) : IVec S850000 32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

/-- Every edge's destination word: row 1 of the edge list, then the node numbers. -/
def dstWords (ei : IVec S2x800000 32) : IVec S850000 32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

/-- A column of words with the negative ones moved up by the number of nodes. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The destination words as a column, as the scatter reads them. -/
def dstCol (ei : IVec S2x800000 32) : IVec S850000x1 32 :=
  broadcastInDim S850000x1 ![0] bcast_S850000_S850000x1_0 (dstWords ei)

/-- The source words, wrapped, as a column, as the gather reads them. -/
def srcCol (ei : IVec S2x800000 32) : IVec S850000x1 32 := wrapCol (srcWords ei)

/-- The degree of every node: from zero, one for every edge that reaches it. -/
def degrees (ei : IVec S2x800000 32) : FVec Ideal S50000 .f32 :=
  Host.scatterAdd scatter_S50000_S850000x1_S850000_n_0_0_1
    (broadcastInDim S50000 ![] bcast_S_S50000 (constant (F := Ideal) S_ .f32 0x00000000#32)) (dstCol ei)
    (broadcastInDim S850000 ![] bcast_S_S850000 (constant (F := Ideal) S_ .f32 0x3F800000#32))

/-- The inverse square root of the degree where the degree is positive, zero elsewhere. -/
def dinvVec (ei : IVec S2x800000 32) : FVec Ideal S50000 .f32 :=
  select (cmpf .ogt (degrees ei) (broadcastInDim S50000 ![] bcast_S_S50000 (constant (F := Ideal) S_ .f32 0x00000000#32)))
    (Host.rsqrt (degrees ei))
    (broadcastInDim S50000 ![] bcast_S_S50000 (id (constant (F := Ideal) S_ .f32 0x00000000#32)))

/-! ## The result -/

/-- The idealized reference's result as one function of its arguments: two edge-weighted layers, then the head. -/
def refOut (x : FVec Ideal S50000x256 .f32) (ei : IVec S2x800000 32) (w1 : FVec Ideal S256x256 .f32) (b1 : FVec Ideal S256 .f32)
    (w2 : FVec Ideal S256x256 .f32) (b2 : FVec Ideal S256 .f32) (wfc : FVec Ideal S256x2 .f32) (bfc : FVec Ideal S2 .f32) :
    FVec Ideal S50000x2 .f32 :=
  Cert.Gcn.head
    (Cert.Gcn.edgeWeighted (dstCol ei) (srcCol ei) (wrapCol (dstWords ei)) (fun v => dinvVec ei (ix1 v))
      (Cert.Gcn.edgeWeighted (dstCol ei) (srcCol ei) (wrapCol (dstWords ei)) (fun v => dinvVec ei (ix1 v))
        x w1 (fun k => b1 (ix1 k)))
      w2 (fun k => b2 (ix1 k)))
    wfc (fun j => bfc (ix1 j))

end Cert.ReferenceIdeal.RTerms

end
-- ==== Proof.HostEdgeLayer.lean ====
/-
  ONE LAYER OF THE EDGE-WEIGHTED ARRANGEMENT, READ AS MATHEMATICS.

  With `d` a vector of one number per node, each edge `e` gets the weight
    `d (clampRow sI' e) * d (clampRow wdI e)`,
  the product `A · W` is gathered along the source column `sI` (each source word read signed and clamped into the
  node range), row `e` of the gathered matrix is multiplied by the weight of `e`, the weighted rows are added
  onto a zero matrix at the rows the destination column `dI` names (read signed, an edge whose destination is not
  a node dropped), the bias vector is added to every row and the result is clipped below at zero.  At node `v`
  and feature `c` this is
    `max ((0 + ∑ e ∈ hits dI v, (A · W) (clampRow sI e, c) * (d (clampRow sI e) * d (clampRow wdI e))) + b c) 0`,
  the specification's `edgeWeighted`, as soon as the column `sI'` from which the weight reads the source agrees
  with `sI` word by word.  The statement is over arbitrary dimension records whose lists are those of a row
  scatter, a row gather of a matrix, a row gather of a vector and a plain matrix product, and over arbitrary proofs
  of the broadcasts' side conditions.
-/
import Idealize.ShloMosaic.PureOps.Ideal
import Idealize.ShloMosaic.Lib.ValueIdx
import Idealize.ShloMosaic.Lib.IdealHost
import proofs.«122100_j8770323219094_2_alg».proof.Proof.Spec
import proofs.«122100_j8770323219094_2_alg».proof.Proof.LibHostScatterIdeal
import proofs.«122100_j8770323219094_2_alg».proof.Proof.LibScatterRows
import proofs.«122100_j8770323219094_2_alg».proof.Proof.LibGatherRows
import proofs.«122100_j8770323219094_2_alg».proof.Proof.LibDotRows
import proofs.«122100_j8770323219094_2_alg».proof.Proof.LibHostLayout

noncomputable section

open scoped BigOperators
open Idealize.ShloMosaic Idealize.ShloMosaic.ValueIdx

namespace Cert.Gcn

/-- Two index columns that agree word by word name the same clamped rows. -/
theorem clampRow_congr (sI' sI : EdgeCol) (hs : ∀ e : Fin 850000, sI' (ix2 e 0) = sI (ix2 e 0)) (e : Fin 850000) :
    clampRow sI' e = clampRow sI e := by
  refine Fin.ext ?_
  show min (sI' (ix2 e 0)).toInt.toNat (50000 - 1) = min (sI (ix2 e 0)).toInt.toNat (50000 - 1)
  rw [hs e]

/-- The gather of a vector along an index column reads the vector at the clamped row. -/
theorem gather_vec_clampRow
    (g1 : GatherDims ⟨1, ![50000]⟩ ⟨2, ![850000, 1]⟩ ⟨1, ![850000]⟩)
    (h1od : g1.offsetDims = []) (h1cd : g1.collapsedSliceDims = [0]) (h1ob : g1.operandBatchingDims = [])
    (h1sm : g1.startIndexMap = [0]) (h1iv : g1.indexVectorDim = 1) (h1ss : g1.sliceSizes = ![1])
    (x : FVec Ideal ⟨1, ![50000]⟩ .f32) (idx : EdgeCol) (e : Fin 850000) :
    Host.gather g1 x idx (ix1 e) = x (ix1 (clampRow idx e)) :=
  GatherRows.gather_rows1 (N := 50000) (E := 850000) g1 (by omega) h1od h1cd h1ob h1sm h1iv h1ss x idx e

/-- The gather of the product `A · W` along an index column reads the product's clamped row. -/
theorem gather_dot_clampRow
    (gd : GatherDims ⟨2, ![50000, 256]⟩ ⟨2, ![850000, 1]⟩ ⟨2, ![850000, 256]⟩)
    (hod : gd.offsetDims = [1]) (hcd : gd.collapsedSliceDims = [0]) (hob : gd.operandBatchingDims = [])
    (hsm : gd.startIndexMap = [0]) (hgiv : gd.indexVectorDim = 1) (hss : gd.sliceSizes = ![1, 256])
    (dd : DotDims ⟨2, ![50000, 256]⟩ ⟨2, ![256, 256]⟩ ⟨2, ![50000, 256]⟩)
    (hr : dd.contr.rank = 1) (hsz : dd.contr.size ⟨0, by omega⟩ = 256)
    (hl0 : ∀ j k, (dd.lhsIdx j k 0).val = (j 0).val)
    (hl1 : ∀ j k, (dd.lhsIdx j k 1).val = (k ⟨0, by omega⟩).val)
    (hr0 : ∀ j k, (dd.rhsIdx j k 0).val = (k ⟨0, by omega⟩).val)
    (hr1 : ∀ j k, (dd.rhsIdx j k 1).val = (j 1).val)
    (A : FVec Ideal ⟨2, ![50000, 256]⟩ .f32) (W : FVec Ideal ⟨2, ![256, 256]⟩ .f32)
    (sI : EdgeCol) (e : Fin 850000) (q : Fin 256) :
    Host.gather gd (Host.dotGeneral dd none A W) sI (ix2 e q) = prod A W (clampRow sI e) q :=
  (GatherRows.gather_rows2 (N := 50000) (J := 256) (E := 850000) gd (by omega) hod hcd hob hsm hgiv hss
      (Host.dotGeneral dd none A W) sI e q).trans
    (dotGeneral_rows dd none .single hr hsz hl0 hl1 hr0 hr1 A W (clampRow sI e) q)

/-- A zero matrix scattered onto by the rows of `u`, read at node `p` and feature `q`: zero plus the sum of
    `u (e, q)` over the edges `e` that hit `p`. -/
theorem scatter_zero_apply
    (sd : ScatterDims ⟨2, ![50000, 256]⟩ ⟨2, ![850000, 1]⟩ ⟨2, ![850000, 256]⟩)
    (huw : sd.updateWindowDims = [1]) (hiw : sd.insertedWindowDims = [0])
    (hsd : sd.scatterDimsToOperandDims = [0]) (hiv : sd.indexVectorDim = 1)
    (hbz : (⟨0, ![]⟩ : Shape).BroadcastsInDim ⟨2, ![50000, 256]⟩ (![] : Fin 0 → Fin 2))
    (dI : EdgeCol) (u : FVec Ideal ⟨2, ![850000, 256]⟩ .f32) (p : Fin 50000) (q : Fin 256) :
    Host.scatterAdd sd
        (broadcastInDim ⟨2, ![50000, 256]⟩ ![] hbz (constant (F := Ideal) ⟨0, ![]⟩ .f32 0x00000000#32)) dI u (ix2 p q)
      = 0 + ∑ e ∈ hits dI p, u (ix2 e q) := by
  rw [Host.scatterAdd_ideal]
  refine (ScatterRows.hostScatterAdd_rows2 (N := 50000) (E := 850000) (F := 256) sd huw hiw hsd hiv _ dI u p q).trans ?_
  refine congrArg₂ (· + ·) ?_ rfl
  rw [broadcastInDim_scalar_apply, constant_apply, Ideal.ofBits_zero_f32]

/-- The weighted row an edge carries, read at edge `e` and feature `q`. -/
theorem edge_msg_apply
    (g1 : GatherDims ⟨1, ![50000]⟩ ⟨2, ![850000, 1]⟩ ⟨1, ![850000]⟩)
    (h1od : g1.offsetDims = []) (h1cd : g1.collapsedSliceDims = [0]) (h1ob : g1.operandBatchingDims = [])
    (h1sm : g1.startIndexMap = [0]) (h1iv : g1.indexVectorDim = 1) (h1ss : g1.sliceSizes = ![1])
    (gd : GatherDims ⟨2, ![50000, 256]⟩ ⟨2, ![850000, 1]⟩ ⟨2, ![850000, 256]⟩)
    (hod : gd.offsetDims = [1]) (hcd : gd.collapsedSliceDims = [0]) (hob : gd.operandBatchingDims = [])
    (hsm : gd.startIndexMap = [0]) (hgiv : gd.indexVectorDim = 1) (hss : gd.sliceSizes = ![1, 256])
    (dd : DotDims ⟨2, ![50000, 256]⟩ ⟨2, ![256, 256]⟩ ⟨2, ![50000, 256]⟩)
    (hr : dd.contr.rank = 1) (hsz : dd.contr.size ⟨0, by omega⟩ = 256)
    (hl0 : ∀ j k, (dd.lhsIdx j k 0).val = (j 0).val)
    (hl1 : ∀ j k, (dd.lhsIdx j k 1).val = (k ⟨0, by omega⟩).val)
    (hr0 : ∀ j k, (dd.rhsIdx j k 0).val = (k ⟨0, by omega⟩).val)
    (hr1 : ∀ j k, (dd.rhsIdx j k 1).val = (j 1).val)
    (hbn1 : (⟨1, ![850000]⟩ : Shape).BroadcastsInDim ⟨2, ![850000, 1]⟩ ![0])
    (hbn2 : (⟨2, ![850000, 1]⟩ : Shape).BroadcastsInDim ⟨2, ![850000, 256]⟩ ![0, 1])
    (dinv : FVec Ideal ⟨1, ![50000]⟩ .f32) (sI' wdI sI : EdgeCol)
    (hs : ∀ e : Fin 850000, sI' (ix2 e 0) = sI (ix2 e 0))
    (A : FVec Ideal ⟨2, ![50000, 256]⟩ .f32) (W : FVec Ideal ⟨2, ![256, 256]⟩ .f32)
    (e : Fin 850000) (q : Fin 256) :
    mulf (Host.gather gd (Host.dotGeneral dd none A W) sI)
        (broadcastInDim ⟨2, ![850000, 256]⟩ ![0, 1] hbn2
          (broadcastInDim ⟨2, ![850000, 1]⟩ ![0] hbn1
            (mulf (Host.gather g1 dinv sI') (Host.gather g1 dinv wdI)))) (ix2 e q)
      = prod A W (clampRow sI e) q * (dinv (ix1 (clampRow sI e)) * dinv (ix1 (clampRow wdI e))) := by
  refine (mulf_apply _ _ _).trans ?_
  refine congrArg₂ (· * ·) (gather_dot_clampRow gd hod hcd hob hsm hgiv hss dd hr hsz hl0 hl1 hr0 hr1 A W sI e q) ?_
  refine (broadcastInDim_col_apply _ hbn2 e q).trans ((broadcastInDim_vec_col_apply _ hbn1 e 0).trans ?_)
  refine (mulf_apply _ _ _).trans ?_
  refine congrArg₂ (· * ·) ?_ ?_
  · rw [gather_vec_clampRow g1 h1od h1cd h1ob h1sm h1iv h1ss, clampRow_congr sI' sI hs]
  · rw [gather_vec_clampRow g1 h1od h1cd h1ob h1sm h1iv h1ss]

/-- One layer of the edge-weighted arrangement is the specification's `edgeWeighted`. -/
theorem edge_layer_eq
    (g1 : GatherDims ⟨1, ![50000]⟩ ⟨2, ![850000, 1]⟩ ⟨1, ![850000]⟩)
    (h1od : g1.offsetDims = []) (h1cd : g1.collapsedSliceDims = [0]) (h1ob : g1.operandBatchingDims = [])
    (h1sm : g1.startIndexMap = [0]) (h1iv : g1.indexVectorDim = 1) (h1ss : g1.sliceSizes = ![1])
    (gd : GatherDims ⟨2, ![50000, 256]⟩ ⟨2, ![850000, 1]⟩ ⟨2, ![850000, 256]⟩)
    (hod : gd.offsetDims = [1]) (hcd : gd.collapsedSliceDims = [0]) (hob : gd.operandBatchingDims = [])
    (hsm : gd.startIndexMap = [0]) (hgiv : gd.indexVectorDim = 1) (hss : gd.sliceSizes = ![1, 256])
    (sd : ScatterDims ⟨2, ![50000, 256]⟩ ⟨2, ![850000, 1]⟩ ⟨2, ![850000, 256]⟩)
    (huw : sd.updateWindowDims = [1]) (hiw : sd.insertedWindowDims = [0])
    (hsd : sd.scatterDimsToOperandDims = [0]) (hiv : sd.indexVectorDim = 1)
    (dd : DotDims ⟨2, ![50000, 256]⟩ ⟨2, ![256, 256]⟩ ⟨2, ![50000, 256]⟩)
    (hr : dd.contr.rank = 1) (hsz : dd.contr.size ⟨0, by omega⟩ = 256)
    (hl0 : ∀ j k, (dd.lhsIdx j k 0).val = (j 0).val)
    (hl1 : ∀ j k, (dd.lhsIdx j k 1).val = (k ⟨0, by omega⟩).val)
    (hr0 : ∀ j k, (dd.rhsIdx j k 0).val = (k ⟨0, by omega⟩).val)
    (hr1 : ∀ j k, (dd.rhsIdx j k 1).val = (j 1).val)
    (hbz : (⟨0, ![]⟩ : Shape).BroadcastsInDim ⟨2, ![50000, 256]⟩ (![] : Fin 0 → Fin 2))
    (hbn1 : (⟨1, ![850000]⟩ : Shape).BroadcastsInDim ⟨2, ![850000, 1]⟩ ![0])
    (hbn2 : (⟨2, ![850000, 1]⟩ : Shape).BroadcastsInDim ⟨2, ![850000, 256]⟩ ![0, 1])
    (hbb1 : (⟨1, ![256]⟩ : Shape).BroadcastsInDim ⟨2, ![1, 256]⟩ ![1])
    (hbb2 : (⟨2, ![1, 256]⟩ : Shape).BroadcastsInDim ⟨2, ![50000, 256]⟩ ![0, 1])
    (dinv : FVec Ideal ⟨1, ![50000]⟩ .f32) (sI' wdI sI dI : EdgeCol)
    (hs : ∀ e : Fin 850000, sI' (ix2 e 0) = sI (ix2 e 0))
    (A : FVec Ideal ⟨2, ![50000, 256]⟩ .f32) (W : FVec Ideal ⟨2, ![256, 256]⟩ .f32)
    (b : FVec Ideal ⟨1, ![256]⟩ .f32) :
    maximumf
        (addf
          (Host.scatterAdd sd
            (broadcastInDim ⟨2, ![50000, 256]⟩ ![] hbz (constant (F := Ideal) ⟨0, ![]⟩ .f32 0x00000000#32)) dI
            (mulf (Host.gather gd (Host.dotGeneral dd none A W) sI)
              (broadcastInDim ⟨2, ![850000, 256]⟩ ![0, 1] hbn2
                (broadcastInDim ⟨2, ![850000, 1]⟩ ![0] hbn1
                  (mulf (Host.gather g1 dinv sI') (Host.gather g1 dinv wdI))))))
          (broadcastInDim ⟨2, ![50000, 256]⟩ ![0, 1] hbb2 (broadcastInDim ⟨2, ![1, 256]⟩ ![1] hbb1 b)))
        (broadcastInDim ⟨2, ![50000, 256]⟩ ![] hbz (constant (F := Ideal) ⟨0, ![]⟩ .f32 0x00000000#32))
      = edgeWeighted dI sI wdI (fun v => dinv (ix1 v)) A W (fun k => b (ix1 k)) := by
  have hzero : ∀ j : (⟨2, ![50000, 256]⟩ : Shape).Idx,
      broadcastInDim ⟨2, ![50000, 256]⟩ ![] hbz (constant (F := Ideal) ⟨0, ![]⟩ .f32 0x00000000#32) j = (0 : EReal) := by
    intro j
    rw [broadcastInDim_scalar_apply, constant_apply, Ideal.ofBits_zero_f32]
  funext i
  obtain ⟨p, q, rfl⟩ : ∃ (p : Fin 50000) (q : Fin 256), i = ix2 p q := ⟨i 0, i 1, eq_ix2 i⟩
  refine (maximumf_apply _ _ _).trans ?_
  refine congrArg₂ max ((addf_apply _ _ _).trans (congrArg₂ (· + ·) ?_ ?_)) (hzero _)
  · refine (scatter_zero_apply sd huw hiw hsd hiv hbz dI _ p q).trans ?_
    refine congrArg₂ (· + ·) rfl (Finset.sum_congr rfl fun e _ => ?_)
    exact edge_msg_apply g1 h1od h1cd h1ob h1sm h1iv h1ss gd hod hcd hob hsm hgiv hss dd hr hsz hl0 hl1 hr0 hr1
      hbn1 hbn2 dinv sI' wdI sI hs A W e q
  · exact broadcastInDim_vec_rows_apply b hbb1 hbb2 p q

end Cert.Gcn

end
-- ==== Proof.HostHead.lean ====
/-
  THE HEAD, READ AS MATHEMATICS.

  The hidden matrix times the head's 256-by-2 weights, plus the head's bias in every row, gives each node two
  logits.  The log-softmax of a row `z` of two numbers takes the row's maximum `m` (a fold of `max` from `-∞`,
  and once more the maximum with `-∞`, which changes nothing), shifts the row by it, and subtracts from the
  shifted row the logarithm of the sum, started at zero, of the exponentials of the shifted row:
    `(z j - m) - log (0 + ∑ k, exp (z k - m))`.
  This is the specification's `logSoftmax2`, and on the logits its `head`.  The statement is over an arbitrary
  dimension record whose coordinate facts are those of a plain matrix product, and over arbitrary proofs of the
  broadcasts' and the reductions' side conditions.
-/
import Idealize.ShloMosaic.PureOps.Ideal
import Idealize.ShloMosaic.Lib.ValueIdx
import Idealize.ShloMosaic.Lib.IdealHost
import proofs.«122100_j8770323219094_2_alg».proof.Proof.Spec
import proofs.«122100_j8770323219094_2_alg».proof.Proof.LibDotRows
import proofs.«122100_j8770323219094_2_alg».proof.Proof.LibHostLayout
import proofs.«122100_j8770323219094_2_alg».proof.Proof.LibRowMax

noncomputable section

open scoped BigOperators
open Idealize.ShloMosaic Idealize.ShloMosaic.ValueIdx

namespace Cert.Gcn

/-- The host's logarithm and exponential read at an index. -/
theorem hostLog_apply {s : Shape} {φ : FTy} (x : FVec Ideal s φ) (i : s.Idx) : Host.log x i = Ideal.log (x i) := rfl

theorem hostExp_apply {s : Shape} {φ : FTy} (x : FVec Ideal s φ) (i : s.Idx) : Host.exp x i = Ideal.exp (x i) := rfl

/-- The row maximum, taken once more against `-∞`, read at node `p`: the fold of `max` from `-∞` over the row. -/
theorem rowMax_apply
    (hbm : (⟨0, ![]⟩ : Shape).BroadcastsInDim ⟨1, ![50000]⟩ (![] : Fin 0 → Fin 1))
    (hbc1 : (⟨1, ![50000]⟩ : Shape).BroadcastsInDim ⟨2, ![50000, 1]⟩ ![0])
    (hbc2 : (⟨2, ![50000, 1]⟩ : Shape).BroadcastsInDim ⟨2, ![50000, 2]⟩ ![0, 1])
    (hr : (⟨2, ![50000, 2]⟩ : Shape).ReducesTo [1] (⟨1, ![50000]⟩ : Shape)) (hS : 0 < (⟨0, ![]⟩ : Shape).numel)
    (z : FVec Ideal ⟨2, ![50000, 2]⟩ .f32) (p : Fin 50000) :
    (maximumf (broadcastInDim ⟨1, ![50000]⟩ ![] hbm (constant (F := Ideal) ⟨0, ![]⟩ .f32 0xFF800000#32)) (Host.reduce FloatOps.maximumf z (constant (F := Ideal) ⟨0, ![]⟩ .f32 0xFF800000#32) hr hS)) (ix1 p)
      = Finset.univ.fold max (⊥ : EReal) (fun j : Fin 2 => z (ix2 p j)) := by
  refine (maximumf_apply _ _ _).trans ?_
  rw [broadcastInDim_scalar_apply, constant_apply, RowMax.max_ninf_left,
    RowMax.hostReduce_maximumf_rows_constant z _ hr hS p, RowMax.ofBits_ninf_f32]

/-- A matrix less a vector laid as a column and copied along the columns, read at `(p, k)`. -/
theorem sub_col_apply
    (hbc1 : (⟨1, ![50000]⟩ : Shape).BroadcastsInDim ⟨2, ![50000, 1]⟩ ![0])
    (hbc2 : (⟨2, ![50000, 1]⟩ : Shape).BroadcastsInDim ⟨2, ![50000, 2]⟩ ![0, 1])
    (z : FVec Ideal ⟨2, ![50000, 2]⟩ .f32) (m : FVec Ideal ⟨1, ![50000]⟩ .f32) (p : Fin 50000) (k : Fin 2) :
    subf z (broadcastInDim ⟨2, ![50000, 2]⟩ ![0, 1] hbc2 (broadcastInDim ⟨2, ![50000, 1]⟩ ![0] hbc1 m)) (ix2 p k) = z (ix2 p k) - m (ix1 p) := by
  refine (subf_apply _ _ _).trans ?_
  refine congrArg₂ (· - ·) rfl ?_
  exact (broadcastInDim_col_apply _ hbc2 p k).trans (broadcastInDim_vec_col_apply m hbc1 p 0)

/-- A matrix less the logarithm of its rows' sums of exponentials (each sum started at zero), read at `(p, j)`. -/
theorem sub_logSumExp_apply
    (hbc1 : (⟨1, ![50000]⟩ : Shape).BroadcastsInDim ⟨2, ![50000, 1]⟩ ![0])
    (hbc2 : (⟨2, ![50000, 1]⟩ : Shape).BroadcastsInDim ⟨2, ![50000, 2]⟩ ![0, 1])
    (hr : (⟨2, ![50000, 2]⟩ : Shape).ReducesTo [1] (⟨1, ![50000]⟩ : Shape)) (hS : 0 < (⟨0, ![]⟩ : Shape).numel)
    (s : FVec Ideal ⟨2, ![50000, 2]⟩ .f32) (p : Fin 50000) (j : Fin 2) :
    subf s (broadcastInDim ⟨2, ![50000, 2]⟩ ![0, 1] hbc2 (Host.log (broadcastInDim ⟨2, ![50000, 1]⟩ ![0] hbc1 (Host.reduceAdd (Host.exp s) (constant (F := Ideal) ⟨0, ![]⟩ .f32 0x00000000#32) hr hS)))) (ix2 p j)
      = s (ix2 p j) - Ideal.log (0 + ∑ k : Fin 2, Ideal.exp (s (ix2 p k))) := by
  refine (subf_apply _ _ _).trans ?_
  refine congrArg₂ (· - ·) rfl ?_
  refine (broadcastInDim_col_apply _ hbc2 p j).trans ?_
  refine (hostLog_apply _ _).trans (congrArg Ideal.log ?_)
  refine (broadcastInDim_vec_col_apply _ hbc1 p 0).trans ?_
  refine (hostRowSum_apply (Host.exp s) _ hr (RowMax.reduces_of_reducesTo hr) hS p).trans ?_
  refine congrArg₂ (· + ·) ?_ (Finset.sum_congr rfl fun k _ => hostExp_apply s _)
  rw [constant_apply, Ideal.ofBits_zero_f32]

/-- The log-softmax of the rows of a node-by-class matrix `z` is the specification's `logSoftmax2` of each row. -/
theorem log_softmax_eq
    (hbm : (⟨0, ![]⟩ : Shape).BroadcastsInDim ⟨1, ![50000]⟩ (![] : Fin 0 → Fin 1))
    (hbc1 : (⟨1, ![50000]⟩ : Shape).BroadcastsInDim ⟨2, ![50000, 1]⟩ ![0])
    (hbc2 : (⟨2, ![50000, 1]⟩ : Shape).BroadcastsInDim ⟨2, ![50000, 2]⟩ ![0, 1])
    (hr : (⟨2, ![50000, 2]⟩ : Shape).ReducesTo [1] (⟨1, ![50000]⟩ : Shape)) (hS : 0 < (⟨0, ![]⟩ : Shape).numel)
    (z : FVec Ideal ⟨2, ![50000, 2]⟩ .f32) :
    (subf (subf z (broadcastInDim ⟨2, ![50000, 2]⟩ ![0, 1] hbc2 (broadcastInDim ⟨2, ![50000, 1]⟩ ![0] hbc1 (maximumf (broadcastInDim ⟨1, ![50000]⟩ ![] hbm (constant (F := Ideal) ⟨0, ![]⟩ .f32 0xFF800000#32)) (Host.reduce FloatOps.maximumf z (constant (F := Ideal) ⟨0, ![]⟩ .f32 0xFF800000#32) hr hS))))) (broadcastInDim ⟨2, ![50000, 2]⟩ ![0, 1] hbc2 (Host.log (broadcastInDim ⟨2, ![50000, 1]⟩ ![0] hbc1 (Host.reduceAdd (Host.exp (subf z (broadcastInDim ⟨2, ![50000, 2]⟩ ![0, 1] hbc2 (broadcastInDim ⟨2, ![50000, 1]⟩ ![0] hbc1 (maximumf (broadcastInDim ⟨1, ![50000]⟩ ![] hbm (constant (F := Ideal) ⟨0, ![]⟩ .f32 0xFF800000#32)) (Host.reduce FloatOps.maximumf z (constant (F := Ideal) ⟨0, ![]⟩ .f32 0xFF800000#32) hr hS)))))) (constant (F := Ideal) ⟨0, ![]⟩ .f32 0x00000000#32) hr hS)))))
      = fun i => logSoftmax2 (fun j => z (ix2 (i 0) j)) (i 1) := by
  funext i
  obtain ⟨p, j, rfl⟩ : ∃ (p : Fin 50000) (j : Fin 2), i = ix2 p j := ⟨i 0, i 1, eq_ix2 i⟩
  refine (sub_logSumExp_apply hbc1 hbc2 hr hS _ p j).trans ?_
  have hsh : ∀ k : Fin 2, (subf z (broadcastInDim ⟨2, ![50000, 2]⟩ ![0, 1] hbc2 (broadcastInDim ⟨2, ![50000, 1]⟩ ![0] hbc1 (maximumf (broadcastInDim ⟨1, ![50000]⟩ ![] hbm (constant (F := Ideal) ⟨0, ![]⟩ .f32 0xFF800000#32)) (Host.reduce FloatOps.maximumf z (constant (F := Ideal) ⟨0, ![]⟩ .f32 0xFF800000#32) hr hS))))) (ix2 p k)
      = z (ix2 p k) - Finset.univ.fold max (⊥ : EReal) (fun j : Fin 2 => z (ix2 p j)) := by
    intro k
    refine (sub_col_apply hbc1 hbc2 z _ p k).trans ?_
    refine congrArg₂ (· - ·) rfl (rowMax_apply hbm hbc1 hbc2 hr hS z p)
  refine congrArg₂ (· - ·) (hsh j) (congrArg Ideal.log (congrArg₂ (· + ·) rfl (Finset.sum_congr rfl fun k _ => ?_)))
  exact congrArg Ideal.exp (hsh k)

/-- The logits: the hidden matrix against the head's weights plus the bias in every row, read at `(p, j)`. -/
theorem logit_apply
    (dd : DotDims ⟨2, ![50000, 256]⟩ ⟨2, ![256, 2]⟩ ⟨2, ![50000, 2]⟩)
    (hcr : dd.contr.rank = 1) (hsz : dd.contr.size ⟨0, by omega⟩ = 256)
    (hl0 : ∀ j k, (dd.lhsIdx j k 0).val = (j 0).val)
    (hl1 : ∀ j k, (dd.lhsIdx j k 1).val = (k ⟨0, by omega⟩).val)
    (hr0 : ∀ j k, (dd.rhsIdx j k 0).val = (k ⟨0, by omega⟩).val)
    (hr1 : ∀ j k, (dd.rhsIdx j k 1).val = (j 1).val)
    (hbb1 : (⟨1, ![2]⟩ : Shape).BroadcastsInDim ⟨2, ![1, 2]⟩ ![1])
    (hbb2 : (⟨2, ![1, 2]⟩ : Shape).BroadcastsInDim ⟨2, ![50000, 2]⟩ ![0, 1])
    (Hd : FVec Ideal ⟨2, ![50000, 256]⟩ .f32) (Wfc : FVec Ideal ⟨2, ![256, 2]⟩ .f32) (bfc : FVec Ideal ⟨1, ![2]⟩ .f32)
    (p : Fin 50000) (j : Fin 2) :
    (addf (Host.dotGeneral dd none Hd Wfc) (broadcastInDim ⟨2, ![50000, 2]⟩ ![0, 1] hbb2 (broadcastInDim ⟨2, ![1, 2]⟩ ![1] hbb1 bfc))) (ix2 p j)
      = logit Hd Wfc (fun j => bfc (ix1 j)) p j := by
  refine (addf_apply _ _ _).trans ?_
  exact congrArg₂ (· + ·) (dotGeneral_rows dd none .single hcr hsz hl0 hl1 hr0 hr1 Hd Wfc p j)
    (broadcastInDim_vec_rows_apply bfc hbb1 hbb2 p j)

/-- The head: the log-softmax of the logits is the specification's `head`. -/
theorem head_eq
    (dd : DotDims ⟨2, ![50000, 256]⟩ ⟨2, ![256, 2]⟩ ⟨2, ![50000, 2]⟩)
    (hcr : dd.contr.rank = 1) (hsz : dd.contr.size ⟨0, by omega⟩ = 256)
    (hl0 : ∀ j k, (dd.lhsIdx j k 0).val = (j 0).val)
    (hl1 : ∀ j k, (dd.lhsIdx j k 1).val = (k ⟨0, by omega⟩).val)
    (hr0 : ∀ j k, (dd.rhsIdx j k 0).val = (k ⟨0, by omega⟩).val)
    (hr1 : ∀ j k, (dd.rhsIdx j k 1).val = (j 1).val)
    (hbb1 : (⟨1, ![2]⟩ : Shape).BroadcastsInDim ⟨2, ![1, 2]⟩ ![1])
    (hbb2 : (⟨2, ![1, 2]⟩ : Shape).BroadcastsInDim ⟨2, ![50000, 2]⟩ ![0, 1])
    (hbm : (⟨0, ![]⟩ : Shape).BroadcastsInDim ⟨1, ![50000]⟩ (![] : Fin 0 → Fin 1))
    (hbc1 : (⟨1, ![50000]⟩ : Shape).BroadcastsInDim ⟨2, ![50000, 1]⟩ ![0])
    (hbc2 : (⟨2, ![50000, 1]⟩ : Shape).BroadcastsInDim ⟨2, ![50000, 2]⟩ ![0, 1])
    (hr : (⟨2, ![50000, 2]⟩ : Shape).ReducesTo [1] (⟨1, ![50000]⟩ : Shape)) (hS : 0 < (⟨0, ![]⟩ : Shape).numel)
    (Hd : FVec Ideal ⟨2, ![50000, 256]⟩ .f32) (Wfc : FVec Ideal ⟨2, ![256, 2]⟩ .f32) (bfc : FVec Ideal ⟨1, ![2]⟩ .f32) :
    (subf (subf (addf (Host.dotGeneral dd none Hd Wfc) (broadcastInDim ⟨2, ![50000, 2]⟩ ![0, 1] hbb2 (broadcastInDim ⟨2, ![1, 2]⟩ ![1] hbb1 bfc))) (broadcastInDim ⟨2, ![50000, 2]⟩ ![0, 1] hbc2 (broadcastInDim ⟨2, ![50000, 1]⟩ ![0] hbc1 (maximumf (broadcastInDim ⟨1, ![50000]⟩ ![] hbm (constant (F := Ideal) ⟨0, ![]⟩ .f32 0xFF800000#32)) (Host.reduce FloatOps.maximumf (addf (Host.dotGeneral dd none Hd Wfc) (broadcastInDim ⟨2, ![50000, 2]⟩ ![0, 1] hbb2 (broadcastInDim ⟨2, ![1, 2]⟩ ![1] hbb1 bfc))) (constant (F := Ideal) ⟨0, ![]⟩ .f32 0xFF800000#32) hr hS))))) (broadcastInDim ⟨2, ![50000, 2]⟩ ![0, 1] hbc2 (Host.log (broadcastInDim ⟨2, ![50000, 1]⟩ ![0] hbc1 (Host.reduceAdd (Host.exp (subf (addf (Host.dotGeneral dd none Hd Wfc) (broadcastInDim ⟨2, ![50000, 2]⟩ ![0, 1] hbb2 (broadcastInDim ⟨2, ![1, 2]⟩ ![1] hbb1 bfc))) (broadcastInDim ⟨2, ![50000, 2]⟩ ![0, 1] hbc2 (broadcastInDim ⟨2, ![50000, 1]⟩ ![0] hbc1 (maximumf (broadcastInDim ⟨1, ![50000]⟩ ![] hbm (constant (F := Ideal) ⟨0, ![]⟩ .f32 0xFF800000#32)) (Host.reduce FloatOps.maximumf (addf (Host.dotGeneral dd none Hd Wfc) (broadcastInDim ⟨2, ![50000, 2]⟩ ![0, 1] hbb2 (broadcastInDim ⟨2, ![1, 2]⟩ ![1] hbb1 bfc))) (constant (F := Ideal) ⟨0, ![]⟩ .f32 0xFF800000#32) hr hS)))))) (constant (F := Ideal) ⟨0, ![]⟩ .f32 0x00000000#32) hr hS)))))
      = head Hd Wfc (fun j => bfc (ix1 j)) := by
  refine (log_softmax_eq hbm hbc1 hbc2 hr hS _).trans ?_
  funext i
  show logSoftmax2 _ (i 1) = logSoftmax2 (logit Hd Wfc (fun j => bfc (ix1 j)) (i 0)) (i 1)
  refine congrArg (fun f => logSoftmax2 f (i 1)) (funext fun j => ?_)
  exact logit_apply dd hcr hsz hl0 hl1 hr0 hr1 hbb1 hbb2 Hd Wfc bfc (i 0) j

end Cert.Gcn

end
-- ==== Proof.RefValue.lean ====
/-
  The reference program's result as one function of its eight arguments.

  The stage equations of the reference's host line, composed, say that the two index columns the scatters and
  gathers read are the destination words laid as a column and the source words wrapped and laid as a column, that
  the scaling vector is the inverse square root of the degree where the degree is positive and zero elsewhere, that
  each layer is the edge-weighted arrangement (gather the product's rows along the sources, weight each edge's row
  by the scaling at its source and at its destination, add the rows per destination from zero, add the bias, clip at
  zero), and that the result is the log-softmax of the two logits of each node. Each arrangement is the
  specification's function of the same name; so the result is two edge-weighted layers followed by the head.
-/
import proofs.«122100_j8770323219094_2_alg».proof.Proof.RefStages
import proofs.«122100_j8770323219094_2_alg».proof.Proof.RTerms
import proofs.«122100_j8770323219094_2_alg».proof.Proof.HostEdgeLayer
import proofs.«122100_j8770323219094_2_alg».proof.Proof.HostHead

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The source words are those of the edge list. -/
theorem srcWords_val (m : (ℓ : Loc nD τ sig) → Buf (Elt Ideal) ℓ) (c : Dev nD) : V_v3 m c = RTerms.srcWords (A m c main_arg1) := srcWords_eq m c

/-- The destination words are those of the edge list. -/
theorem dstWords_val (m : (ℓ : Loc nD τ sig) → Buf (Elt Ideal) ℓ) (c : Dev nD) : V_v6 m c = RTerms.dstWords (A m c main_arg1) := dstWords_eq m c

/-- The column the matrix gathers read is the wrapped source column. -/
theorem v36_val (m : (ℓ : Loc nD τ sig) → Buf (Elt Ideal) ℓ) (c : Dev nD) : V_v36 m c = RTerms.srcCol (A m c main_arg1) :=
  (v36_eq m c).trans (congrArg RTerms.wrapCol (srcWords_val m c))
theorem v54_val (m : (ℓ : Loc nD τ sig) → Buf (Elt Ideal) ℓ) (c : Dev nD) : V_v54 m c = RTerms.srcCol (A m c main_arg1) :=
  (v54_eq m c).trans (congrArg RTerms.wrapCol (srcWords_val m c))
theorem v20_val (m : (ℓ : Loc nD τ sig) → Buf (Elt Ideal) ℓ) (c : Dev nD) : V_v20 m c = RTerms.srcCol (A m c main_arg1) :=
  (v20_eq m c).trans (congrArg RTerms.wrapCol (srcWords_val m c))

/-- The column the weight's second gather reads is the wrapped destination column. -/
theorem v27_val (m : (ℓ : Loc nD τ sig) → Buf (Elt Ideal) ℓ) (c : Dev nD) : V_v27 m c = RTerms.wrapCol (RTerms.dstWords (A m c main_arg1)) :=
  (v27_eq m c).trans (congrArg RTerms.wrapCol (dstWords_val m c))

/-- The columns the scatters read are the destination column. -/
theorem v9_val (m : (ℓ : Loc nD τ sig) → Buf (Elt Ideal) ℓ) (c : Dev nD) : V_v9 m c = RTerms.dstCol (A m c main_arg1) :=
  (st_v9 m c).trans (congrArg (broadcastInDim S850000x1 ![0] bcast_S850000_S850000x1_0 : IVec S850000 32 → IVec S850000x1 32) (dstWords_val m c))
theorem v42_val (m : (ℓ : Loc nD τ sig) → Buf (Elt Ideal) ℓ) (c : Dev nD) : V_v42 m c = RTerms.dstCol (A m c main_arg1) :=
  (st_v42 m c).trans (congrArg (broadcastInDim S850000x1 ![0] bcast_S850000_S850000x1_0 : IVec S850000 32 → IVec S850000x1 32) (dstWords_val m c))
theorem v60_val (m : (ℓ : Loc nD τ sig) → Buf (Elt Ideal) ℓ) (c : Dev nD) : V_v60 m c = RTerms.dstCol (A m c main_arg1) :=
  (st_v60 m c).trans (congrArg (broadcastInDim S850000x1 ![0] bcast_S850000_S850000x1_0 : IVec S850000 32 → IVec S850000x1 32) (dstWords_val m c))

/-- The scaling vector is the inverse square root of the degrees. -/
theorem v14_val (m : (ℓ : Loc nD τ sig) → Buf (Elt Ideal) ℓ) (c : Dev nD) : V_v14 m c = RTerms.dinvVec (A m c main_arg1) :=
  (dinv m c).trans (by rw [v9_val m c]; rfl)

/-- One edge-weighted layer over the columns of this program, as the specification's function. -/
theorem layer_val (m : (ℓ : Loc nD τ sig) → Buf (Elt Ideal) ℓ) (c : Dev nD) (dI sI sI' : IVec S850000x1 32) (hs : sI' = sI)
    (X : FVec Ideal S50000x256 .f32) (W : FVec Ideal S256x256 .f32) (b : FVec Ideal S256 .f32) :
    maximumf (addf (Host.scatterAdd scatter_S50000x256_S850000x1_S850000x256_1_0_0_1 (broadcastInDim S50000x256 ![] bcast_S_S50000x256 (constant (F := Ideal) S_ .f32 0x00000000#32)) dI (mulf (Host.gather gather_S50000x256_S850000x1_S850000x256_1_0_n_n_0_1_1256 (Host.dotGeneral dot_S50000x256_S256x256_S50000x256_1_0_0_1_n_n none X W) sI) (broadcastInDim S850000x256 ![0, 1] bcast_S850000x1_S850000x256_0_1 (broadcastInDim S850000x1 ![0] bcast_S850000_S850000x1_0 (mulf (Host.gather gather_S50000_S850000x1_S850000_n_0_n_n_0_1_1 (V_v14 m c) sI') (Host.gather gather_S50000_S850000x1_S850000_n_0_n_n_0_1_1 (V_v14 m c) (V_v27 m c))))))) (broadcastInDim S50000x256 ![0, 1] bcast_S1x256_S50000x256_0_1 (broadcastInDim S1x256 ![1] bcast_S256_S1x256_1 b))) (broadcastInDim S50000x256 ![] bcast_S_S50000x256 (constant (F := Ideal) S_ .f32 0x00000000#32))
      = Cert.Gcn.edgeWeighted dI sI (RTerms.wrapCol (RTerms.dstWords (A m c main_arg1))) (fun v => RTerms.dinvVec (A m c main_arg1) (ix1 v)) X W (fun k => b (ix1 k)) := by
  rw [← v27_val m c, ← v14_val m c]
  exact Cert.Gcn.edge_layer_eq gather_S50000_S850000x1_S850000_n_0_n_n_0_1_1 rfl rfl rfl rfl rfl rfl
    gather_S50000x256_S850000x1_S850000x256_1_0_n_n_0_1_1256 rfl rfl rfl rfl rfl rfl
    scatter_S50000x256_S850000x1_S850000x256_1_0_0_1 rfl rfl rfl rfl
    dot_S50000x256_S256x256_S50000x256_1_0_0_1_n_n rfl rfl (fun _ _ => rfl) (fun _ _ => rfl) (fun _ _ => rfl) (fun _ _ => rfl)
    bcast_S_S50000x256 bcast_S850000_S850000x1_0 bcast_S850000x1_S850000x256_0_1 bcast_S256_S1x256_1 bcast_S1x256_S50000x256_0_1
    (V_v14 m c) sI' (V_v27 m c) sI dI (fun e => by rw [hs]) X W b

/-- The first layer's result. -/
theorem v47_val (m : (ℓ : Loc nD τ sig) → Buf (Elt Ideal) ℓ) (c : Dev nD) :
    V_v47 m c = Cert.Gcn.edgeWeighted (RTerms.dstCol (A m c main_arg1)) (RTerms.srcCol (A m c main_arg1)) (RTerms.wrapCol (RTerms.dstWords (A m c main_arg1)))
      (fun v => RTerms.dinvVec (A m c main_arg1) (ix1 v)) (V_arg0 m c) (V_arg2 m c) (fun k => V_arg3 m c (ix1 k)) := by
  refine (layer1 m c).trans ?_
  have hw : V_v29 m c = _ := edgeWeight m c
  rw [hw, ← v42_val m c, ← v36_val m c]
  exact layer_val m c (V_v42 m c) (V_v36 m c) (V_v20 m c) ((v20_val m c).trans (v36_val m c).symm) (V_arg0 m c) (V_arg2 m c) (V_arg3 m c)

/-- The second layer's result. -/
theorem v65_val (m : (ℓ : Loc nD τ sig) → Buf (Elt Ideal) ℓ) (c : Dev nD) :
    V_v65 m c = Cert.Gcn.edgeWeighted (RTerms.dstCol (A m c main_arg1)) (RTerms.srcCol (A m c main_arg1)) (RTerms.wrapCol (RTerms.dstWords (A m c main_arg1)))
      (fun v => RTerms.dinvVec (A m c main_arg1) (ix1 v)) (V_v47 m c) (V_arg4 m c) (fun k => V_arg5 m c (ix1 k)) := by
  refine (layer2 m c).trans ?_
  have hw : V_v29 m c = _ := edgeWeight m c
  rw [hw, ← v60_val m c, ← v54_val m c]
  exact layer_val m c (V_v60 m c) (V_v54 m c) (V_v20 m c) ((v20_val m c).trans (v54_val m c).symm) (V_v47 m c) (V_arg4 m c) (V_arg5 m c)

/-- The result is the head on the second layer's result. -/
theorem v70_val (m : (ℓ : Loc nD τ sig) → Buf (Elt Ideal) ℓ) (c : Dev nD) :
    V_v70 m c = Cert.Gcn.head (V_v65 m c) (V_arg6 m c) (fun j => V_arg7 m c (ix1 j)) :=
  (head m c).trans (Cert.Gcn.head_eq dot_S50000x256_S256x2_S50000x2_1_0_0_1_n_n rfl rfl (fun _ _ => rfl) (fun _ _ => rfl) (fun _ _ => rfl) (fun _ _ => rfl)
    bcast_S2_S1x2_1 bcast_S1x2_S50000x2_0_1 bcast_S_S50000 bcast_S50000_S50000x1_0 bcast_S50000x1_S50000x2_0_1
    reducesTo_S50000x2_S50000_d1 h_S_ (V_v65 m c) (V_arg6 m c) (V_arg7 m c))

/-- THE REFERENCE'S RESULT: after the whole host line the result buffer holds two edge-weighted layers and the head
    of the eight arguments. -/
theorem ref_value (m : (ℓ : Loc nD τ sig) → Buf (Elt Ideal) ℓ) (c : Dev nD) :
    A m c main_v70 = RTerms.refOut (A m c main_arg0) (A m c main_arg1) (A m c main_arg2) (A m c main_arg3)
      (A m c main_arg4) (A m c main_arg5) (A m c main_arg6) (A m c main_arg7) := by
  refine (v70_val m c).trans ?_
  rw [v65_val m c, v47_val m c]
  unfold RTerms.refOut
  rfl

end Cert.ReferenceIdeal.RefValue

end
-- ==== Proof.CrossTerms.lean ====
/-
  The two idealized programs build their host-side terms from the edge list by the same operations over the same
  literal shapes; the two copies differ only in the proofs of the operations' side conditions, which are propositions.
  So the reference's result, stated over its own copies of the edge words, the wrapped column, the degrees and the
  inverse square roots, is the same function stated over the kernel program's copies.
-/
import proofs.«122100_j8770323219094_2_alg».proof.Proof.RTerms
import proofs.«122100_j8770323219094_2_alg».proof.Proof.KTerms

noncomputable section

namespace Cert.CrossTerms

open Idealize.ShloMosaic Idealize.ShloMosaic.ValueIdx

/-- The reference's result over the kernel program's copies of the edge-list terms. -/
theorem refOut_eq (x : FVec Ideal Cert.ReferenceIdeal.S50000x256 .f32) (ei : IVec Cert.ReferenceIdeal.S2x800000 32)
    (w1 : FVec Ideal Cert.ReferenceIdeal.S256x256 .f32) (b1 : FVec Ideal Cert.ReferenceIdeal.S256 .f32)
    (w2 : FVec Ideal Cert.ReferenceIdeal.S256x256 .f32) (b2 : FVec Ideal Cert.ReferenceIdeal.S256 .f32)
    (wfc : FVec Ideal Cert.ReferenceIdeal.S256x2 .f32) (bfc : FVec Ideal Cert.ReferenceIdeal.S2 .f32) :
    Cert.ReferenceIdeal.RTerms.refOut x ei w1 b1 w2 b2 wfc bfc
      = Cert.Gcn.head
          (Cert.Gcn.edgeWeighted (Cert.KernelIdeal.Terms.dstCol ei) (Cert.KernelIdeal.Terms.srcCol ei)
            (Cert.KernelIdeal.Terms.wrapCol (Cert.KernelIdeal.Terms.dstWords ei)) (fun v => Cert.KernelIdeal.Terms.dinvVec ei (ix1 v))
            (Cert.Gcn.edgeWeighted (Cert.KernelIdeal.Terms.dstCol ei) (Cert.KernelIdeal.Terms.srcCol ei)
              (Cert.KernelIdeal.Terms.wrapCol (Cert.KernelIdeal.Terms.dstWords ei)) (fun v => Cert.KernelIdeal.Terms.dinvVec ei (ix1 v))
              x w1 (fun k => b1 (ix1 k)))
            w2 (fun k => b2 (ix1 k)))
          wfc (fun j => bfc (ix1 j)) := rfl

end Cert.CrossTerms

end
-- ==== Proof.lean ====
/-
  A two-layer graph convolution with a log-softmax head over 50000 nodes and 850000 edges (self loops included):
  the idealized kernel and the idealized reference compute the same extended reals from the same finite inputs.

  Both programs build, from the edge list, each edge's source and destination word and the vector `d` of inverse
  square roots of the node degrees. A layer of the reference weights the row an edge carries by
  `d (source) · d (destination)` and adds the rows per destination; a layer of the kernel scales the rows of the
  product by `d` first (a kernel region), adds the rows per destination (host operations), and scales the total by
  `d` again before the bias and the clip (the next region). An edge that reaches node `v` has destination `v`, so the
  two totals differ by moving the factor `d v` across a finite sum: true because every term is a real number,
  which the precondition gives for the inputs and which each layer preserves. The head (a 256 → 2 product, a bias,
  a row-wise log-softmax) is the same function on both sides.

  The kernel's value: its run ends with the result array at the last boundary's contents (KRun); the boundaries,
  walked in order with each region's output array read as one whole-array function of what the region found
  (KRegion0 … KRegion3, KChain), give the kernel's function of its arguments (KTerms.kernelOut); that function is the
  edge-weighted form (Bridge, over LayerLaw). The reference's value: its run ends with every buffer at the fold of its
  operations (RefRun), read one operation at a time (RefStages, RefValue) as the edge-weighted form; the two programs'
  index and degree terms are the same functions of the edge list (CrossTerms).
-/
import proofs.«122100_j8770323219094_2_alg».proof.Defs
import proofs.«122100_j8770323219094_2_alg».proof.Proof.Gen.Kernel
import proofs.«122100_j8770323219094_2_alg».proof.Proof.Gen.Kernel.Skeleton
import proofs.«122100_j8770323219094_2_alg».proof.Proof.Gen.Kernel.Launch
import proofs.«122100_j8770323219094_2_alg».proof.Proof.Gen.Kernel.Points
import proofs.«122100_j8770323219094_2_alg».proof.Proof.Gen.Kernel.Frame
import proofs.«122100_j8770323219094_2_alg».proof.Proof.Gen.KernelIdeal
import proofs.«122100_j8770323219094_2_alg».proof.Proof.Gen.KernelIdeal.Skeleton
import proofs.«122100_j8770323219094_2_alg».proof.Proof.Gen.KernelIdeal.Launch
import proofs.«122100_j8770323219094_2_alg».proof.Proof.Gen.KernelIdeal.Points
import proofs.«122100_j8770323219094_2_alg».proof.Proof.Gen.KernelIdeal.Frame
import proofs.«122100_j8770323219094_2_alg».proof.Proof.Gen.ReferenceIdeal
import proofs.«122100_j8770323219094_2_alg».proof.Proof.Gen.Pre_finite_inputs
import proofs.«122100_j8770323219094_2_alg».proof.Proof.RefRun
import proofs.«122100_j8770323219094_2_alg».proof.Proof.KRun
import proofs.«122100_j8770323219094_2_alg».proof.Proof.KChain
import proofs.«122100_j8770323219094_2_alg».proof.Proof.KRegion0
import proofs.«122100_j8770323219094_2_alg».proof.Proof.KRegion1
import proofs.«122100_j8770323219094_2_alg».proof.Proof.KRegion2
import proofs.«122100_j8770323219094_2_alg».proof.Proof.KRegion3
import proofs.«122100_j8770323219094_2_alg».proof.Proof.Bridge
import proofs.«122100_j8770323219094_2_alg».proof.Proof.FiniteInputs
import proofs.«122100_j8770323219094_2_alg».proof.Proof.RefValue
import proofs.«122100_j8770323219094_2_alg».proof.Proof.CrossTerms
import Idealize.ShloMosaic.Adequacy
import Idealize.ShloMosaic.Init

noncomputable section

namespace Cert.Proof

open Idealize.ShloMosaic Idealize.SL.Sem

/-- The three programs run, fault-free, and leave their arguments as launched. -/
theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c => by
      have k := Cert.ReferenceIdeal.RunP.args_kept (F := Ideal) m c
      exact ⟨(h c _).trans k.1, (h c _).trans k.2.1, (h c _).trans k.2.2.1, (h c _).trans k.2.2.2.1,
        (h c _).trans k.2.2.2.2.1, (h c _).trans k.2.2.2.2.2.1, (h c _).trans k.2.2.2.2.2.2.1, (h c _).trans k.2.2.2.2.2.2.2⟩)
    (Cert.ReferenceIdeal.RunP.run_after (F := Ideal) m ρ)

/-- The ideal pass rewrote nothing: the idealization is the program's own text read on the extended reals. -/
theorem preserves : Cert.preserves_Kernel_KernelIdeal := trivial

/-- From memories agreeing on the arguments, both idealized programs end with the same result array: the kernel's
    function of the arguments (read off its boundaries) is the edge-weighted form on real inputs, and the reference's
    fold of operations is that form too. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Terms.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans
        (Cert.KernelIdeal.Chain.result_eq m ρ c (fun V c => Cert.KernelIdeal.RegionValue.region0_array V c)
          (fun V c => Cert.KernelIdeal.RegionValue.region1_array V c) (fun V c => Cert.KernelIdeal.RegionValue.region2_array V c)
          (fun V c => Cert.KernelIdeal.RegionValue.region3_array V c)), (h c).2⟩)
      (Cert.KernelIdeal.RunV.run_value (F := Ideal) m ρ)
  · refine (θ_run Cert.ReferenceIdeal.defs _ _).mono (fun r h c => ?_) (Cert.ReferenceIdeal.RunP.run_after (F := Ideal) m' ρ')
    have k := Cert.ReferenceIdeal.RunP.args_kept (F := Ideal) m' c
    obtain ⟨hx, hw1, hb1, hw2, -, -, -⟩ := Cert.FiniteInputs.real_of_pre _ _ _ _ _ _ _ _ (hpre c)
    refine ⟨?_, (h c _).trans k.1, (h c _).trans k.2.1, (h c _).trans k.2.2.1, (h c _).trans k.2.2.2.1,
      (h c _).trans k.2.2.2.2.1, (h c _).trans k.2.2.2.2.2.1, (h c _).trans k.2.2.2.2.2.2.1, (h c _).trans k.2.2.2.2.2.2.2⟩
    refine (h c _).trans ((Cert.ReferenceIdeal.RefValue.ref_value m' c).trans ?_)
    dsimp only [Cert.ReferenceIdeal.RefValue.A]
    rw [k.1, k.2.1, k.2.2.1, k.2.2.2.1, k.2.2.2.2.1, k.2.2.2.2.2.1, k.2.2.2.2.2.2.1, k.2.2.2.2.2.2.2,
      (hagree c).1, (hagree c).2.1, (hagree c).2.2.1, (hagree c).2.2.2.1, (hagree c).2.2.2.2.1, (hagree c).2.2.2.2.2.1,
      (hagree c).2.2.2.2.2.2.1, (hagree c).2.2.2.2.2.2.2, Cert.CrossTerms.refOut_eq]
    exact (Cert.KernelIdeal.Terms.kernelOut_eq _ _ _ _ _ _ _ _ hx hw1 hb1 hw2).symm

/-- Everything this certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
